-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v4_1)) (v1 : (c : Dev Cert.KernelIdeal.nD) → Buf (Elt Ideal) ((c.tc : Thread Cert.KernelIdeal.nD Cert.KernelIdeal.τ).loc Cert.KernelIdeal.main_v116)) (v2 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_1) = v0 c
          ∧ r.2.mem ((c.tc : Thread Cert.KernelIdeal.nD Cert.KernelIdeal.τ).loc Cert.KernelIdeal.main_v116) = v1 c
          ∧ r.2.mem ((c.tc : Thread Cert.KernelIdeal.nD Cert.KernelIdeal.τ).loc Cert.KernelIdeal.main_v112) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v132) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x5000 : Shape := ⟨2, ![4096, 5000]⟩
abbrev S200000x128 : Shape := ⟨2, ![200000, 128]⟩
abbrev S2x6400000 : Shape := ⟨2, ![2, 6400000]⟩
abbrev S200000 : Shape := ⟨1, ![200000]⟩
abbrev S5000x8 : Shape := ⟨2, ![5000, 8]⟩
abbrev S8 : Shape := ⟨1, ![8]⟩
abbrev S8x4 : Shape := ⟨2, ![8, 4]⟩
abbrev S4 : Shape := ⟨1, ![4]⟩
abbrev S4x8 : Shape := ⟨2, ![4, 8]⟩
abbrev S8x5000 : Shape := ⟨2, ![8, 5000]⟩
abbrev S5000 : Shape := ⟨1, ![5000]⟩
abbrev S128x8 : Shape := ⟨2, ![128, 8]⟩
abbrev S8x1 : Shape := ⟨2, ![8, 1]⟩
abbrev S1 : Shape := ⟨1, ![1]⟩
abbrev S_ : Shape := ⟨0, ![]⟩

class Facts : Prop where
  bcast_S_S4096x5000 : S_.BroadcastsInDim S4096x5000 (![] : Fin 0 → Fin S4096x5000.rank)
  reducesTo_S4096x5000_S_d0_1 : S4096x5000.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S5000x8 : S_.BroadcastsInDim S5000x8 (![] : Fin 0 → Fin S5000x8.rank)
  reducesTo_S5000x8_S_d0_1 : S5000x8.ReducesTo [0, 1] S_
  bcast_S_S8 : S_.BroadcastsInDim S8 (![] : Fin 0 → Fin S8.rank)
  reducesTo_S8_S_d0 : S8.ReducesTo [0] S_
  bcast_S_S8x4 : S_.BroadcastsInDim S8x4 (![] : Fin 0 → Fin S8x4.rank)
  reducesTo_S8x4_S_d0_1 : S8x4.ReducesTo [0, 1] S_
  bcast_S_S4 : S_.BroadcastsInDim S4 (![] : Fin 0 → Fin S4.rank)
  reducesTo_S4_S_d0 : S4.ReducesTo [0] S_
  bcast_S_S4x8 : S_.BroadcastsInDim S4x8 (![] : Fin 0 → Fin S4x8.rank)
  reducesTo_S4x8_S_d0_1 : S4x8.ReducesTo [0, 1] S_
  bcast_S_S8x5000 : S_.BroadcastsInDim S8x5000 (![] : Fin 0 → Fin S8x5000.rank)
  reducesTo_S8x5000_S_d0_1 : S8x5000.ReducesTo [0, 1] S_
  bcast_S_S5000 : S_.BroadcastsInDim S5000 (![] : Fin 0 → Fin S5000.rank)
  reducesTo_S5000_S_d0 : S5000.ReducesTo [0] S_
  bcast_S_S128x8 : S_.BroadcastsInDim S128x8 (![] : Fin 0 → Fin S128x8.rank)
  reducesTo_S128x8_S_d0_1 : S128x8.ReducesTo [0, 1] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S8x1 .f32) (main_arg17 : FVec F S1 .f32) (main_v63 : IVec S_ 1) (main_v67 : IVec S_ 1) : IVec S_ 1 :=
  let main_v68 : IVec S_ 1 := andi main_v63 main_v67
  let main_v69 : FVec F S8x1 .f32 := Host.absf main_arg16
  let main_cst_26 : FVec F S_ .f32 := constant S_ .f32 0x7F800000#32
  let main_v70 : FVec F S8x1 .f32 := broadcastInDim S8x1 ![] bcast_S_S8x1 main_cst_26
  let main_v71 : IVec S8x1 1 := cmpf .olt main_v69 main_v70
  let main_c_27 : IVec S_ 1 := constantI S_ 1 1#1
  let main_v72 : IVec S_ 1 := (fun x v => Host.reduce IntOp.andi x v reducesTo_S8x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg13 : FVec F S8 .f32) (main_arg14 : FVec F S8x4 .f32) (main_arg15 : FVec F S4 .f32) (main_arg16 : FVec F S8x1 .f32) (main_arg17 : FVec F S1 .f32) (main_v48 : IVec S_ 1) (main_v49 : FVec F S128x8 .f32) (main_v50 : FVec F S128x8 .f32) : IVec S_ 1 :=
  let main_v51 : IVec S128x8 1 := cmpf .olt main_v49 main_v50
  let main_c_19 : IVec S_ 1 := constantI S_ 1 1#1
  let main_v52 : IVec S_ 1 := (fun x v => Host.reduce IntOp.andi x v reducesTo_S128x8_S_d0_1 h_S_) main_v51 main_c_19
  let main_v53 : IVec S_ 1 := andi main_v48 main_v52
  let main_v54 : FVec F S8 .f32 := Host.absf main_arg13
  let main_cst_20 : FVec F S_ .f32 := constant S_ .f32 0x7F800000#32
  let main_v55 : FVec F S8 .f32 := broadcastInDim S8 ![] bcast_S_S8 main_cst_20
  let main_v56 : IVec S8 1 := cmpf .olt main_v54 main_v55
  let main_c_21 : IVec S_ 1 := constantI S_ 1 1#1
  let main_v57 : IVec S_ 1 := (fun x v => Host.reduce IntOp.andi x v reducesTo_S8_S_d0 h_S_) main_v56 main_c_21
  let main_v58 : IVec S_ 1 := andi main_v53 main_v57
  let main_v59 : FVec F S8x4 .f32 := Host.absf main_arg14
  let main_cst_22 : FVec F S_ .f32 := constant S_ .f32 0x7F800000#32
  let main_v60 : FVec F S8x4 .f32 := broadcastInDim S8x4 ![] bcast_S_S8x4 main_cst_22
  let main_v61 : IVec S8x4 1 := cmpf .olt main_v59 main_v60
  let main_c_23 : IVec S_ 1 := constantI S_ 1 1#1
  let main_v62 : IVec S_ 1 := (fun x v => Host.reduce IntOp.andi x v reducesTo_S8x4_S_d0_1 h_S_) main_v61 main_c_23
  let main_v63 : IVec S_ 1 := andi main_v58 main_v62
  let main_v64 : FVec F S4 .f32 := Host.absf main_arg15
  let main_cst_24 : FVec F S_ .f32 := constant S_ .f32 0x7F800000#32
  let main_v65 : FVec F S4 .f32 := broadcastInDim S4 ![] bcast_S_S4 main_cst_24
  let main_v66 : IVec S4 1 := cmpf .olt main_v64 main_v65
  let main_c_25 : IVec S_ 1 := constantI S_ 1 1#1
  let main_v67 : IVec S_ 1 := (fun x v => Host.reduce IntOp.andi x v reducesTo_S4_S_d0 h_S_) main_v66 main_c_25
  fn_part4 (F := F) main_arg16 main_arg17 main_v63 main_v67

def fn_part2 {F : FTy → Type} [FloatOps F] (main_arg9 : FVec F S8 .f32) (main_arg10 : FVec F S8x5000 .f32) (main_arg11 : FVec F S5000 .f32) (main_arg12 : FVec F S128x8 .f32) (main_arg13 : FVec F S8 .f32) (main_arg14 : FVec F S8x4 .f32) (main_arg15 : FVec F S4 .f32) (main_arg16 : FVec F S8x1 .f32) (main_arg17 : FVec F S1 .f32) (main_v33 : IVec S_ 1) : IVec S_ 1 :=
  let main_v34 : FVec F S8 .f32 := Host.absf main_arg9
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S8x5000 .f32 := Host.absf main_arg10
  let main_cst_14 : FVec F S_ .f32 := constant S_ .f32 0x7F800000#32
  let main_v40 : FVec F S8x5000 .f32 := broadcastInDim S8x5000 ![] bcast_S_S8x5000 main_cst_14
  let main_v41 : IVec S8x5000 1 := cmpf .olt main_v39 main_v40
  let main_c_15 : IVec S_ 1 := constantI S_ 1 1#1
  let main_v42 : IVec S_ 1 := (fun x v => Host.reduce IntOp.andi x v reducesTo_S8x5000_S_d0_1 h_S_) main_v41 main_c_15
  let main_v43 : IVec S_ 1 := andi main_v38 main_v42
  let main_v44 : FVec F S5000 .f32 := Host.absf main_arg11
  let main_cst_16 : FVec F S_ .f32 := constant S_ .f32 0x7F800000#32
  let main_v45 : FVec F S5000 .f32 := broadcastInDim S5000 ![] bcast_S_S5000 main_cst_16
  let main_v46 : IVec S5000 1 := cmpf .olt main_v44 main_v45
  let main_c_17 : IVec S_ 1 := constantI S_ 1 1#1
  let main_v47 : IVec S_ 1 := (fun x v => Host.reduce IntOp.andi x v reducesTo_S5000_S_d0 h_S_) main_v46 main_c_17
  let main_v48 : IVec S_ 1 := andi main_v43 main_v47
  let main_v49 : FVec F S128x8 .f32 := Host.absf main_arg12
  let main_cst_18 : FVec F S_ .f32 := constant S_ .f32 0x7F800000#32
  let main_v50 : FVec F S128x8 .f32 := broadcastInDim S128x8 ![] bcast_S_S128x8 main_cst_18
  fn_part3 (F := F) main_arg13 main_arg14 main_arg15 main_arg16 main_arg17 main_v48 main_v49 main_v50

def fn_part1 {F : FTy → Type} [FloatOps F] (main_arg6 : FVec F S8x4 .f32) (main_arg7 : FVec F S4 .f32) (main_arg8 : FVec F S4x8 .f32) (main_arg9 : FVec F S8 .f32) (main_arg10 : FVec F S8x5000 .f32) (main_arg11 : FVec F S5000 .f32) (main_arg12 : FVec F S128x8 .f32) (main_arg13 : FVec F S8 .f32) (main_arg14 : FVec F S8x4 .f32) (main_arg15 : FVec F S4 .f32) (main_arg16 : FVec F S8x1 .f32) (main_arg17 : FVec F S1 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S8x4 .f32 := Host.absf main_arg6
  let main_cst_6 : FVec F S_ .f32 := constant S_ .f32 0x7F800000#32
  let main_v20 : FVec F S8x4 .f32 := broadcastInDim S8x4 ![] bcast_S_S8x4 main_cst_6
  let main_v21 : IVec S8x4 1 := cmpf .olt main_v19 main_v20
  let main_c_7 : IVec S_ 1 := constantI S_ 1 1#1
  let main_v22 : IVec S_ 1 := (fun x v => Host.reduce IntOp.andi x v reducesTo_S8x4_S_d0_1 h_S_) main_v21 main_c_7
  let main_v23 : IVec S_ 1 := andi main_v18 main_v22
  let main_v24 : FVec F S4 .f32 := Host.absf main_arg7
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S4x8 .f32 := Host.absf main_arg8
  let main_cst_10 : FVec F S_ .f32 := constant S_ .f32 0x7F800000#32
  let main_v30 : FVec F S4x8 .f32 := broadcastInDim S4x8 ![] bcast_S_S4x8 main_cst_10
  let main_v31 : IVec S4x8 1 := cmpf .olt main_v29 main_v30
  let main_c_11 : IVec S_ 1 := constantI S_ 1 1#1
  let main_v32 : IVec S_ 1 := (fun x v => Host.reduce IntOp.andi x v reducesTo_S4x8_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S4096x5000 .f32) (main_arg1 : FVec F S200000x128 .f32) (main_arg2 : IVec S2x6400000 32) (main_arg3 : IVec S200000 32) (main_arg4 : FVec F S5000x8 .f32) (main_arg5 : FVec F S8 .f32) (main_arg6 : FVec F S8x4 .f32) (main_arg7 : FVec F S4 .f32) (main_arg8 : FVec F S4x8 .f32) (main_arg9 : FVec F S8 .f32) (main_arg10 : FVec F S8x5000 .f32) (main_arg11 : FVec F S5000 .f32) (main_arg12 : FVec F S128x8 .f32) (main_arg13 : FVec F S8 .f32) (main_arg14 : FVec F S8x4 .f32) (main_arg15 : FVec F S4 .f32) (main_arg16 : FVec F S8x1 .f32) (main_arg17 : FVec F S1 .f32) : IVec S_ 1 :=
  let main_v0 : FVec F S4096x5000 .f32 := Host.absf main_arg0
  let main_cst : FVec F S_ .f32 := constant S_ .f32 0x7F800000#32
  let main_v1 : FVec F S4096x5000 .f32 := broadcastInDim S4096x5000 ![] bcast_S_S4096x5000 main_cst
  let main_v2 : IVec S4096x5000 1 := cmpf .olt main_v0 main_v1
  let main_c : IVec S_ 1 := constantI S_ 1 1#1
  let main_v3 : IVec S_ 1 := (fun x v => Host.reduce IntOp.andi x v reducesTo_S4096x5000_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S5000x8 .f32 := Host.absf main_arg4
  let main_cst_2 : FVec F S_ .f32 := constant S_ .f32 0x7F800000#32
  let main_v10 : FVec F S5000x8 .f32 := broadcastInDim S5000x8 ![] bcast_S_S5000x8 main_cst_2
  let main_v11 : IVec S5000x8 1 := cmpf .olt main_v9 main_v10
  let main_c_3 : IVec S_ 1 := constantI S_ 1 1#1
  let main_v12 : IVec S_ 1 := (fun x v => Host.reduce IntOp.andi x v reducesTo_S5000x8_S_d0_1 h_S_) main_v11 main_c_3
  let main_v13 : IVec S_ 1 := andi main_v8 main_v12
  let main_v14 : FVec F S8 .f32 := Host.absf main_arg5
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S4096x5000 : Shape := ⟨2, ![4096, 5000]⟩
abbrev S200000x128 : Shape := ⟨2, ![200000, 128]⟩
abbrev S2x6400000 : Shape := ⟨2, ![2, 6400000]⟩
abbrev S200000 : Shape := ⟨1, ![200000]⟩
abbrev S5000x8 : Shape := ⟨2, ![5000, 8]⟩
abbrev S8 : Shape := ⟨1, ![8]⟩
abbrev S8x4 : Shape := ⟨2, ![8, 4]⟩
abbrev S4 : Shape := ⟨1, ![4]⟩
abbrev S4x8 : Shape := ⟨2, ![4, 8]⟩
abbrev S8x5000 : Shape := ⟨2, ![8, 5000]⟩
abbrev S5000 : Shape := ⟨1, ![5000]⟩
abbrev S128x8 : Shape := ⟨2, ![128, 8]⟩
abbrev S8x1 : Shape := ⟨2, ![8, 1]⟩
abbrev S1 : Shape := ⟨1, ![1]⟩
abbrev S1x8 : Shape := ⟨2, ![1, 8]⟩
abbrev S1x4 : Shape := ⟨2, ![1, 4]⟩
abbrev S1x5000 : Shape := ⟨2, ![1, 5000]⟩
abbrev S4096x4 : Shape := ⟨2, ![4096, 4]⟩
abbrev S256x5000 : Shape := ⟨2, ![256, 5000]⟩
abbrev S256x4 : Shape := ⟨2, ![256, 4]⟩
abbrev S256x8 : Shape := ⟨2, ![256, 8]⟩
abbrev S1x6400000 : Shape := ⟨2, ![1, 6400000]⟩
abbrev S6400000 : Shape := ⟨1, ![6400000]⟩
abbrev S200000x8 : Shape := ⟨2, ![200000, 8]⟩
abbrev S10000x128 : Shape := ⟨2, ![10000, 128]⟩
abbrev S10000x8 : Shape := ⟨2, ![10000, 8]⟩
abbrev S6600000 : Shape := ⟨1, ![6600000]⟩
abbrev S_ : Shape := ⟨0, ![]⟩
abbrev S6600000x1 : Shape := ⟨2, ![6600000, 1]⟩
abbrev S6600000x8 : Shape := ⟨2, ![6600000, 8]⟩
abbrev S200000x4 : Shape := ⟨2, ![200000, 4]⟩
abbrev S10000x4 : Shape := ⟨2, ![10000, 4]⟩
abbrev S6600000x4 : Shape := ⟨2, ![6600000, 4]⟩
abbrev S200000x1 : Shape := ⟨2, ![200000, 1]⟩
abbrev S4096 : Shape := ⟨1, ![4096]⟩
abbrev S4096x1 : Shape := ⟨2, ![4096, 1]⟩
abbrev S4096x8 : Shape := ⟨2, ![4096, 8]⟩
abbrev S1x1 : Shape := ⟨2, ![1, 1]⟩

abbrev nBuf : Space → Nat
  | .hbm => 170
  | .vmem => 24
  | .smem => 0
  | _ => 0

abbrev hbmTy0_0 (i : Nat) : BufTy := match i % 128 with
  | 0 => ⟨S4096x5000, .f32⟩
  | 1 => ⟨S200000x128, .f32⟩
  | 2 => ⟨S2x6400000, .i32⟩
  | 3 => ⟨S200000, .i32⟩
  | 4 => ⟨S5000x8, .f32⟩
  | 5 => ⟨S8, .f32⟩
  | 6 => ⟨S8x4, .f32⟩
  | 7 => ⟨S4, .f32⟩
  | 8 => ⟨S4x8, .f32⟩
  | 9 => ⟨S8, .f32⟩
  | 10 => ⟨S8x5000, .f32⟩
  | 11 => ⟨S5000, .f32⟩
  | 12 => ⟨S128x8, .f32⟩
  | 13 => ⟨S8, .f32⟩
  | 14 => ⟨S8x4, .f32⟩
  | 15 => ⟨S4, .f32⟩
  | 16 => ⟨S8x1, .f32⟩
  | 17 => ⟨S1, .f32⟩
  | 18 => ⟨S1x8, .f32⟩
  | 19 => ⟨S1x4, .f32⟩
  | 20 => ⟨S1x8, .f32⟩
  | 21 => ⟨S1x5000, .f32⟩
  | 22 => ⟨S4096x4, .f32⟩
  | 23 => ⟨S4096x5000, .f32⟩
  | 24 => ⟨S1x6400000, .i32⟩
  | 25 => ⟨S6400000, .i32⟩
  | 26 => ⟨S1x6400000, .i32⟩
  | 27 => ⟨S6400000, .i32⟩
  | 28 => ⟨S200000x8, .f32⟩
  | 29 => ⟨S200000, .i32⟩
  | 30 => ⟨S6600000, .i32⟩
  | 31 => ⟨S6600000, .i32⟩
  | 32 => ⟨S_, .f32⟩
  | 33 => ⟨S6600000, .f32⟩
  | 34 => ⟨S_, .f32⟩
  | 35 => ⟨S200000, .f32⟩
  | 36 => ⟨S6600000x1, .i32⟩
  | 37 => ⟨S200000, .f32⟩
  | 38 => ⟨S_, .f32⟩
  | 39 => ⟨S200000, .f32⟩
  | 40 => ⟨S200000, .i1⟩
  | 41 => ⟨S_, .f32⟩
  | 42 => ⟨S200000, .f32⟩
  | 43 => ⟨S200000, .f32⟩
  | 44 => ⟨S200000, .f32⟩
  | 45 => ⟨S_, .f32⟩
  | 46 => ⟨S_, .f32⟩
  | 47 => ⟨S200000, .f32⟩
  | 48 => ⟨S200000, .f32⟩
  | 49 => ⟨S_, .i32⟩
  | 50 => ⟨S6600000, .i32⟩
  | 51 => ⟨S6600000, .i1⟩
  | 52 => ⟨S_, .i32⟩
  | 53 => ⟨S6600000, .i32⟩
  | 54 => ⟨S6600000, .i32⟩
  | 55 => ⟨S6600000, .i32⟩
  | 56 => ⟨S6600000x1, .i32⟩
  | 57 => ⟨S6600000, .f32⟩
  | 58 => ⟨S_, .i32⟩
  | 59 => ⟨S6600000, .i32⟩
  | 60 => ⟨S6600000, .i1⟩
  | 61 => ⟨S_, .i32⟩
  | 62 => ⟨S6600000, .i32⟩
  | 63 => ⟨S6600000, .i32⟩
  | 64 => ⟨S6600000, .i32⟩
  | 65 => ⟨S6600000x1, .i32⟩
  | 66 => ⟨S6600000, .f32⟩
  | 67 => ⟨S6600000, .f32⟩
  | 68 => ⟨S_, .i32⟩
  | 69 => ⟨S6600000, .i32⟩
  | 70 => ⟨S6600000, .i1⟩
  | 71 => ⟨S_, .i32⟩
  | 72 => ⟨S6600000, .i32⟩
  | 73 => ⟨S6600000, .i32⟩
  | 74 => ⟨S6600000, .i32⟩
  | 75 => ⟨S6600000x1, .i32⟩
  | 76 => ⟨S6600000x8, .f32⟩
  | 77 => ⟨S6600000x1, .f32⟩
  | 78 => ⟨S6600000x8, .f32⟩
  | 79 => ⟨S6600000x8, .f32⟩
  | 80 => ⟨S_, .f32⟩
  | 81 => ⟨S200000x8, .f32⟩
  | 82 => ⟨S6600000x1, .i32⟩
  | 83 => ⟨S200000x8, .f32⟩
  | 84 => ⟨S1x8, .f32⟩
  | 85 => ⟨S200000x8, .f32⟩
  | 86 => ⟨S200000x8, .f32⟩
  | 87 => ⟨S_, .f32⟩
  | 88 => ⟨S200000x8, .f32⟩
  | 89 => ⟨S200000x8, .f32⟩
  | 90 => ⟨S200000x4, .f32⟩
  | 91 => ⟨S200000, .i32⟩
  | 92 => ⟨S6600000, .i32⟩
  | 93 => ⟨S6600000, .i32⟩
  | 94 => ⟨S_, .f32⟩
  | 95 => ⟨S6600000, .f32⟩
  | 96 => ⟨S_, .f32⟩
  | 97 => ⟨S200000, .f32⟩
  | 98 => ⟨S6600000x1, .i32⟩
  | 99 => ⟨S200000, .f32⟩
  | 100 => ⟨S_, .f32⟩
  | 101 => ⟨S200000, .f32⟩
  | 102 => ⟨S200000, .i1⟩
  | 103 => ⟨S_, .f32⟩
  | 104 => ⟨S200000, .f32⟩
  | 105 => ⟨S200000, .f32⟩
  | 106 => ⟨S200000, .f32⟩
  | 107 => ⟨S_, .f32⟩
  | 108 => ⟨S_, .f32⟩
  | 109 => ⟨S200000, .f32⟩
  | 110 => ⟨S200000, .f32⟩
  | 111 => ⟨S_, .i32⟩
  | 112 => ⟨S6600000, .i32⟩
  | 113 => ⟨S6600000, .i1⟩
  | 114 => ⟨S_, .i32⟩
  | 115 => ⟨S6600000, .i32⟩
  | 116 => ⟨S6600000, .i32⟩
  | 117 => ⟨S6600000, .i32⟩
  | 118 => ⟨S6600000x1, .i32⟩
  | 119 => ⟨S6600000, .f32⟩
  | 120 => ⟨S_, .i32⟩
  | 121 => ⟨S6600000, .i32⟩
  | 122 => ⟨S6600000, .i1⟩
  | 123 => ⟨S_, .i32⟩
  | 124 => ⟨S6600000, .i32⟩
  | 125 => ⟨S6600000, .i32⟩
  | 126 => ⟨S6600000, .i32⟩
  | 127 => ⟨S6600000x1, .i32⟩
  | _ => ⟨S4096x5000, .f32⟩

abbrev hbmTy0_1 (i : Nat) : BufTy := match i % 128 with
  | 0 => ⟨S6600000, .f32⟩
  | 1 => ⟨S6600000, .f32⟩
  | 2 => ⟨S_, .i32⟩
  | 3 => ⟨S6600000, .i32⟩
  | 4 => ⟨S6600000, .i1⟩
  | 5 => ⟨S_, .i32⟩
  | 6 => ⟨S6600000, .i32⟩
  | 7 => ⟨S6600000, .i32⟩
  | 8 => ⟨S6600000, .i32⟩
  | 9 => ⟨S6600000x1, .i32⟩
  | 10 => ⟨S6600000x4, .f32⟩
  | 11 => ⟨S6600000x1, .f32⟩
  | 12 => ⟨S6600000x4, .f32⟩
  | 13 => ⟨S6600000x4, .f32⟩
  | 14 => ⟨S_, .f32⟩
  | 15 => ⟨S200000x4, .f32⟩
  | 16 => ⟨S6600000x1, .i32⟩
  | 17 => ⟨S200000x4, .f32⟩
  | 18 => ⟨S1x4, .f32⟩
  | 19 => ⟨S200000x4, .f32⟩
  | 20 => ⟨S200000x4, .f32⟩
  | 21 => ⟨S_, .f32⟩
  | 22 => ⟨S4096x4, .f32⟩
  | 23 => ⟨S200000x1, .i32⟩
  | 24 => ⟨S4096x4, .f32⟩
  | 25 => ⟨S_, .f32⟩
  | 26 => ⟨S200000, .f32⟩
  | 27 => ⟨S_, .f32⟩
  | 28 => ⟨S4096, .f32⟩
  | 29 => ⟨S200000x1, .i32⟩
  | 30 => ⟨S4096, .f32⟩
  | 31 => ⟨S_, .f32⟩
  | 32 => ⟨S4096, .f32⟩
  | 33 => ⟨S4096, .f32⟩
  | 34 => ⟨S4096x1, .f32⟩
  | 35 => ⟨S4096x4, .f32⟩
  | 36 => ⟨S4096x4, .f32⟩
  | 37 => ⟨S4096x8, .f32⟩
  | 38 => ⟨S4096x1, .f32⟩
  | 39 => ⟨S1x1, .f32⟩
  | 40 => ⟨S4096x1, .f32⟩
  | 41 => ⟨S4096x1, .f32⟩
  | _ => ⟨S4096x5000, .f32⟩

abbrev hbmTy (i : Nat) : BufTy := match i / 128 with
  | 0 => hbmTy0_0 i
  | 1 => hbmTy0_1 i
  | _ => ⟨S4096x5000, .f32⟩

abbrev bufTy : (tb : Table) → Fin (tcTables nBuf tb) → BufTy
  | .hbm, ⟨i, _⟩ => hbmTy i
  | .local _ .vmem, ⟨0, _⟩ => ⟨S256x5000, .f32⟩
  | .local _ .vmem, ⟨1, _⟩ => ⟨S256x5000, .f32⟩
  | .local _ .vmem, ⟨2, _⟩ => ⟨S5000x8, .f32⟩
  | .local _ .vmem, ⟨3, _⟩ => ⟨S1x8, .f32⟩
  | .local _ .vmem, ⟨4, _⟩ => ⟨S8x4, .f32⟩
  | .local _ .vmem, ⟨5, _⟩ => ⟨S1x4, .f32⟩
  | .local _ .vmem, ⟨6, _⟩ => ⟨S4x8, .f32⟩
  | .local _ .vmem, ⟨7, _⟩ => ⟨S1x8, .f32⟩
  | .local _ .vmem, ⟨8, _⟩ => ⟨S8x5000, .f32⟩
  | .local _ .vmem, ⟨9, _⟩ => ⟨S1x5000, .f32⟩
  | .local _ .vmem, ⟨10, _⟩ => ⟨S256x4, .f32⟩
  | .local _ .vmem, ⟨11, _⟩ => ⟨S256x4, .f32⟩
  | .local _ .vmem, ⟨12, _⟩ => ⟨S256x5000, .f32⟩
  | .local _ .vmem, ⟨13, _⟩ => ⟨S256x5000, .f32⟩
  | .local _ .vmem, ⟨14, _⟩ => ⟨S10000x128, .f32⟩
  | .local _ .vmem, ⟨15, _⟩ => ⟨S10000x128, .f32⟩
  | .local _ .vmem, ⟨16, _⟩ => ⟨S128x8, .f32⟩
  | .local _ .vmem, ⟨17, _⟩ => ⟨S10000x8, .f32⟩
  | .local _ .vmem, ⟨18, _⟩ => ⟨S10000x8, .f32⟩
  | .local _ .vmem, ⟨19, _⟩ => ⟨S10000x8, .f32⟩
  | .local _ .vmem, ⟨20, _⟩ => ⟨S10000x8, .f32⟩
  | .local _ .vmem, ⟨21, _⟩ => ⟨S8x4, .f32⟩
  | .local _ .vmem, ⟨22, _⟩ => ⟨S10000x4, .f32⟩
  | .local _ .vmem, ⟨23, _⟩ => ⟨S10000x4, .f32⟩
  | _, _ => ⟨S4096x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4_0 : Ref sig .tc := ⟨.hbm, 22, rfl⟩
abbrev main_v4_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_1 : Ref sig .tc := ⟨.hbm, 38, rfl⟩
abbrev main_v17 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_call0_v0 : Ref sig .tc := ⟨.hbm, 46, rfl⟩
abbrev main_call0_v1 : Ref sig .tc := ⟨.hbm, 47, rfl⟩
abbrev main_v22 : Ref sig .tc := ⟨.hbm, 48, rfl⟩
abbrev main_c : Ref sig .tc := ⟨.hbm, 49, rfl⟩
abbrev main_v23 : Ref sig .tc := ⟨.hbm, 50, rfl⟩
abbrev main_v24 : Ref sig .tc := ⟨.hbm, 51, rfl⟩
abbrev main_c_4 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_c_5 : Ref sig .tc := ⟨.hbm, 58, rfl⟩
abbrev main_v30 : Ref sig .tc := ⟨.hbm, 59, rfl⟩
abbrev main_v31 : Ref sig .tc := ⟨.hbm, 60, rfl⟩
abbrev main_c_6 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_7 : Ref sig .tc := ⟨.hbm, 68, rfl⟩
abbrev main_v38 : Ref sig .tc := ⟨.hbm, 69, rfl⟩
abbrev main_v39 : Ref sig .tc := ⟨.hbm, 70, rfl⟩
abbrev main_c_8 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_9 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_call1_cst : Ref sig .tc := ⟨.hbm, 87, rfl⟩
abbrev main_call1_v0 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_10 : Ref sig .tc := ⟨.hbm, 94, rfl⟩
abbrev main_v59 : Ref sig .tc := ⟨.hbm, 95, rfl⟩
abbrev main_cst_11 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_12 : Ref sig .tc := ⟨.hbm, 100, rfl⟩
abbrev main_v63 : Ref sig .tc := ⟨.hbm, 101, rfl⟩
abbrev main_v64 : Ref sig .tc := ⟨.hbm, 102, rfl⟩
abbrev main_cst_13 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_14 : Ref sig .tc := ⟨.hbm, 107, rfl⟩
abbrev main_call2_v0 : Ref sig .tc := ⟨.hbm, 108, rfl⟩
abbrev main_call2_v1 : Ref sig .tc := ⟨.hbm, 109, rfl⟩
abbrev main_v68 : Ref sig .tc := ⟨.hbm, 110, rfl⟩
abbrev main_c_15 : Ref sig .tc := ⟨.hbm, 111, rfl⟩
abbrev main_v69 : Ref sig .tc := ⟨.hbm, 112, rfl⟩
abbrev main_v70 : Ref sig .tc := ⟨.hbm, 113, rfl⟩
abbrev main_c_16 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_c_17 : Ref sig .tc := ⟨.hbm, 120, rfl⟩
abbrev main_v76 : Ref sig .tc := ⟨.hbm, 121, rfl⟩
abbrev main_v77 : Ref sig .tc := ⟨.hbm, 122, rfl⟩
abbrev main_c_18 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_c_19 : Ref sig .tc := ⟨.hbm, 130, rfl⟩
abbrev main_v84 : Ref sig .tc := ⟨.hbm, 131, rfl⟩
abbrev main_v85 : Ref sig .tc := ⟨.hbm, 132, rfl⟩
abbrev main_c_20 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_21 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_22 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_cst_23 : Ref sig .tc := ⟨.hbm, 153, rfl⟩
abbrev main_v103 : Ref sig .tc := ⟨.hbm, 154, rfl⟩
abbrev main_cst_24 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_25 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5000x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x5000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5000 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x5000 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S8_S1x8 : S8.ShapeCasts S1x8
  shapeCasts_S4_S1x4 : S4.ShapeCasts S1x4
  shapeCasts_S5000_S1x5000 : S5000.ShapeCasts S1x5000
  inb_S256x5000_S256x5000_0_0 : ∀ a, (![0, 0] : Fin 2 → Nat) a + S256x5000.size a ≤ S256x5000.size a
  h_S256x5000 : 0 < S256x5000.numel
  bitsLt_bf16_f32 : FTy.bits .bf16 < FTy.bits .f32
  inb_S5000x8_S5000x8_0_0 : ∀ a, (![0, 0] : Fin 2 → Nat) a + S5000x8.size a ≤ S5000x8.size a
  h_S5000x8 : 0 < S5000x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S256x8 : S1x8.Broadcasts S256x8
  inb_S8x4_S8x4_0_0 : ∀ a, (![0, 0] : Fin 2 → Nat) a + S8x4.size a ≤ S8x4.size a
  h_S8x4 : 0 < S8x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S256x4 : S1x4.Broadcasts S256x4
  inb_S256x4_S256x4_0_0 : ∀ a, (![0, 0] : Fin 2 → Nat) a + S256x4.size a ≤ S256x4.size a
  h_S256x4 : 0 < S256x4.numel
  inb_S4x8_S4x8_0_0 : ∀ a, (![0, 0] : Fin 2 → Nat) a + S4x8.size a ≤ S4x8.size a
  h_S4x8 : 0 < S4x8.numel
  inb_S8x5000_S8x5000_0_0 : ∀ a, (![0, 0] : Fin 2 → Nat) a + S8x5000.size a ≤ S8x5000.size a
  h_S8x5000 : 0 < S8x5000.numel
  inb_S1x5000_S1x5000_0_0 : ∀ a, (![0, 0] : Fin 2 → Nat) a + S1x5000.size a ≤ S1x5000.size a
  h_S1x5000 : 0 < S1x5000.numel
  shapeCasts_S1x5000_S1x5000 : S1x5000.ShapeCasts S1x5000
  broadcasts_S1x5000_S256x5000 : S1x5000.Broadcasts S256x5000
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  inb_S10000x128_S10000x128_0_0 : ∀ a, (![0, 0] : Fin 2 → Nat) a + S10000x128.size a ≤ S10000x128.size a
  h_S10000x128 : 0 < S10000x128.numel
  inb_S128x8_S128x8_0_0 : ∀ a, (![0, 0] : Fin 2 → Nat) a + S128x8.size a ≤ S128x8.size a
  h_S128x8 : 0 < S128x8.numel
  inb_S10000x8_S10000x8_0_0 : ∀ a, (![0, 0] : Fin 2 → Nat) a + S10000x8.size a ≤ S10000x8.size a
  h_S10000x8 : 0 < S10000x8.numel
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x8_0_1 : S6600000x1.BroadcastsInDim S6600000x8 (![0, 1] : Fin 2 → Fin S6600000x8.rank)
  bcast_S_S200000x8 : S_.BroadcastsInDim S200000x8 (![] : Fin 0 → Fin S200000x8.rank)
  bcast_S8_S1x8_1 : S8.BroadcastsInDim S1x8 (![1] : Fin 1 → Fin S1x8.rank)
  bcast_S1x8_S200000x8_0_1 : S1x8.BroadcastsInDim S200000x8 (![0, 1] : Fin 2 → Fin S200000x8.rank)
  shapeCasts_S10000x8_S10000x8 : S10000x8.ShapeCasts S10000x8
  inb_S10000x4_S10000x4_0_0 : ∀ a, (![0, 0] : Fin 2 → Nat) a + S10000x4.size a ≤ S10000x4.size a
  h_S10000x4 : 0 < S10000x4.numel
  bcast_S6600000x1_S6600000x4_0_1 : S6600000x1.BroadcastsInDim S6600000x4 (![0, 1] : Fin 2 → Fin S6600000x4.rank)
  bcast_S_S200000x4 : S_.BroadcastsInDim S200000x4 (![] : Fin 0 → Fin S200000x4.rank)
  bcast_S4_S1x4_1 : S4.BroadcastsInDim S1x4 (![1] : Fin 1 → Fin S1x4.rank)
  bcast_S1x4_S200000x4_0_1 : S1x4.BroadcastsInDim S200000x4 (![0, 1] : Fin 2 → Fin S200000x4.rank)
  bcast_S_S4096x4 : S_.BroadcastsInDim S4096x4 (![] : Fin 0 → Fin S4096x4.rank)
  bcast_S200000_S200000x1_0 : S200000.BroadcastsInDim S200000x1 (![0] : Fin 1 → Fin S200000x1.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4_0_1 : S4096x1.BroadcastsInDim S4096x4 (![0, 1] : Fin 2 → Fin S4096x4.rank)
  concatenates_S4096x4_S4096x4_S4096x8_d1 : Shape.Concatenates [S4096x4, S4096x4] S4096x8 1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S256x5000_S5000x8_S256x8_1_0_0_1_n_n_wf : DotDims.WF S256x5000 S5000x8 S256x8 [1] [0] [0] [1] [] []
  dot_S256x8_S8x4_S256x4_1_0_0_1_n_n_wf : DotDims.WF S256x8 S8x4 S256x4 [1] [0] [0] [1] [] []
  dot_S256x4_S4x8_S256x8_1_0_0_1_n_n_wf : DotDims.WF S256x4 S4x8 S256x8 [1] [0] [0] [1] [] []
  dot_S256x8_S8x5000_S256x5000_1_0_0_1_n_n_wf : DotDims.WF S256x8 S8x5000 S256x5000 [1] [0] [0] [1] [] []
  dot_S10000x128_S128x8_S10000x8_1_0_0_1_n_n_wf : DotDims.WF S10000x128 S128x8 S10000x8 [1] [0] [0] [1] [] []
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  gather_S200000x8_S6600000x1_S6600000x8_1_0_n_n_0_1_18_wf : GatherDims.WF S200000x8 S6600000x1 S6600000x8 [1] [0] [] [0] [] 1 ![1, 8]
  scatter_S200000x8_S6600000x1_S6600000x8_1_0_0_1_wf : ScatterDims.WF S200000x8 S6600000x1 S6600000x8 [1] [0] [0] 1
  dot_S10000x8_S8x4_S10000x4_1_0_0_1_n_n_wf : DotDims.WF S10000x8 S8x4 S10000x4 [1] [0] [0] [1] [] []
  gather_S200000x4_S6600000x1_S6600000x4_1_0_n_n_0_1_14_wf : GatherDims.WF S200000x4 S6600000x1 S6600000x4 [1] [0] [] [0] [] 1 ![1, 4]
  scatter_S200000x4_S6600000x1_S6600000x4_1_0_0_1_wf : ScatterDims.WF S200000x4 S6600000x1 S6600000x4 [1] [0] [0] 1
  scatter_S4096x4_S200000x1_S200000x4_1_0_0_1_wf : ScatterDims.WF S4096x4 S200000x1 S200000x4 [1] [0] [0] 1
  scatter_S4096_S200000x1_S200000_n_0_0_1_wf : ScatterDims.WF S4096 S200000x1 S200000 [] [0] [0] 1
  dot_S4096x8_S8x1_S4096x1_1_0_0_1_n_n_wf : DotDims.WF S4096x8 S8x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x5000.size a ≤ S4096x5000.size a
  hwx0_0 : ∀ i : grid0.Coords, EltTy.bits .f32 = 32 ∨ (Rect.block (s := S4096x5000) S256x5000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5000x8.size a ≤ S5000x8.size a
  hwx0_1 : ∀ i : grid0.Coords, EltTy.bits .f32 = 32 ∨ (Rect.block (s := S5000x8) S5000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x4.size a ≤ S8x4.size a
  hwx0_3 : ∀ i : grid0.Coords, EltTy.bits .f32 = 32 ∨ (Rect.block (s := S8x4) S8x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4.size a ≤ S1x4.size a
  hwx0_4 : ∀ i : grid0.Coords, EltTy.bits .f32 = 32 ∨ (Rect.block (s := S1x4) S1x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x8.size a ≤ S4x8.size a
  hwx0_5 : ∀ i : grid0.Coords, EltTy.bits .f32 = 32 ∨ (Rect.block (s := S4x8) S4x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x5000.size a ≤ S8x5000.size a
  hwx0_7 : ∀ i : grid0.Coords, EltTy.bits .f32 = 32 ∨ (Rect.block (s := S8x5000) S8x5000.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x5000.size a ≤ S1x5000.size a
  hwx0_8 : ∀ i : grid0.Coords, EltTy.bits .f32 = 32 ∨ (Rect.block (s := S1x5000) S1x5000.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x4.size a ≤ S4096x4.size a
  hwx0_9 : ∀ i : grid0.Coords, EltTy.bits .f32 = 32 ∨ (Rect.block (s := S4096x4) S256x4.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x5000.size a ≤ S4096x5000.size a
  hwx0_10 : ∀ i : grid0.Coords, EltTy.bits .f32 = 32 ∨ (Rect.block (s := S4096x5000) S256x5000.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S200000x128.size a
  hwx1_0 : ∀ i : grid1.Coords, EltTy.bits .f32 = 32 ∨ (Rect.block (s := S200000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x8.size a ≤ S128x8.size a
  hwx1_1 : ∀ i : grid1.Coords, EltTy.bits .f32 = 32 ∨ (Rect.block (s := S128x8) S128x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x8.size a ≤ S200000x8.size a
  hwx1_2 : ∀ i : grid1.Coords, EltTy.bits .f32 = 32 ∨ (Rect.block (s := S200000x8) S10000x8.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x8.size a ≤ S200000x8.size a
  hwx2_0 : ∀ i : grid2.Coords, EltTy.bits .f32 = 32 ∨ (Rect.block (s := S200000x8) S10000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x4.size a ≤ S8x4.size a
  hwx2_1 : ∀ i : grid2.Coords, EltTy.bits .f32 = 32 ∨ (Rect.block (s := S8x4) S8x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x4.size a ≤ S200000x4.size a
  hwx2_2 : ∀ i : grid2.Coords, EltTy.bits .f32 = 32 ∨ (Rect.block (s := S200000x4) S10000x4.size (cc2_transform_2 i) (hinb2_2 i)).WholeWords (EltTy.packing .f32)

variable [Facts₀]

def dot_S256x5000_S5000x8_S256x8_1_0_0_1_n_n : DotDims S256x5000 S5000x8 S256x8 where
  lhsContracting := [1]
  rhsContracting := [0]
  lhsNonContracting := [0]
  rhsNonContracting := [1]
  lhsBatch := []
  rhsBatch := []
  wf := dot_S256x5000_S5000x8_S256x8_1_0_0_1_n_n_wf
def dot_S256x8_S8x4_S256x4_1_0_0_1_n_n : DotDims S256x8 S8x4 S256x4 where
  lhsContracting := [1]
  rhsContracting := [0]
  lhsNonContracting := [0]
  rhsNonContracting := [1]
  lhsBatch := []
  rhsBatch := []
  wf := dot_S256x8_S8x4_S256x4_1_0_0_1_n_n_wf
def dot_S256x4_S4x8_S256x8_1_0_0_1_n_n : DotDims S256x4 S4x8 S256x8 where
  lhsContracting := [1]
  rhsContracting := [0]
  lhsNonContracting := [0]
  rhsNonContracting := [1]
  lhsBatch := []
  rhsBatch := []
  wf := dot_S256x4_S4x8_S256x8_1_0_0_1_n_n_wf
def dot_S256x8_S8x5000_S256x5000_1_0_0_1_n_n : DotDims S256x8 S8x5000 S256x5000 where
  lhsContracting := [1]
  rhsContracting := [0]
  lhsNonContracting := [0]
  rhsNonContracting := [1]
  lhsBatch := []
  rhsBatch := []
  wf := dot_S256x8_S8x5000_S256x5000_1_0_0_1_n_n_wf
def dot_S10000x128_S128x8_S10000x8_1_0_0_1_n_n : DotDims S10000x128 S128x8 S10000x8 where
  lhsContracting := [1]
  rhsContracting := [0]
  lhsNonContracting := [0]
  rhsNonContracting := [1]
  lhsBatch := []
  rhsBatch := []
  wf := dot_S10000x128_S128x8_S10000x8_1_0_0_1_n_n_wf
def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x8_S6600000x1_S6600000x8_1_0_n_n_0_1_18 : GatherDims S200000x8 S6600000x1 S6600000x8 where
  offsetDims := [1]
  collapsedSliceDims := [0]
  operandBatchingDims := []
  startIndicesBatchingDims := []
  startIndexMap := [0]
  indexVectorDim := 1
  sliceSizes := ![1, 8]
  wf := gather_S200000x8_S6600000x1_S6600000x8_1_0_n_n_0_1_18_wf
def scatter_S200000x8_S6600000x1_S6600000x8_1_0_0_1 : ScatterDims S200000x8 S6600000x1 S6600000x8 where
  updateWindowDims := [1]
  insertedWindowDims := [0]
  scatterDimsToOperandDims := [0]
  indexVectorDim := 1
  wf := scatter_S200000x8_S6600000x1_S6600000x8_1_0_0_1_wf
def dot_S10000x8_S8x4_S10000x4_1_0_0_1_n_n : DotDims S10000x8 S8x4 S10000x4 where
  lhsContracting := [1]
  rhsContracting := [0]
  lhsNonContracting := [0]
  rhsNonContracting := [1]
  lhsBatch := []
  rhsBatch := []
  wf := dot_S10000x8_S8x4_S10000x4_1_0_0_1_n_n_wf
def gather_S200000x4_S6600000x1_S6600000x4_1_0_n_n_0_1_14 : GatherDims S200000x4 S6600000x1 S6600000x4 where
  offsetDims := [1]
  collapsedSliceDims := [0]
  operandBatchingDims := []
  startIndicesBatchingDims := []
  startIndexMap := [0]
  indexVectorDim := 1
  sliceSizes := ![1, 4]
  wf := gather_S200000x4_S6600000x1_S6600000x4_1_0_n_n_0_1_14_wf
def scatter_S200000x4_S6600000x1_S6600000x4_1_0_0_1 : ScatterDims S200000x4 S6600000x1 S6600000x4 where
  updateWindowDims := [1]
  insertedWindowDims := [0]
  scatterDimsToOperandDims := [0]
  indexVectorDim := 1
  wf := scatter_S200000x4_S6600000x1_S6600000x4_1_0_0_1_wf
def scatter_S4096x4_S200000x1_S200000x4_1_0_0_1 : ScatterDims S4096x4 S200000x1 S200000x4 where
  updateWindowDims := [1]
  insertedWindowDims := [0]
  scatterDimsToOperandDims := [0]
  indexVectorDim := 1
  wf := scatter_S4096x4_S200000x1_S200000x4_1_0_0_1_wf
def scatter_S4096_S200000x1_S200000_n_0_0_1 : ScatterDims S4096 S200000x1 S200000 where
  updateWindowDims := []
  insertedWindowDims := [0]
  scatterDimsToOperandDims := [0]
  indexVectorDim := 1
  wf := scatter_S4096_S200000x1_S200000_n_0_0_1_wf
def dot_S4096x8_S8x1_S4096x1_1_0_0_1_n_n : DotDims S4096x8 S8x1 S4096x1 where
  lhsContracting := [1]
  rhsContracting := [0]
  lhsNonContracting := [0]
  rhsNonContracting := [1]
  lhsBatch := []
  rhsBatch := []
  wf := dot_S4096x8_S8x1_S4096x1_1_0_0_1_n_n_wf

abbrev win0_0 : Pipeline.Window sig grid0 :=
  Pipeline.Window.ofSpec (Memref.whole main_arg0) S256x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S5000x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S8x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S4x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S8x5000.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x5000.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S256x4.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S256x5000.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_arg1) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S128x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S10000x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v54) S10000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg14) S8x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S10000x4.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4096x5000 : Shape := ⟨2, ![4096, 5000]⟩
abbrev S200000x128 : Shape := ⟨2, ![200000, 128]⟩
abbrev S2x6400000 : Shape := ⟨2, ![2, 6400000]⟩
abbrev S200000 : Shape := ⟨1, ![200000]⟩
abbrev S5000x8 : Shape := ⟨2, ![5000, 8]⟩
abbrev S8 : Shape := ⟨1, ![8]⟩
abbrev S8x4 : Shape := ⟨2, ![8, 4]⟩
abbrev S4 : Shape := ⟨1, ![4]⟩
abbrev S4x8 : Shape := ⟨2, ![4, 8]⟩
abbrev S8x5000 : Shape := ⟨2, ![8, 5000]⟩
abbrev S5000 : Shape := ⟨1, ![5000]⟩
abbrev S128x8 : Shape := ⟨2, ![128, 8]⟩
abbrev S8x1 : Shape := ⟨2, ![8, 1]⟩
abbrev S1 : Shape := ⟨1, ![1]⟩
abbrev S4096x8 : Shape := ⟨2, ![4096, 8]⟩
abbrev S1x8 : Shape := ⟨2, ![1, 8]⟩
abbrev S_ : Shape := ⟨0, ![]⟩
abbrev S4096x4 : Shape := ⟨2, ![4096, 4]⟩
abbrev S1x4 : Shape := ⟨2, ![1, 4]⟩
abbrev S1x5000 : Shape := ⟨2, ![1, 5000]⟩
abbrev S1x6400000 : Shape := ⟨2, ![1, 6400000]⟩
abbrev S6400000 : Shape := ⟨1, ![6400000]⟩
abbrev S200000x8 : Shape := ⟨2, ![200000, 8]⟩
abbrev S6600000 : Shape := ⟨1, ![6600000]⟩
abbrev S6600000x1 : Shape := ⟨2, ![6600000, 1]⟩
abbrev S6600000x8 : Shape := ⟨2, ![6600000, 8]⟩
abbrev S200000x4 : Shape := ⟨2, ![200000, 4]⟩
abbrev S6600000x4 : Shape := ⟨2, ![6600000, 4]⟩
abbrev S200000x1 : Shape := ⟨2, ![200000, 1]⟩
abbrev S4096 : Shape := ⟨1, ![4096]⟩
abbrev S4096x1 : Shape := ⟨2, ![4096, 1]⟩
abbrev S1x1 : Shape := ⟨2, ![1, 1]⟩

abbrev nBuf : Space → Nat
  | .hbm => 197
  | .vmem => 0
  | .smem => 0
  | _ => 0

abbrev hbmTy0_0 (i : Nat) : BufTy := match i % 128 with
  | 0 => ⟨S4096x5000, .f32⟩
  | 1 => ⟨S200000x128, .f32⟩
  | 2 => ⟨S2x6400000, .i32⟩
  | 3 => ⟨S200000, .i32⟩
  | 4 => ⟨S5000x8, .f32⟩
  | 5 => ⟨S8, .f32⟩
  | 6 => ⟨S8x4, .f32⟩
  | 7 => ⟨S4, .f32⟩
  | 8 => ⟨S4x8, .f32⟩
  | 9 => ⟨S8, .f32⟩
  | 10 => ⟨S8x5000, .f32⟩
  | 11 => ⟨S5000, .f32⟩
  | 12 => ⟨S128x8, .f32⟩
  | 13 => ⟨S8, .f32⟩
  | 14 => ⟨S8x4, .f32⟩
  | 15 => ⟨S4, .f32⟩
  | 16 => ⟨S8x1, .f32⟩
  | 17 => ⟨S1, .f32⟩
  | 18 => ⟨S4096x8, .f32⟩
  | 19 => ⟨S1x8, .f32⟩
  | 20 => ⟨S4096x8, .f32⟩
  | 21 => ⟨S4096x8, .f32⟩
  | 22 => ⟨S_, .f32⟩
  | 23 => ⟨S4096x8, .f32⟩
  | 24 => ⟨S4096x8, .f32⟩
  | 25 => ⟨S4096x4, .f32⟩
  | 26 => ⟨S1x4, .f32⟩
  | 27 => ⟨S4096x4, .f32⟩
  | 28 => ⟨S4096x4, .f32⟩
  | 29 => ⟨S_, .f32⟩
  | 30 => ⟨S4096x4, .f32⟩
  | 31 => ⟨S4096x4, .f32⟩
  | 32 => ⟨S4096x8, .f32⟩
  | 33 => ⟨S1x8, .f32⟩
  | 34 => ⟨S4096x8, .f32⟩
  | 35 => ⟨S4096x8, .f32⟩
  | 36 => ⟨S_, .f32⟩
  | 37 => ⟨S4096x8, .f32⟩
  | 38 => ⟨S4096x8, .f32⟩
  | 39 => ⟨S4096x5000, .f32⟩
  | 40 => ⟨S1x5000, .f32⟩
  | 41 => ⟨S4096x5000, .f32⟩
  | 42 => ⟨S4096x5000, .f32⟩
  | 43 => ⟨S4096x5000, .f32⟩
  | 44 => ⟨S4096x5000, .f32⟩
  | 45 => ⟨S_, .f32⟩
  | 46 => ⟨S4096x5000, .f32⟩
  | 47 => ⟨S4096x5000, .f32⟩
  | 48 => ⟨S_, .f32⟩
  | 49 => ⟨S4096x5000, .f32⟩
  | 50 => ⟨S4096x5000, .f32⟩
  | 51 => ⟨S1x6400000, .i32⟩
  | 52 => ⟨S6400000, .i32⟩
  | 53 => ⟨S1x6400000, .i32⟩
  | 54 => ⟨S6400000, .i32⟩
  | 55 => ⟨S200000x8, .f32⟩
  | 56 => ⟨S200000, .i32⟩
  | 57 => ⟨S6600000, .i32⟩
  | 58 => ⟨S6600000, .i32⟩
  | 59 => ⟨S_, .f32⟩
  | 60 => ⟨S6600000, .f32⟩
  | 61 => ⟨S_, .f32⟩
  | 62 => ⟨S200000, .f32⟩
  | 63 => ⟨S6600000x1, .i32⟩
  | 64 => ⟨S200000, .f32⟩
  | 65 => ⟨S_, .f32⟩
  | 66 => ⟨S200000, .f32⟩
  | 67 => ⟨S200000, .i1⟩
  | 68 => ⟨S_, .f32⟩
  | 69 => ⟨S200000, .f32⟩
  | 70 => ⟨S200000, .f32⟩
  | 71 => ⟨S200000, .f32⟩
  | 72 => ⟨S_, .f32⟩
  | 73 => ⟨S_, .f32⟩
  | 74 => ⟨S200000, .f32⟩
  | 75 => ⟨S200000, .f32⟩
  | 76 => ⟨S_, .i32⟩
  | 77 => ⟨S6600000, .i32⟩
  | 78 => ⟨S6600000, .i1⟩
  | 79 => ⟨S_, .i32⟩
  | 80 => ⟨S6600000, .i32⟩
  | 81 => ⟨S6600000, .i32⟩
  | 82 => ⟨S6600000, .i32⟩
  | 83 => ⟨S6600000x1, .i32⟩
  | 84 => ⟨S6600000, .f32⟩
  | 85 => ⟨S_, .i32⟩
  | 86 => ⟨S6600000, .i32⟩
  | 87 => ⟨S6600000, .i1⟩
  | 88 => ⟨S_, .i32⟩
  | 89 => ⟨S6600000, .i32⟩
  | 90 => ⟨S6600000, .i32⟩
  | 91 => ⟨S6600000, .i32⟩
  | 92 => ⟨S6600000x1, .i32⟩
  | 93 => ⟨S6600000, .f32⟩
  | 94 => ⟨S6600000, .f32⟩
  | 95 => ⟨S_, .i32⟩
  | 96 => ⟨S6600000, .i32⟩
  | 97 => ⟨S6600000, .i1⟩
  | 98 => ⟨S_, .i32⟩
  | 99 => ⟨S6600000, .i32⟩
  | 100 => ⟨S6600000, .i32⟩
  | 101 => ⟨S6600000, .i32⟩
  | 102 => ⟨S6600000x1, .i32⟩
  | 103 => ⟨S6600000x8, .f32⟩
  | 104 => ⟨S6600000x1, .f32⟩
  | 105 => ⟨S6600000x8, .f32⟩
  | 106 => ⟨S6600000x8, .f32⟩
  | 107 => ⟨S_, .f32⟩
  | 108 => ⟨S200000x8, .f32⟩
  | 109 => ⟨S6600000x1, .i32⟩
  | 110 => ⟨S200000x8, .f32⟩
  | 111 => ⟨S1x8, .f32⟩
  | 112 => ⟨S200000x8, .f32⟩
  | 113 => ⟨S200000x8, .f32⟩
  | 114 => ⟨S_, .f32⟩
  | 115 => ⟨S200000x8, .f32⟩
  | 116 => ⟨S200000x8, .f32⟩
  | 117 => ⟨S200000x4, .f32⟩
  | 118 => ⟨S200000, .i32⟩
  | 119 => ⟨S6600000, .i32⟩
  | 120 => ⟨S6600000, .i32⟩
  | 121 => ⟨S_, .f32⟩
  | 122 => ⟨S6600000, .f32⟩
  | 123 => ⟨S_, .f32⟩
  | 124 => ⟨S200000, .f32⟩
  | 125 => ⟨S6600000x1, .i32⟩
  | 126 => ⟨S200000, .f32⟩
  | 127 => ⟨S_, .f32⟩
  | _ => ⟨S4096x5000, .f32⟩

abbrev hbmTy0_1 (i : Nat) : BufTy := match i % 128 with
  | 0 => ⟨S200000, .f32⟩
  | 1 => ⟨S200000, .i1⟩
  | 2 => ⟨S_, .f32⟩
  | 3 => ⟨S200000, .f32⟩
  | 4 => ⟨S200000, .f32⟩
  | 5 => ⟨S200000, .f32⟩
  | 6 => ⟨S_, .f32⟩
  | 7 => ⟨S_, .f32⟩
  | 8 => ⟨S200000, .f32⟩
  | 9 => ⟨S200000, .f32⟩
  | 10 => ⟨S_, .i32⟩
  | 11 => ⟨S6600000, .i32⟩
  | 12 => ⟨S6600000, .i1⟩
  | 13 => ⟨S_, .i32⟩
  | 14 => ⟨S6600000, .i32⟩
  | 15 => ⟨S6600000, .i32⟩
  | 16 => ⟨S6600000, .i32⟩
  | 17 => ⟨S6600000x1, .i32⟩
  | 18 => ⟨S6600000, .f32⟩
  | 19 => ⟨S_, .i32⟩
  | 20 => ⟨S6600000, .i32⟩
  | 21 => ⟨S6600000, .i1⟩
  | 22 => ⟨S_, .i32⟩
  | 23 => ⟨S6600000, .i32⟩
  | 24 => ⟨S6600000, .i32⟩
  | 25 => ⟨S6600000, .i32⟩
  | 26 => ⟨S6600000x1, .i32⟩
  | 27 => ⟨S6600000, .f32⟩
  | 28 => ⟨S6600000, .f32⟩
  | 29 => ⟨S_, .i32⟩
  | 30 => ⟨S6600000, .i32⟩
  | 31 => ⟨S6600000, .i1⟩
  | 32 => ⟨S_, .i32⟩
  | 33 => ⟨S6600000, .i32⟩
  | 34 => ⟨S6600000, .i32⟩
  | 35 => ⟨S6600000, .i32⟩
  | 36 => ⟨S6600000x1, .i32⟩
  | 37 => ⟨S6600000x4, .f32⟩
  | 38 => ⟨S6600000x1, .f32⟩
  | 39 => ⟨S6600000x4, .f32⟩
  | 40 => ⟨S6600000x4, .f32⟩
  | 41 => ⟨S_, .f32⟩
  | 42 => ⟨S200000x4, .f32⟩
  | 43 => ⟨S6600000x1, .i32⟩
  | 44 => ⟨S200000x4, .f32⟩
  | 45 => ⟨S1x4, .f32⟩
  | 46 => ⟨S200000x4, .f32⟩
  | 47 => ⟨S200000x4, .f32⟩
  | 48 => ⟨S_, .f32⟩
  | 49 => ⟨S4096x4, .f32⟩
  | 50 => ⟨S200000x1, .i32⟩
  | 51 => ⟨S4096x4, .f32⟩
  | 52 => ⟨S_, .f32⟩
  | 53 => ⟨S200000, .f32⟩
  | 54 => ⟨S_, .f32⟩
  | 55 => ⟨S4096, .f32⟩
  | 56 => ⟨S200000x1, .i32⟩
  | 57 => ⟨S4096, .f32⟩
  | 58 => ⟨S_, .f32⟩
  | 59 => ⟨S4096, .f32⟩
  | 60 => ⟨S4096, .f32⟩
  | 61 => ⟨S4096x1, .f32⟩
  | 62 => ⟨S4096x4, .f32⟩
  | 63 => ⟨S4096x4, .f32⟩
  | 64 => ⟨S4096x8, .f32⟩
  | 65 => ⟨S4096x1, .f32⟩
  | 66 => ⟨S1x1, .f32⟩
  | 67 => ⟨S4096x1, .f32⟩
  | 68 => ⟨S4096x1, .f32⟩
  | _ => ⟨S4096x5000, .f32⟩

abbrev hbmTy (i : Nat) : BufTy := match i / 128 with
  | 0 => hbmTy0_0 i
  | 1 => hbmTy0_1 i
  | _ => ⟨S4096x5000, .f32⟩

abbrev bufTy : (tb : Table) → Fin (tcTables nBuf tb) → BufTy
  | .hbm, ⟨i, _⟩ => hbmTy i
  | _, _ => ⟨S4096x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_cst : Ref sig .tc := ⟨.hbm, 29, rfl⟩
abbrev main_call1_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_call2_cst : Ref sig .tc := ⟨.hbm, 36, rfl⟩
abbrev main_call2_v0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst : Ref sig .tc := ⟨.hbm, 45, rfl⟩
abbrev main_v21 : Ref sig .tc := ⟨.hbm, 46, rfl⟩
abbrev main_v22 : Ref sig .tc := ⟨.hbm, 47, rfl⟩
abbrev main_cst_0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_1 : Ref sig .tc := ⟨.hbm, 59, rfl⟩
abbrev main_v33 : Ref sig .tc := ⟨.hbm, 60, rfl⟩
abbrev main_cst_2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_3 : Ref sig .tc := ⟨.hbm, 65, rfl⟩
abbrev main_v37 : Ref sig .tc := ⟨.hbm, 66, rfl⟩
abbrev main_v38 : Ref sig .tc := ⟨.hbm, 67, rfl⟩
abbrev main_cst_4 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_v42 : Ref sig .tc := ⟨.hbm, 75, rfl⟩
abbrev main_c : Ref sig .tc := ⟨.hbm, 76, rfl⟩
abbrev main_v43 : Ref sig .tc := ⟨.hbm, 77, rfl⟩
abbrev main_v44 : Ref sig .tc := ⟨.hbm, 78, rfl⟩
abbrev main_c_6 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_7 : Ref sig .tc := ⟨.hbm, 85, rfl⟩
abbrev main_v50 : Ref sig .tc := ⟨.hbm, 86, rfl⟩
abbrev main_v51 : Ref sig .tc := ⟨.hbm, 87, rfl⟩
abbrev main_c_8 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_c_9 : Ref sig .tc := ⟨.hbm, 95, rfl⟩
abbrev main_v58 : Ref sig .tc := ⟨.hbm, 96, rfl⟩
abbrev main_v59 : Ref sig .tc := ⟨.hbm, 97, rfl⟩
abbrev main_c_10 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_11 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_call4_cst : Ref sig .tc := ⟨.hbm, 114, rfl⟩
abbrev main_call4_v0 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_12 : Ref sig .tc := ⟨.hbm, 121, rfl⟩
abbrev main_v79 : Ref sig .tc := ⟨.hbm, 122, rfl⟩
abbrev main_cst_13 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_14 : Ref sig .tc := ⟨.hbm, 127, rfl⟩
abbrev main_v83 : Ref sig .tc := ⟨.hbm, 128, rfl⟩
abbrev main_v84 : Ref sig .tc := ⟨.hbm, 129, rfl⟩
abbrev main_cst_15 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_16 : Ref sig .tc := ⟨.hbm, 134, rfl⟩
abbrev main_call5_v0 : Ref sig .tc := ⟨.hbm, 135, rfl⟩
abbrev main_call5_v1 : Ref sig .tc := ⟨.hbm, 136, rfl⟩
abbrev main_v88 : Ref sig .tc := ⟨.hbm, 137, rfl⟩
abbrev main_c_17 : Ref sig .tc := ⟨.hbm, 138, rfl⟩
abbrev main_v89 : Ref sig .tc := ⟨.hbm, 139, rfl⟩
abbrev main_v90 : Ref sig .tc := ⟨.hbm, 140, rfl⟩
abbrev main_c_18 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_c_19 : Ref sig .tc := ⟨.hbm, 147, rfl⟩
abbrev main_v96 : Ref sig .tc := ⟨.hbm, 148, rfl⟩
abbrev main_v97 : Ref sig .tc := ⟨.hbm, 149, rfl⟩
abbrev main_c_20 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_c_21 : Ref sig .tc := ⟨.hbm, 157, rfl⟩
abbrev main_v104 : Ref sig .tc := ⟨.hbm, 158, rfl⟩
abbrev main_v105 : Ref sig .tc := ⟨.hbm, 159, rfl⟩
abbrev main_c_22 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_cst_23 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_cst_24 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_cst_25 : Ref sig .tc := ⟨.hbm, 180, rfl⟩
abbrev main_v123 : Ref sig .tc := ⟨.hbm, 181, rfl⟩
abbrev main_cst_26 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_cst_27 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩

abbrev nD : Nat := 1
abbrev τ : Topo := Topo.v7x

variable {F : FTy → Type} [FloatOps F]

class Facts₀ : Prop where
  bcast_S8_S1x8_1 : S8.BroadcastsInDim S1x8 (![1] : Fin 1 → Fin S1x8.rank)
  bcast_S1x8_S4096x8_0_1 : S1x8.BroadcastsInDim S4096x8 (![0, 1] : Fin 2 → Fin S4096x8.rank)
  bcast_S_S4096x8 : S_.BroadcastsInDim S4096x8 (![] : Fin 0 → Fin S4096x8.rank)
  bcast_S4_S1x4_1 : S4.BroadcastsInDim S1x4 (![1] : Fin 1 → Fin S1x4.rank)
  bcast_S1x4_S4096x4_0_1 : S1x4.BroadcastsInDim S4096x4 (![0, 1] : Fin 2 → Fin S4096x4.rank)
  bcast_S_S4096x4 : S_.BroadcastsInDim S4096x4 (![] : Fin 0 → Fin S4096x4.rank)
  bcast_S5000_S1x5000_1 : S5000.BroadcastsInDim S1x5000 (![1] : Fin 1 → Fin S1x5000.rank)
  bcast_S1x5000_S4096x5000_0_1 : S1x5000.BroadcastsInDim S4096x5000 (![0, 1] : Fin 2 → Fin S4096x5000.rank)
  bcast_S_S4096x5000 : S_.BroadcastsInDim S4096x5000 (![] : Fin 0 → Fin S4096x5000.rank)
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x8_0_1 : S6600000x1.BroadcastsInDim S6600000x8 (![0, 1] : Fin 2 → Fin S6600000x8.rank)
  bcast_S_S200000x8 : S_.BroadcastsInDim S200000x8 (![] : Fin 0 → Fin S200000x8.rank)
  bcast_S1x8_S200000x8_0_1 : S1x8.BroadcastsInDim S200000x8 (![0, 1] : Fin 2 → Fin S200000x8.rank)
  bcast_S6600000x1_S6600000x4_0_1 : S6600000x1.BroadcastsInDim S6600000x4 (![0, 1] : Fin 2 → Fin S6600000x4.rank)
  bcast_S_S200000x4 : S_.BroadcastsInDim S200000x4 (![] : Fin 0 → Fin S200000x4.rank)
  bcast_S1x4_S200000x4_0_1 : S1x4.BroadcastsInDim S200000x4 (![0, 1] : Fin 2 → Fin S200000x4.rank)
  bcast_S200000_S200000x1_0 : S200000.BroadcastsInDim S200000x1 (![0] : Fin 1 → Fin S200000x1.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4_0_1 : S4096x1.BroadcastsInDim S4096x4 (![0, 1] : Fin 2 → Fin S4096x4.rank)
  concatenates_S4096x4_S4096x4_S4096x8_d1 : Shape.Concatenates [S4096x4, S4096x4] S4096x8 1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x5000_S5000x8_S4096x8_1_0_0_1_n_n_wf : DotDims.WF S4096x5000 S5000x8 S4096x8 [1] [0] [0] [1] [] []
  dot_S4096x8_S8x4_S4096x4_1_0_0_1_n_n_wf : DotDims.WF S4096x8 S8x4 S4096x4 [1] [0] [0] [1] [] []
  dot_S4096x4_S4x8_S4096x8_1_0_0_1_n_n_wf : DotDims.WF S4096x4 S4x8 S4096x8 [1] [0] [0] [1] [] []
  dot_S4096x8_S8x5000_S4096x5000_1_0_0_1_n_n_wf : DotDims.WF S4096x8 S8x5000 S4096x5000 [1] [0] [0] [1] [] []
  dot_S200000x128_S128x8_S200000x8_1_0_0_1_n_n_wf : DotDims.WF S200000x128 S128x8 S200000x8 [1] [0] [0] [1] [] []
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  gather_S200000x8_S6600000x1_S6600000x8_1_0_n_n_0_1_18_wf : GatherDims.WF S200000x8 S6600000x1 S6600000x8 [1] [0] [] [0] [] 1 ![1, 8]
  scatter_S200000x8_S6600000x1_S6600000x8_1_0_0_1_wf : ScatterDims.WF S200000x8 S6600000x1 S6600000x8 [1] [0] [0] 1
  dot_S200000x8_S8x4_S200000x4_1_0_0_1_n_n_wf : DotDims.WF S200000x8 S8x4 S200000x4 [1] [0] [0] [1] [] []
  gather_S200000x4_S6600000x1_S6600000x4_1_0_n_n_0_1_14_wf : GatherDims.WF S200000x4 S6600000x1 S6600000x4 [1] [0] [] [0] [] 1 ![1, 4]
  scatter_S200000x4_S6600000x1_S6600000x4_1_0_0_1_wf : ScatterDims.WF S200000x4 S6600000x1 S6600000x4 [1] [0] [0] 1
  scatter_S4096x4_S200000x1_S200000x4_1_0_0_1_wf : ScatterDims.WF S4096x4 S200000x1 S200000x4 [1] [0] [0] 1
  scatter_S4096_S200000x1_S200000_n_0_0_1_wf : ScatterDims.WF S4096 S200000x1 S200000 [] [0] [0] 1
  dot_S4096x8_S8x1_S4096x1_1_0_0_1_n_n_wf : DotDims.WF S4096x8 S8x1 S4096x1 [1] [0] [0] [1] [] []

variable [Facts₀]

def dot_S4096x5000_S5000x8_S4096x8_1_0_0_1_n_n : DotDims S4096x5000 S5000x8 S4096x8 where
  lhsContracting := [1]
  rhsContracting := [0]
  lhsNonContracting := [0]
  rhsNonContracting := [1]
  lhsBatch := []
  rhsBatch := []
  wf := dot_S4096x5000_S5000x8_S4096x8_1_0_0_1_n_n_wf
def dot_S4096x8_S8x4_S4096x4_1_0_0_1_n_n : DotDims S4096x8 S8x4 S4096x4 where
  lhsContracting := [1]
  rhsContracting := [0]
  lhsNonContracting := [0]
  rhsNonContracting := [1]
  lhsBatch := []
  rhsBatch := []
  wf := dot_S4096x8_S8x4_S4096x4_1_0_0_1_n_n_wf
def dot_S4096x4_S4x8_S4096x8_1_0_0_1_n_n : DotDims S4096x4 S4x8 S4096x8 where
  lhsContracting := [1]
  rhsContracting := [0]
  lhsNonContracting := [0]
  rhsNonContracting := [1]
  lhsBatch := []
  rhsBatch := []
  wf := dot_S4096x4_S4x8_S4096x8_1_0_0_1_n_n_wf
def dot_S4096x8_S8x5000_S4096x5000_1_0_0_1_n_n : DotDims S4096x8 S8x5000 S4096x5000 where
  lhsContracting := [1]
  rhsContracting := [0]
  lhsNonContracting := [0]
  rhsNonContracting := [1]
  lhsBatch := []
  rhsBatch := []
  wf := dot_S4096x8_S8x5000_S4096x5000_1_0_0_1_n_n_wf
def dot_S200000x128_S128x8_S200000x8_1_0_0_1_n_n : DotDims S200000x128 S128x8 S200000x8 where
  lhsContracting := [1]
  rhsContracting := [0]
  lhsNonContracting := [0]
  rhsNonContracting := [1]
  lhsBatch := []
  rhsBatch := []
  wf := dot_S200000x128_S128x8_S200000x8_1_0_0_1_n_n_wf
def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def gather_S200000x8_S6600000x1_S6600000x8_1_0_n_n_0_1_18 : GatherDims S200000x8 S6600000x1 S6600000x8 where
  offsetDims := [1]
  collapsedSliceDims := [0]
  operandBatchingDims := []
  startIndicesBatchingDims := []
  startIndexMap := [0]
  indexVectorDim := 1
  sliceSizes := ![1, 8]
  wf := gather_S200000x8_S6600000x1_S6600000x8_1_0_n_n_0_1_18_wf
def scatter_S200000x8_S6600000x1_S6600000x8_1_0_0_1 : ScatterDims S200000x8 S6600000x1 S6600000x8 where
  updateWindowDims := [1]
  insertedWindowDims := [0]
  scatterDimsToOperandDims := [0]
  indexVectorDim := 1
  wf := scatter_S200000x8_S6600000x1_S6600000x8_1_0_0_1_wf
def dot_S200000x8_S8x4_S200000x4_1_0_0_1_n_n : DotDims S200000x8 S8x4 S200000x4 where
  lhsContracting := [1]
  rhsContracting := [0]
  lhsNonContracting := [0]
  rhsNonContracting := [1]
  lhsBatch := []
  rhsBatch := []
  wf := dot_S200000x8_S8x4_S200000x4_1_0_0_1_n_n_wf
def gather_S200000x4_S6600000x1_S6600000x4_1_0_n_n_0_1_14 : GatherDims S200000x4 S6600000x1 S6600000x4 where
  offsetDims := [1]
  collapsedSliceDims := [0]
  operandBatchingDims := []
  startIndicesBatchingDims := []
  startIndexMap := [0]
  indexVectorDim := 1
  sliceSizes := ![1, 4]
  wf := gather_S200000x4_S6600000x1_S6600000x4_1_0_n_n_0_1_14_wf
def scatter_S200000x4_S6600000x1_S6600000x4_1_0_0_1 : ScatterDims S200000x4 S6600000x1 S6600000x4 where
  updateWindowDims := [1]
  insertedWindowDims := [0]
  scatterDimsToOperandDims := [0]
  indexVectorDim := 1
  wf := scatter_S200000x4_S6600000x1_S6600000x4_1_0_0_1_wf
def scatter_S4096x4_S200000x1_S200000x4_1_0_0_1 : ScatterDims S4096x4 S200000x1 S200000x4 where
  updateWindowDims := [1]
  insertedWindowDims := [0]
  scatterDimsToOperandDims := [0]
  indexVectorDim := 1
  wf := scatter_S4096x4_S200000x1_S200000x4_1_0_0_1_wf
def scatter_S4096_S200000x1_S200000_n_0_0_1 : ScatterDims S4096 S200000x1 S200000 where
  updateWindowDims := []
  insertedWindowDims := [0]
  scatterDimsToOperandDims := [0]
  indexVectorDim := 1
  wf := scatter_S4096_S200000x1_S200000_n_0_0_1_wf
def dot_S4096x8_S8x1_S4096x1_1_0_0_1_n_n : DotDims S4096x8 S8x1 S4096x1 where
  lhsContracting := [1]
  rhsContracting := [0]
  lhsNonContracting := [0]
  rhsNonContracting := [1]
  lhsBatch := []
  rhsBatch := []
  wf := dot_S4096x8_S8x1_S4096x1_1_0_0_1_n_n_wf

class Facts : Prop extends Facts₀ where

variable [Facts]
-- ==== Proof.KRun.lean ====
/-
  The idealized kernel program's run with its three results named.

  The program is three pipelined regions among stretches of host operations. Its buffers' contents at the end of
  the last stretch are the fold `W12` of the host operations and of the regions' write-backs from the launch
  memory. The run below is the launch of those segments (the same segments, thread states and launch facts as in
  the frame of this program) read at the final state: the three result buffers hold what `W12` holds at them,
  and every argument array is as launched.
-/
import proofs.«170223_j25598005084994_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the reconstruction, the logits and the
    concatenated embedding end at the last boundary's contents, and the arguments end as launched. -/
theorem run : θ_run defs (onTc (τ := τ) (main (F := F))) ⟨m, fun _ => 0, ρ⟩ (fun r => ∀ c : Dev nD,
      r.2.mem ((c.tc : Thread nD τ).loc main_v4_1) = W12 m ρ c (Proc.devRef .tc main_v4_1)
      ∧ r.2.mem ((c.tc : Thread nD τ).loc main_v116) = W12 m ρ c (Proc.devRef .tc main_v116)
      ∧ r.2.mem ((c.tc : Thread nD τ).loc main_v112) = W12 m ρ c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v4_1 (by decide)),
       h c _ (mem_uc main_v116 (by decide)),
       h c _ (mem_uc main_v112 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c)⟩)

end Cert.KernelIdeal.Named

end
-- ==== Proof.RefTerms.lean ====
/-
  The reference's arithmetic, cut into the pieces the two programs share.

  The model is a four-layer dense autoencoder on the text features, two graph-convolution layers on the node
  features, a mean pool of the node embeddings over the graphs, and a linear classifier on the concatenated
  embeddings. Each definition below is one of those pieces exactly as the reference spells it, as a function of
  the arrays it reads, so that both programs' results can be stated as the same composition of them:

    x_hat  = dec (enc x We1 be1 We2 be2) Wd1 bd1 Wd2 bd2
    z      = zcat (enc …) (pool (gcn4 (proj2 (relu8 (gcn8 (proj1 nx Wg1) s d bg1)) Wg2) s d bg2) batch)
             with s = erow0 ei, d = erow1 ei the edge list's two rows
    logits = logits z Wc bc

  A graph-convolution layer adds a self loop to every node (`loops`: a row of endpoints followed by 0 … N-1),
  counts in-degrees by a scatter-add of ones (`deg`), takes deg^(-1/2) where the degree is positive (`dinv`),
  weights edge e by dinv[src e] · dinv[dst e] (`norm`), and scatter-adds the weighted source rows of the
  projected features into their targets, plus the bias (`gcn8`, `gcn4`).
-/
import proofs.«170223_j25598005084994_2_alg».proof.ReferenceIdeal
import proofs.«170223_j25598005084994_2_alg».proof.Proof.Gen.ReferenceIdeal

noncomputable section

namespace Cert.RefTerms

open Cert.ReferenceIdeal Cert.ReferenceIdeal.Facts₀ Cert.ReferenceIdeal.Facts Idealize.ShloMosaic Idealize.ShloMosaic.TcCoe

variable {F : FTy → Type} [FloatOps F]

/-- A bias vector as a one-row matrix. -/
def row8 (b : Vec F S8 .f32) : Vec F S1x8 .f32 := broadcastInDim S1x8 ![1] bcast_S8_S1x8_1 b
def row4 (b : Vec F S4 .f32) : Vec F S1x4 .f32 := broadcastInDim S1x4 ![1] bcast_S4_S1x4_1 b
def row5000 (b : Vec F S5000 .f32) : Vec F S1x5000 .f32 := broadcastInDim S1x5000 ![1] bcast_S5000_S1x5000_1 b

/-- The encoder: relu (relu (x · We1 + b1) · We2 + b2), the biases given as one-row matrices. -/
def enc (x : Vec F S4096x5000 .f32) (We1 : Vec F S5000x8 .f32) (b1 : Vec F S1x8 .f32) (We2 : Vec F S8x4 .f32)
    (b2 : Vec F S1x4 .f32) : Vec F S4096x4 .f32 :=
  maximumf (addf (Host.dotGeneral dot_S4096x8_S8x4_S4096x4_1_0_0_1_n_n none (maximumf (addf (Host.dotGeneral dot_S4096x5000_S5000x8_S4096x8_1_0_0_1_n_n none x We1) (broadcastInDim S4096x8 ![0, 1] bcast_S1x8_S4096x8_0_1 b1)) (broadcastInDim S4096x8 ![] bcast_S_S4096x8 (constant S_ .f32 0x00000000#32))) We2) (broadcastInDim S4096x4 ![0, 1] bcast_S1x4_S4096x4_0_1 b2)) (broadcastInDim S4096x4 ![] bcast_S_S4096x4 (constant S_ .f32 0x00000000#32))

/-- The decoder: 1 / (1 + exp (-(relu (z · Wd1 + b3) · Wd2 + b4))), the biases given as one-row matrices. -/
def dec (z : Vec F S4096x4 .f32) (Wd1 : Vec F S4x8 .f32) (b3 : Vec F S1x8 .f32) (Wd2 : Vec F S8x5000 .f32)
    (b4 : Vec F S1x5000 .f32) : Vec F S4096x5000 .f32 :=
  Host.divf (broadcastInDim S4096x5000 ![] bcast_S_S4096x5000 (constant S_ .f32 0x3F800000#32)) (addf (broadcastInDim S4096x5000 ![] bcast_S_S4096x5000 (constant S_ .f32 0x3F800000#32)) (Host.exp (Host.negf (addf (Host.dotGeneral dot_S4096x8_S8x5000_S4096x5000_1_0_0_1_n_n none (maximumf (addf (Host.dotGeneral dot_S4096x4_S4x8_S4096x8_1_0_0_1_n_n none z Wd1) (broadcastInDim S4096x8 ![0, 1] bcast_S1x8_S4096x8_0_1 b3)) (broadcastInDim S4096x8 ![] bcast_S_S4096x8 (constant S_ .f32 0x00000000#32))) Wd2) (broadcastInDim S4096x5000 ![0, 1] bcast_S1x5000_S4096x5000_0_1 b4)))))

/-- The two dense projections of the graph layers. -/
def proj1 (nx : Vec F S200000x128 .f32) (W : Vec F S128x8 .f32) : Vec F S200000x8 .f32 :=
  Host.dotGeneral dot_S200000x128_S128x8_S200000x8_1_0_0_1_n_n none nx W
def proj2 (h : Vec F S200000x8 .f32) (W : Vec F S8x4 .f32) : Vec F S200000x4 .f32 :=
  Host.dotGeneral dot_S200000x8_S8x4_S200000x4_1_0_0_1_n_n none h W

/-- The edge list's two rows: sources and targets. -/
def erow0 (ei : Vec F S2x6400000 .i32) : Vec F S6400000 .i32 :=
  shapeCast _ (extractStridedSlice S1x6400000 ![0, 0] ei slices_S2x6400000_S1x6400000_0_0) shapeCasts_S1x6400000_S6400000
def erow1 (ei : Vec F S2x6400000 .i32) : Vec F S6400000 .i32 :=
  shapeCast _ (extractStridedSlice S1x6400000 ![1, 0] ei slices_S2x6400000_S1x6400000_1_0) shapeCasts_S1x6400000_S6400000

/-- A row of edge endpoints followed by the self loops 0 … N-1. -/
def loops (s : Vec F S6400000 .i32) : Vec F S6600000 .i32 :=
  concatenate S6600000 0 [⟨S6400000, s⟩, ⟨S200000, (iotaInDim S200000 32 0)⟩] concatenates_S6400000_S200000_S6600000_d0

/-- A node index made non-negative (i + N when i < 0), as a column of gather start words. -/
def wrap (s : Vec F S6600000 .i32) : Vec F S6600000x1 .i32 :=
  broadcastInDim S6600000x1 ![0] bcast_S6600000_S6600000x1_0 (select (cmpi .slt s (broadcastInDim S6600000 ![] bcast_S_S6600000 (constantI S_ 32 0#32))) (addi s (broadcastInDim S6600000 ![] bcast_S_S6600000 (constantI S_ 32 200000#32))) s)

/-- In-degrees (self loops included): ones scatter-added at the targets `d`. -/
def deg (d : Vec F S6400000 .i32) : Vec F S200000 .f32 :=
  Host.scatterAdd scatter_S200000_S6600000x1_S6600000_n_0_0_1 (broadcastInDim S200000 ![] bcast_S_S200000 (constant S_ .f32 0x00000000#32)) (broadcastInDim S6600000x1 ![0] bcast_S6600000_S6600000x1_0 (loops d)) (broadcastInDim S6600000 ![] bcast_S_S6600000 (constant S_ .f32 0x3F800000#32))

/-- deg^(-1/2) where the degree is positive, 0 elsewhere. -/
def dinv (d : Vec F S6400000 .i32) : Vec F S200000 .f32 :=
  select (cmpf .ogt (deg d) (broadcastInDim S200000 ![] bcast_S_S200000 (constant S_ .f32 0x00000000#32))) (Host.rsqrt (maximumf (deg d) (broadcastInDim S200000 ![] bcast_S_S200000 (constant S_ .f32 0x2B8CBCCC#32)))) (broadcastInDim S200000 ![] bcast_S_S200000 (id (constant S_ .f32 0x00000000#32)))

/-- The symmetric normalisation of every edge (sources `s`, targets `d`): dinv[src] · dinv[dst]. -/
def norm (s d : Vec F S6400000 .i32) : Vec F S6600000 .f32 :=
  mulf (Host.gather gather_S200000_S6600000x1_S6600000_n_0_n_n_0_1_1 (dinv d) (wrap (loops s))) (Host.gather gather_S200000_S6600000x1_S6600000_n_0_n_n_0_1_1 (dinv d) (wrap (loops d)))

/-- Message passing on 8 features: weighted source rows scatter-added into their targets, plus the bias. -/
def gcn8 (h : Vec F S200000x8 .f32) (s d : Vec F S6400000 .i32) (b : Vec F S8 .f32) : Vec F S200000x8 .f32 :=
  addf (Host.scatterAdd scatter_S200000x8_S6600000x1_S6600000x8_1_0_0_1 (broadcastInDim S200000x8 ![] bcast_S_S200000x8 (constant S_ .f32 0x00000000#32)) (broadcastInDim S6600000x1 ![0] bcast_S6600000_S6600000x1_0 (loops d)) (mulf (Host.gather gather_S200000x8_S6600000x1_S6600000x8_1_0_n_n_0_1_18 h (wrap (loops s))) (broadcastInDim S6600000x8 ![0, 1] bcast_S6600000x1_S6600000x8_0_1 (broadcastInDim S6600000x1 ![0] bcast_S6600000_S6600000x1_0 (norm s d))))) (broadcastInDim S200000x8 ![0, 1] bcast_S1x8_S200000x8_0_1 (broadcastInDim S1x8 ![1] bcast_S8_S1x8_1 b))

def relu8 (h : Vec F S200000x8 .f32) : Vec F S200000x8 .f32 :=
  maximumf h (broadcastInDim S200000x8 ![] bcast_S_S200000x8 (constant S_ .f32 0x00000000#32))

/-- Message passing on 4 features. -/
def gcn4 (h : Vec F S200000x4 .f32) (s d : Vec F S6400000 .i32) (b : Vec F S4 .f32) : Vec F S200000x4 .f32 :=
  addf (Host.scatterAdd scatter_S200000x4_S6600000x1_S6600000x4_1_0_0_1 (broadcastInDim S200000x4 ![] bcast_S_S200000x4 (constant S_ .f32 0x00000000#32)) (broadcastInDim S6600000x1 ![0] bcast_S6600000_S6600000x1_0 (loops d)) (mulf (Host.gather gather_S200000x4_S6600000x1_S6600000x4_1_0_n_n_0_1_14 h (wrap (loops s))) (broadcastInDim S6600000x4 ![0, 1] bcast_S6600000x1_S6600000x4_0_1 (broadcastInDim S6600000x1 ![0] bcast_S6600000_S6600000x1_0 (norm s d))))) (broadcastInDim S200000x4 ![0, 1] bcast_S1x4_S200000x4_0_1 (broadcastInDim S1x4 ![1] bcast_S4_S1x4_1 b))

/-- The mean of the node embeddings of each graph: sums over max (count, 1). -/
def pool (h : Vec F S200000x4 .f32) (batch : Vec F S200000 .i32) : Vec F S4096x4 .f32 :=
  Host.divf (Host.scatterAdd scatter_S4096x4_S200000x1_S200000x4_1_0_0_1 (broadcastInDim S4096x4 ![] bcast_S_S4096x4 (constant S_ .f32 0x00000000#32)) (broadcastInDim S200000x1 ![0] bcast_S200000_S200000x1_0 batch) h) (broadcastInDim S4096x4 ![0, 1] bcast_S4096x1_S4096x4_0_1 (broadcastInDim S4096x1 ![0] bcast_S4096_S4096x1_0 (maximumf (Host.scatterAdd scatter_S4096_S200000x1_S200000_n_0_0_1 (broadcastInDim S4096 ![] bcast_S_S4096 (constant S_ .f32 0x00000000#32)) (broadcastInDim S200000x1 ![0] bcast_S200000_S200000x1_0 batch) (broadcastInDim S200000 ![] bcast_S_S200000 (constant S_ .f32 0x3F800000#32))) (broadcastInDim S4096 ![] bcast_S_S4096 (constant S_ .f32 0x3F800000#32)))))

/-- The text and graph embeddings side by side. -/
def zcat (a b : Vec F S4096x4 .f32) : Vec F S4096x8 .f32 :=
  concatenate S4096x8 1 [⟨S4096x4, a⟩, ⟨S4096x4, b⟩] concatenates_S4096x4_S4096x4_S4096x8_d1

/-- The classifier: z · Wc + bc. -/
def logits (z : Vec F S4096x8 .f32) (Wc : Vec F S8x1 .f32) (bc : Vec F S1 .f32) : Vec F S4096x1 .f32 :=
  addf (Host.dotGeneral dot_S4096x8_S8x1_S4096x1_1_0_0_1_n_n none z Wc) (broadcastInDim S4096x1 ![0, 1] bcast_S1x1_S4096x1_0_1 (broadcastInDim S1x1 ![1] bcast_S1_S1x1_1 bc))

end Cert.RefTerms

end
-- ==== Proof.LibConcatPair.lean ====
/-
  Two arrays set side by side, as a function of the two arrays.

  `concatenate t k xs h` takes its operands as a LIST of shaped arrays and a side condition `h` whose statement mentions
  that list, so a rewriting pass cannot replace an operand inside the list (the side condition's type would change).
  For two operands, `cat2 t k S1 S2 a b h` is the same array with the operands as plain arguments and the side
  condition stated over the two shapes only: rewriting with `concat_pair` first lets a pass go on inside `a` and `b`.
-/
import Idealize.ShloMosaic.PureOps.ShapeOps

noncomputable section

namespace Cert.LibConcatPair

open Idealize.ShloMosaic

/-- Two arrays set side by side along axis `k`, as a function of the two arrays. -/
def cat2 {α : Type} (t : Shape) (k : Fin t.rank) (S1 S2 : Shape) (a : S1.Idx → α) (b : S2.Idx → α)
    (h : Shape.Concatenates [S1, S2] t k) : t.Idx → α :=
  concatenate t k [⟨S1, a⟩, ⟨S2, b⟩] h

/-- A concatenation of two operands is `cat2` of them. -/
theorem concat_pair {α : Type} (t : Shape) (k : Fin t.rank) (S1 S2 : Shape) (a : S1.Idx → α) (b : S2.Idx → α)
    (h : Shape.Concatenates [S1, S2] t k) : concatenate t k [⟨S1, a⟩, ⟨S2, b⟩] h = cat2 t k S1 S2 a b h := rfl

end Cert.LibConcatPair

end
-- ==== Proof.KHost.lean ====
/-
  The idealized kernel program's host stretches, read as values.

  Between its three pipelined regions the program runs host operations: before region 0 the four bias vectors are
  recast as one-row matrices; after it the edge list is cut into its source and target rows; after region 1 the first
  graph-convolution layer's message passing and its relu; after region 2 the second layer's message passing, the mean
  pool over the graphs, the concatenation with the text embedding and the classifier. Each lemma below says what one
  buffer holds at a segment boundary (`W1` … `W12`: the contents after each stretch or region) as a function of what
  the previous boundary holds, the operations' composed term being one of the reference's own pieces
  (`Cert.RefTerms`): the two programs spell these stretches with the same operations.
-/
import proofs.«170223_j25598005084994_2_alg».proof.Proof.Gen.KernelIdeal.Frame
import proofs.«170223_j25598005084994_2_alg».proof.Proof.RefTerms
import proofs.«170223_j25598005084994_2_alg».proof.Proof.LibConcatPair

set_option maxRecDepth 16384

noncomputable section

namespace Cert.KernelIdeal.HostSteps

open Idealize.ShloMosaic Idealize.ShloMosaic.TcCoe Idealize.SL.Sem Idealize.ShloMosaic.StableHlo
open Cert.KernelIdeal Cert.KernelIdeal.Gen Cert.RefTerms Cert.LibConcatPair

variable {F : FTy → Type} [FloatOps F]
variable (m : (ℓ : Loc nD τ sig) → Buf (Elt F) ℓ) (ρ : Dev nD → PrngReg)

/-- Reads a buffer after a stretch of host operations: each operation's result at its own buffer is its function of
    its operands' contents, and any other buffer keeps what it held (a concatenation is read as a function of its two
    operands, so that the operands are read in turn). -/
macro "host_walk" : tactic => `(tactic| (
  simp only [hostOps0, hostOps1, hostOps2, hostOps2_1, hostOps2_2, hostOps2_3, hostOps3, hostOps3_1, hostOps3_2]
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat_pair]))

/-! ## Before region 0: the biases recast as one-row matrices, every argument untouched -/

theorem W1_main_v0 (c : Dev nD) : W1 m ρ c (Proc.devRef .tc main_v0) = shapeCast _ (m ((c : Thread nD τ).loc main_arg5)) shapeCasts_S8_S1x8 := by
  show StableHlo.after hostOps0 (W0 m ρ c) (Proc.devRef .tc main_v0) = _
  host_walk
  all_goals rfl
theorem W1_main_v1 (c : Dev nD) : W1 m ρ c (Proc.devRef .tc main_v1) = shapeCast _ (m ((c : Thread nD τ).loc main_arg7)) shapeCasts_S4_S1x4 := by
  show StableHlo.after hostOps0 (W0 m ρ c) (Proc.devRef .tc main_v1) = _
  host_walk
  all_goals rfl
theorem W1_main_v2 (c : Dev nD) : W1 m ρ c (Proc.devRef .tc main_v2) = shapeCast _ (m ((c : Thread nD τ).loc main_arg9)) shapeCasts_S8_S1x8 := by
  show StableHlo.after hostOps0 (W0 m ρ c) (Proc.devRef .tc main_v2) = _
  host_walk
  all_goals rfl
theorem W1_main_v3 (c : Dev nD) : W1 m ρ c (Proc.devRef .tc main_v3) = shapeCast _ (m ((c : Thread nD τ).loc main_arg11)) shapeCasts_S5000_S1x5000 := by
  show StableHlo.after hostOps0 (W0 m ρ c) (Proc.devRef .tc main_v3) = _
  host_walk
  all_goals rfl
theorem W1_main_arg0 (c : Dev nD) : W1 m ρ c (Proc.devRef .tc main_arg0) = (m ((c : Thread nD τ).loc main_arg0)) := by
  show StableHlo.after hostOps0 (W0 m ρ c) (Proc.devRef .tc main_arg0) = _
  host_walk
  all_goals rfl
theorem W1_main_arg1 (c : Dev nD) : W1 m ρ c (Proc.devRef .tc main_arg1) = (m ((c : Thread nD τ).loc main_arg1)) := by
  show StableHlo.after hostOps0 (W0 m ρ c) (Proc.devRef .tc main_arg1) = _
  host_walk
  all_goals rfl
theorem W1_main_arg2 (c : Dev nD) : W1 m ρ c (Proc.devRef .tc main_arg2) = (m ((c : Thread nD τ).loc main_arg2)) := by
  show StableHlo.after hostOps0 (W0 m ρ c) (Proc.devRef .tc main_arg2) = _
  host_walk
  all_goals rfl
theorem W1_main_arg3 (c : Dev nD) : W1 m ρ c (Proc.devRef .tc main_arg3) = (m ((c : Thread nD τ).loc main_arg3)) := by
  show StableHlo.after hostOps0 (W0 m ρ c) (Proc.devRef .tc main_arg3) = _
  host_walk
  all_goals rfl
theorem W1_main_arg4 (c : Dev nD) : W1 m ρ c (Proc.devRef .tc main_arg4) = (m ((c : Thread nD τ).loc main_arg4)) := by
  show StableHlo.after hostOps0 (W0 m ρ c) (Proc.devRef .tc main_arg4) = _
  host_walk
  all_goals rfl
theorem W1_main_arg5 (c : Dev nD) : W1 m ρ c (Proc.devRef .tc main_arg5) = (m ((c : Thread nD τ).loc main_arg5)) := by
  show StableHlo.after hostOps0 (W0 m ρ c) (Proc.devRef .tc main_arg5) = _
  host_walk
  all_goals rfl
theorem W1_main_arg6 (c : Dev nD) : W1 m ρ c (Proc.devRef .tc main_arg6) = (m ((c : Thread nD τ).loc main_arg6)) := by
  show StableHlo.after hostOps0 (W0 m ρ c) (Proc.devRef .tc main_arg6) = _
  host_walk
  all_goals rfl
theorem W1_main_arg7 (c : Dev nD) : W1 m ρ c (Proc.devRef .tc main_arg7) = (m ((c : Thread nD τ).loc main_arg7)) := by
  show StableHlo.after hostOps0 (W0 m ρ c) (Proc.devRef .tc main_arg7) = _
  host_walk
  all_goals rfl
theorem W1_main_arg8 (c : Dev nD) : W1 m ρ c (Proc.devRef .tc main_arg8) = (m ((c : Thread nD τ).loc main_arg8)) := by
  show StableHlo.after hostOps0 (W0 m ρ c) (Proc.devRef .tc main_arg8) = _
  host_walk
  all_goals rfl
theorem W1_main_arg9 (c : Dev nD) : W1 m ρ c (Proc.devRef .tc main_arg9) = (m ((c : Thread nD τ).loc main_arg9)) := by
  show StableHlo.after hostOps0 (W0 m ρ c) (Proc.devRef .tc main_arg9) = _
  host_walk
  all_goals rfl
theorem W1_main_arg10 (c : Dev nD) : W1 m ρ c (Proc.devRef .tc main_arg10) = (m ((c : Thread nD τ).loc main_arg10)) := by
  show StableHlo.after hostOps0 (W0 m ρ c) (Proc.devRef .tc main_arg10) = _
  host_walk
  all_goals rfl
theorem W1_main_arg11 (c : Dev nD) : W1 m ρ c (Proc.devRef .tc main_arg11) = (m ((c : Thread nD τ).loc main_arg11)) := by
  show StableHlo.after hostOps0 (W0 m ρ c) (Proc.devRef .tc main_arg11) = _
  host_walk
  all_goals rfl
theorem W1_main_arg12 (c : Dev nD) : W1 m ρ c (Proc.devRef .tc main_arg12) = (m ((c : Thread nD τ).loc main_arg12)) := by
  show StableHlo.after hostOps0 (W0 m ρ c) (Proc.devRef .tc main_arg12) = _
  host_walk
  all_goals rfl
theorem W1_main_arg13 (c : Dev nD) : W1 m ρ c (Proc.devRef .tc main_arg13) = (m ((c : Thread nD τ).loc main_arg13)) := by
  show StableHlo.after hostOps0 (W0 m ρ c) (Proc.devRef .tc main_arg13) = _
  host_walk
  all_goals rfl
theorem W1_main_arg14 (c : Dev nD) : W1 m ρ c (Proc.devRef .tc main_arg14) = (m ((c : Thread nD τ).loc main_arg14)) := by
  show StableHlo.after hostOps0 (W0 m ρ c) (Proc.devRef .tc main_arg14) = _
  host_walk
  all_goals rfl
theorem W1_main_arg15 (c : Dev nD) : W1 m ρ c (Proc.devRef .tc main_arg15) = (m ((c : Thread nD τ).loc main_arg15)) := by
  show StableHlo.after hostOps0 (W0 m ρ c) (Proc.devRef .tc main_arg15) = _
  host_walk
  all_goals rfl
theorem W1_main_arg16 (c : Dev nD) : W1 m ρ c (Proc.devRef .tc main_arg16) = (m ((c : Thread nD τ).loc main_arg16)) := by
  show StableHlo.after hostOps0 (W0 m ρ c) (Proc.devRef .tc main_arg16) = _
  host_walk
  all_goals rfl
theorem W1_main_arg17 (c : Dev nD) : W1 m ρ c (Proc.devRef .tc main_arg17) = (m ((c : Thread nD τ).loc main_arg17)) := by
  show StableHlo.after hostOps0 (W0 m ρ c) (Proc.devRef .tc main_arg17) = _
  host_walk
  all_goals rfl

/-! ## Region 0 writes only its two outputs; then the edge list is cut into its two rows -/

theorem W2_main_arg1 (c : Dev nD) : W2 m ρ c (Proc.devRef .tc main_arg1) = (m ((c : Thread nD τ).loc main_arg1)) :=
  (W2_of_ne m ρ c main_arg1 (by decide)).trans (W1_main_arg1 m ρ c)
theorem W2_main_arg2 (c : Dev nD) : W2 m ρ c (Proc.devRef .tc main_arg2) = (m ((c : Thread nD τ).loc main_arg2)) :=
  (W2_of_ne m ρ c main_arg2 (by decide)).trans (W1_main_arg2 m ρ c)
theorem W2_main_arg3 (c : Dev nD) : W2 m ρ c (Proc.devRef .tc main_arg3) = (m ((c : Thread nD τ).loc main_arg3)) :=
  (W2_of_ne m ρ c main_arg3 (by decide)).trans (W1_main_arg3 m ρ c)
theorem W2_main_arg12 (c : Dev nD) : W2 m ρ c (Proc.devRef .tc main_arg12) = (m ((c : Thread nD τ).loc main_arg12)) :=
  (W2_of_ne m ρ c main_arg12 (by decide)).trans (W1_main_arg12 m ρ c)
theorem W2_main_arg13 (c : Dev nD) : W2 m ρ c (Proc.devRef .tc main_arg13) = (m ((c : Thread nD τ).loc main_arg13)) :=
  (W2_of_ne m ρ c main_arg13 (by decide)).trans (W1_main_arg13 m ρ c)
theorem W2_main_arg14 (c : Dev nD) : W2 m ρ c (Proc.devRef .tc main_arg14) = (m ((c : Thread nD τ).loc main_arg14)) :=
  (W2_of_ne m ρ c main_arg14 (by decide)).trans (W1_main_arg14 m ρ c)
theorem W2_main_arg15 (c : Dev nD) : W2 m ρ c (Proc.devRef .tc main_arg15) = (m ((c : Thread nD τ).loc main_arg15)) :=
  (W2_of_ne m ρ c main_arg15 (by decide)).trans (W1_main_arg15 m ρ c)
theorem W2_main_arg16 (c : Dev nD) : W2 m ρ c (Proc.devRef .tc main_arg16) = (m ((c : Thread nD τ).loc main_arg16)) :=
  (W2_of_ne m ρ c main_arg16 (by decide)).trans (W1_main_arg16 m ρ c)
theorem W2_main_arg17 (c : Dev nD) : W2 m ρ c (Proc.devRef .tc main_arg17) = (m ((c : Thread nD τ).loc main_arg17)) :=
  (W2_of_ne m ρ c main_arg17 (by decide)).trans (W1_main_arg17 m ρ c)
theorem W3_main_v6 (c : Dev nD) : W3 m ρ c (Proc.devRef .tc main_v6) = erow0 (m ((c : Thread nD τ).loc main_arg2)) := by
  show StableHlo.after hostOps1 (W2 m ρ c) (Proc.devRef .tc main_v6) = _
  host_walk
  rw [W2_main_arg2]
  rfl
theorem W3_main_v8 (c : Dev nD) : W3 m ρ c (Proc.devRef .tc main_v8) = erow1 (m ((c : Thread nD τ).loc main_arg2)) := by
  show StableHlo.after hostOps1 (W2 m ρ c) (Proc.devRef .tc main_v8) = _
  host_walk
  rw [W2_main_arg2]
  rfl
theorem W3_main_arg1 (c : Dev nD) : W3 m ρ c (Proc.devRef .tc main_arg1) = (m ((c : Thread nD τ).loc main_arg1)) := by
  show StableHlo.after hostOps1 (W2 m ρ c) (Proc.devRef .tc main_arg1) = _
  host_walk
  exact W2_main_arg1 m ρ c
theorem W3_main_arg3 (c : Dev nD) : W3 m ρ c (Proc.devRef .tc main_arg3) = (m ((c : Thread nD τ).loc main_arg3)) := by
  show StableHlo.after hostOps1 (W2 m ρ c) (Proc.devRef .tc main_arg3) = _
  host_walk
  exact W2_main_arg3 m ρ c
theorem W3_main_arg12 (c : Dev nD) : W3 m ρ c (Proc.devRef .tc main_arg12) = (m ((c : Thread nD τ).loc main_arg12)) := by
  show StableHlo.after hostOps1 (W2 m ρ c) (Proc.devRef .tc main_arg12) = _
  host_walk
  exact W2_main_arg12 m ρ c
theorem W3_main_arg13 (c : Dev nD) : W3 m ρ c (Proc.devRef .tc main_arg13) = (m ((c : Thread nD τ).loc main_arg13)) := by
  show StableHlo.after hostOps1 (W2 m ρ c) (Proc.devRef .tc main_arg13) = _
  host_walk
  exact W2_main_arg13 m ρ c
theorem W3_main_arg14 (c : Dev nD) : W3 m ρ c (Proc.devRef .tc main_arg14) = (m ((c : Thread nD τ).loc main_arg14)) := by
  show StableHlo.after hostOps1 (W2 m ρ c) (Proc.devRef .tc main_arg14) = _
  host_walk
  exact W2_main_arg14 m ρ c
theorem W3_main_arg15 (c : Dev nD) : W3 m ρ c (Proc.devRef .tc main_arg15) = (m ((c : Thread nD τ).loc main_arg15)) := by
  show StableHlo.after hostOps1 (W2 m ρ c) (Proc.devRef .tc main_arg15) = _
  host_walk
  exact W2_main_arg15 m ρ c
theorem W3_main_arg16 (c : Dev nD) : W3 m ρ c (Proc.devRef .tc main_arg16) = (m ((c : Thread nD τ).loc main_arg16)) := by
  show StableHlo.after hostOps1 (W2 m ρ c) (Proc.devRef .tc main_arg16) = _
  host_walk
  exact W2_main_arg16 m ρ c
theorem W3_main_arg17 (c : Dev nD) : W3 m ρ c (Proc.devRef .tc main_arg17) = (m ((c : Thread nD τ).loc main_arg17)) := by
  show StableHlo.after hostOps1 (W2 m ρ c) (Proc.devRef .tc main_arg17) = _
  host_walk
  exact W2_main_arg17 m ρ c
theorem W3_main_v4_0 (c : Dev nD) : W3 m ρ c (Proc.devRef .tc main_v4_0) = W2 m ρ c (Proc.devRef .tc main_v4_0) := by
  show StableHlo.after hostOps1 (W2 m ρ c) (Proc.devRef .tc main_v4_0) = _
  host_walk
theorem W3_main_v4_1 (c : Dev nD) : W3 m ρ c (Proc.devRef .tc main_v4_1) = W2 m ρ c (Proc.devRef .tc main_v4_1) := by
  show StableHlo.after hostOps1 (W2 m ρ c) (Proc.devRef .tc main_v4_1) = _
  host_walk

/-! ## Region 1 writes only its output; then the first layer's message passing and relu -/

theorem W4_main_arg3 (c : Dev nD) : W4 m ρ c (Proc.devRef .tc main_arg3) = (m ((c : Thread nD τ).loc main_arg3)) :=
  (W4_of_ne m ρ c main_arg3 (by decide)).trans (W3_main_arg3 m ρ c)
theorem W4_main_arg13 (c : Dev nD) : W4 m ρ c (Proc.devRef .tc main_arg13) = (m ((c : Thread nD τ).loc main_arg13)) :=
  (W4_of_ne m ρ c main_arg13 (by decide)).trans (W3_main_arg13 m ρ c)
theorem W4_main_arg14 (c : Dev nD) : W4 m ρ c (Proc.devRef .tc main_arg14) = (m ((c : Thread nD τ).loc main_arg14)) :=
  (W4_of_ne m ρ c main_arg14 (by decide)).trans (W3_main_arg14 m ρ c)
theorem W4_main_arg15 (c : Dev nD) : W4 m ρ c (Proc.devRef .tc main_arg15) = (m ((c : Thread nD τ).loc main_arg15)) :=
  (W4_of_ne m ρ c main_arg15 (by decide)).trans (W3_main_arg15 m ρ c)
theorem W4_main_arg16 (c : Dev nD) : W4 m ρ c (Proc.devRef .tc main_arg16) = (m ((c : Thread nD τ).loc main_arg16)) :=
  (W4_of_ne m ρ c main_arg16 (by decide)).trans (W3_main_arg16 m ρ c)
theorem W4_main_arg17 (c : Dev nD) : W4 m ρ c (Proc.devRef .tc main_arg17) = (m ((c : Thread nD τ).loc main_arg17)) :=
  (W4_of_ne m ρ c main_arg17 (by decide)).trans (W3_main_arg17 m ρ c)
theorem W4_main_v6 (c : Dev nD) : W4 m ρ c (Proc.devRef .tc main_v6) = erow0 (m ((c : Thread nD τ).loc main_arg2)) :=
  (W4_of_ne m ρ c main_v6 (by decide)).trans (W3_main_v6 m ρ c)
theorem W4_main_v8 (c : Dev nD) : W4 m ρ c (Proc.devRef .tc main_v8) = erow1 (m ((c : Thread nD τ).loc main_arg2)) :=
  (W4_of_ne m ρ c main_v8 (by decide)).trans (W3_main_v8 m ρ c)
theorem W4_main_v4_0 (c : Dev nD) : W4 m ρ c (Proc.devRef .tc main_v4_0) = W2 m ρ c (Proc.devRef .tc main_v4_0) :=
  (W4_of_ne m ρ c main_v4_0 (by decide)).trans (W3_main_v4_0 m ρ c)
theorem W4_main_v4_1 (c : Dev nD) : W4 m ρ c (Proc.devRef .tc main_v4_1) = W2 m ρ c (Proc.devRef .tc main_v4_1) :=
  (W4_of_ne m ρ c main_v4_1 (by decide)).trans (W3_main_v4_1 m ρ c)
/-- The first graph layer: message passing over the first projection, then relu. -/
theorem W8_main_v54 (c : Dev nD) : W8 m ρ c (Proc.devRef .tc main_v54) = relu8 (gcn8 (W4 m ρ c (Proc.devRef .tc main_v9)) (W4 m ρ c (Proc.devRef .tc main_v6)) (W4 m ρ c (Proc.devRef .tc main_v8)) (W4 m ρ c (Proc.devRef .tc main_arg13))) := by
  show StableHlo.after hostOps2_3 (StableHlo.after hostOps2_2 (StableHlo.after hostOps2_1 (StableHlo.after hostOps2 (W4 m ρ c)))) (Proc.devRef .tc main_v54) = _
  host_walk
  all_goals rfl
theorem W8_pass_main_v6 (c : Dev nD) : W8 m ρ c (Proc.devRef .tc main_v6) = W4 m ρ c (Proc.devRef .tc main_v6) := by
  show StableHlo.after hostOps2_3 (StableHlo.after hostOps2_2 (StableHlo.after hostOps2_1 (StableHlo.after hostOps2 (W4 m ρ c)))) (Proc.devRef .tc main_v6) = _
  host_walk
  all_goals rfl
theorem W8_pass_main_v8 (c : Dev nD) : W8 m ρ c (Proc.devRef .tc main_v8) = W4 m ρ c (Proc.devRef .tc main_v8) := by
  show StableHlo.after hostOps2_3 (StableHlo.after hostOps2_2 (StableHlo.after hostOps2_1 (StableHlo.after hostOps2 (W4 m ρ c)))) (Proc.devRef .tc main_v8) = _
  host_walk
  all_goals rfl
theorem W8_pass_main_arg3 (c : Dev nD) : W8 m ρ c (Proc.devRef .tc main_arg3) = W4 m ρ c (Proc.devRef .tc main_arg3) := by
  show StableHlo.after hostOps2_3 (StableHlo.after hostOps2_2 (StableHlo.after hostOps2_1 (StableHlo.after hostOps2 (W4 m ρ c)))) (Proc.devRef .tc main_arg3) = _
  host_walk
  all_goals rfl
theorem W8_pass_main_arg14 (c : Dev nD) : W8 m ρ c (Proc.devRef .tc main_arg14) = W4 m ρ c (Proc.devRef .tc main_arg14) := by
  show StableHlo.after hostOps2_3 (StableHlo.after hostOps2_2 (StableHlo.after hostOps2_1 (StableHlo.after hostOps2 (W4 m ρ c)))) (Proc.devRef .tc main_arg14) = _
  host_walk
  all_goals rfl
theorem W8_pass_main_arg15 (c : Dev nD) : W8 m ρ c (Proc.devRef .tc main_arg15) = W4 m ρ c (Proc.devRef .tc main_arg15) := by
  show StableHlo.after hostOps2_3 (StableHlo.after hostOps2_2 (StableHlo.after hostOps2_1 (StableHlo.after hostOps2 (W4 m ρ c)))) (Proc.devRef .tc main_arg15) = _
  host_walk
  all_goals rfl
theorem W8_pass_main_arg16 (c : Dev nD) : W8 m ρ c (Proc.devRef .tc main_arg16) = W4 m ρ c (Proc.devRef .tc main_arg16) := by
  show StableHlo.after hostOps2_3 (StableHlo.after hostOps2_2 (StableHlo.after hostOps2_1 (StableHlo.after hostOps2 (W4 m ρ c)))) (Proc.devRef .tc main_arg16) = _
  host_walk
  all_goals rfl
theorem W8_pass_main_arg17 (c : Dev nD) : W8 m ρ c (Proc.devRef .tc main_arg17) = W4 m ρ c (Proc.devRef .tc main_arg17) := by
  show StableHlo.after hostOps2_3 (StableHlo.after hostOps2_2 (StableHlo.after hostOps2_1 (StableHlo.after hostOps2 (W4 m ρ c)))) (Proc.devRef .tc main_arg17) = _
  host_walk
  all_goals rfl
theorem W8_pass_main_v4_0 (c : Dev nD) : W8 m ρ c (Proc.devRef .tc main_v4_0) = W4 m ρ c (Proc.devRef .tc main_v4_0) := by
  show StableHlo.after hostOps2_3 (StableHlo.after hostOps2_2 (StableHlo.after hostOps2_1 (StableHlo.after hostOps2 (W4 m ρ c)))) (Proc.devRef .tc main_v4_0) = _
  host_walk
  all_goals rfl
theorem W8_pass_main_v4_1 (c : Dev nD) : W8 m ρ c (Proc.devRef .tc main_v4_1) = W4 m ρ c (Proc.devRef .tc main_v4_1) := by
  show StableHlo.after hostOps2_3 (StableHlo.after hostOps2_2 (StableHlo.after hostOps2_1 (StableHlo.after hostOps2 (W4 m ρ c)))) (Proc.devRef .tc main_v4_1) = _
  host_walk
  all_goals rfl
theorem W8_main_arg14 (c : Dev nD) : W8 m ρ c (Proc.devRef .tc main_arg14) = (m ((c : Thread nD τ).loc main_arg14)) :=
  (W8_pass_main_arg14 m ρ c).trans (W4_main_arg14 m ρ c)

/-! ## Region 2 writes only its output; then the second layer, the mean pool, the concatenation and the classifier -/

theorem W9_main_arg3 (c : Dev nD) : W9 m ρ c (Proc.devRef .tc main_arg3) = (m ((c : Thread nD τ).loc main_arg3)) :=
  (W9_of_ne m ρ c main_arg3 (by decide)).trans ((W8_pass_main_arg3 m ρ c).trans (W4_main_arg3 m ρ c))
theorem W9_main_arg15 (c : Dev nD) : W9 m ρ c (Proc.devRef .tc main_arg15) = (m ((c : Thread nD τ).loc main_arg15)) :=
  (W9_of_ne m ρ c main_arg15 (by decide)).trans ((W8_pass_main_arg15 m ρ c).trans (W4_main_arg15 m ρ c))
theorem W9_main_arg16 (c : Dev nD) : W9 m ρ c (Proc.devRef .tc main_arg16) = (m ((c : Thread nD τ).loc main_arg16)) :=
  (W9_of_ne m ρ c main_arg16 (by decide)).trans ((W8_pass_main_arg16 m ρ c).trans (W4_main_arg16 m ρ c))
theorem W9_main_arg17 (c : Dev nD) : W9 m ρ c (Proc.devRef .tc main_arg17) = (m ((c : Thread nD τ).loc main_arg17)) :=
  (W9_of_ne m ρ c main_arg17 (by decide)).trans ((W8_pass_main_arg17 m ρ c).trans (W4_main_arg17 m ρ c))
theorem W9_main_v6 (c : Dev nD) : W9 m ρ c (Proc.devRef .tc main_v6) = erow0 (m ((c : Thread nD τ).loc main_arg2)) :=
  (W9_of_ne m ρ c main_v6 (by decide)).trans ((W8_pass_main_v6 m ρ c).trans (W4_main_v6 m ρ c))
theorem W9_main_v8 (c : Dev nD) : W9 m ρ c (Proc.devRef .tc main_v8) = erow1 (m ((c : Thread nD τ).loc main_arg2)) :=
  (W9_of_ne m ρ c main_v8 (by decide)).trans ((W8_pass_main_v8 m ρ c).trans (W4_main_v8 m ρ c))
theorem W9_main_v4_0 (c : Dev nD) : W9 m ρ c (Proc.devRef .tc main_v4_0) = W2 m ρ c (Proc.devRef .tc main_v4_0) :=
  (W9_of_ne m ρ c main_v4_0 (by decide)).trans ((W8_pass_main_v4_0 m ρ c).trans (W4_main_v4_0 m ρ c))
theorem W9_main_v4_1 (c : Dev nD) : W9 m ρ c (Proc.devRef .tc main_v4_1) = W2 m ρ c (Proc.devRef .tc main_v4_1) :=
  (W9_of_ne m ρ c main_v4_1 (by decide)).trans ((W8_pass_main_v4_1 m ρ c).trans (W4_main_v4_1 m ρ c))
set_option maxHeartbeats 16000000 in
/-- The embedding: the text embedding beside the pooled second graph layer. -/
theorem W12_main_v112 (c : Dev nD) : W12 m ρ c (Proc.devRef .tc main_v112) = zcat (W9 m ρ c (Proc.devRef .tc main_v4_0)) (pool (gcn4 (W9 m ρ c (Proc.devRef .tc main_v55)) (W9 m ρ c (Proc.devRef .tc main_v6)) (W9 m ρ c (Proc.devRef .tc main_v8)) (W9 m ρ c (Proc.devRef .tc main_arg15))) (W9 m ρ c (Proc.devRef .tc main_arg3))) := by
  show StableHlo.after hostOps3_2 (StableHlo.after hostOps3_1 (StableHlo.after hostOps3 (W9 m ρ c))) (Proc.devRef .tc main_v112) = _
  host_walk
  all_goals rfl
set_option maxHeartbeats 16000000 in
/-- The logits: the classifier on the embedding. -/
theorem W12_main_v116 (c : Dev nD) : W12 m ρ c (Proc.devRef .tc main_v116) = logits (zcat (W9 m ρ c (Proc.devRef .tc main_v4_0)) (pool (gcn4 (W9 m ρ c (Proc.devRef .tc main_v55)) (W9 m ρ c (Proc.devRef .tc main_v6)) (W9 m ρ c (Proc.devRef .tc main_v8)) (W9 m ρ c (Proc.devRef .tc main_arg15))) (W9 m ρ c (Proc.devRef .tc main_arg3)))) (W9 m ρ c (Proc.devRef .tc main_arg16)) (W9 m ρ c (Proc.devRef .tc main_arg17)) := by
  show StableHlo.after hostOps3_2 (StableHlo.after hostOps3_1 (StableHlo.after hostOps3 (W9 m ρ c))) (Proc.devRef .tc main_v116) = _
  host_walk
  all_goals rfl
/-- The reconstruction is not touched after region 0. -/
theorem W12_main_v4_1 (c : Dev nD) : W12 m ρ c (Proc.devRef .tc main_v4_1) = W2 m ρ c (Proc.devRef .tc main_v4_1) := by
  refine Eq.trans ?_ (W9_main_v4_1 m ρ c)
  show StableHlo.after hostOps3_2 (StableHlo.after hostOps3_1 (StableHlo.after hostOps3 (W9 m ρ c))) (Proc.devRef .tc main_v4_1) = _
  host_walk
  all_goals rfl

end Cert.KernelIdeal.HostSteps

end
-- ==== Proof.AEBlocks.lean ====
/-
  The blocks of the autoencoder region, read as rows of the arrays.

  The region's grid has 16 points. At point t the feature window's block is rows 256·t … 256·t + 255 of the feature
  array (all 5000 columns), each weight or bias window's block is the whole of its array, and the two output windows'
  blocks are rows 256·t … 256·t + 255 of the embedding array and of the reconstruction array. Every row r of an output
  array lies in the block of point r / 256, so the sixteen blocks cover the array.
-/
import proofs.«170223_j25598005084994_2_alg».proof.Proof.Gen.KernelIdeal.Frame
import Idealize.ShloMosaic.Lib.Pipeline.Value

noncomputable section

open Idealize.ShloMosaic Idealize.ShloMosaic.TcCoe Idealize.SL.Sem
open Idealize.ShloMosaic.Pipeline (Dat)

namespace Cert.KernelIdeal.AEBlocks

open Cert.KernelIdeal Cert.KernelIdeal.Gen

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The printed index maps over the grid: the feature window and the two output windows are at block (t, 0), every
    weight and bias window at block (0, 0). -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-- The feature window's block at point t is rows 256·t … of the feature array. -/
theorem iblk_x_apply (c : Dev nD) (t : Fin cfg0.N) (x : S256x5000.Idx) (k : S4096x5000.Idx)
    (hk0 : (k 0).val = 256 * t.val + (x 0).val) (hk1 : (k 1).val = (x 1).val) :
    (iblk0 V c 0 t : Vec F S256x5000 .f32) x = (V c main_arg0 : S4096x5000.Idx → Elt F .f32) k := by
  obtain ⟨⟨e0, e1⟩, -⟩ := idx_facts t
  unfold iblk0
  rw [View.read_apply]
  show V c main_arg0 _ = V c main_arg0 _
  congr 1
  funext a
  apply Fin.ext
  match a with
  | ⟨0, _⟩ => show win0_0.index t 0 * 256 + 1 * (x 0).val = (k 0).val; rw [e0, hk0]; omega
  | ⟨1, _⟩ => show win0_0.index t 1 * 5000 + 1 * (x 1).val = (k 1).val; rw [e1, hk1]; omega

/-! ## The weight and bias windows: each block is the whole array -/

theorem iblk_1 (c : Dev nD) (t : Fin cfg0.N) :
    (iblk0 V c 1 t : Vec F S5000x8 .f32) = (V c main_arg4 : S5000x8.Idx → Elt F .f32) := by
  obtain ⟨-, ⟨e0, e1⟩, -, -, -, -, -, -, -, -, -⟩ := idx_facts t
  unfold iblk0
  funext x
  rw [View.read_apply]
  show V c main_arg4 _ = V c main_arg4 _
  congr 1
  funext a
  apply Fin.ext
  match a with
  | ⟨0, _⟩ => show win0_1.index t 0 * 5000 + 1 * (x 0).val = (x 0).val; rw [e0]; omega
  | ⟨1, _⟩ => show win0_1.index t 1 * 8 + 1 * (x 1).val = (x 1).val; rw [e1]; omega

theorem iblk_2 (c : Dev nD) (t : Fin cfg0.N) :
    (iblk0 V c 2 t : Vec F S1x8 .f32) = (V c main_v0 : S1x8.Idx → Elt F .f32) := by
  obtain ⟨-, -, ⟨e0, e1⟩, -, -, -, -, -, -, -, -⟩ := idx_facts t
  unfold iblk0
  funext x
  rw [View.read_apply]
  show V c main_v0 _ = V c main_v0 _
  congr 1
  funext a
  apply Fin.ext
  match a with
  | ⟨0, _⟩ => show win0_2.index t 0 * 1 + 1 * (x 0).val = (x 0).val; rw [e0]; omega
  | ⟨1, _⟩ => show win0_2.index t 1 * 8 + 1 * (x 1).val = (x 1).val; rw [e1]; omega

theorem iblk_3 (c : Dev nD) (t : Fin cfg0.N) :
    (iblk0 V c 3 t : Vec F S8x4 .f32) = (V c main_arg6 : S8x4.Idx → Elt F .f32) := by
  obtain ⟨-, -, -, ⟨e0, e1⟩, -, -, -, -, -, -, -⟩ := idx_facts t
  unfold iblk0
  funext x
  rw [View.read_apply]
  show V c main_arg6 _ = V c main_arg6 _
  congr 1
  funext a
  apply Fin.ext
  match a with
  | ⟨0, _⟩ => show win0_3.index t 0 * 8 + 1 * (x 0).val = (x 0).val; rw [e0]; omega
  | ⟨1, _⟩ => show win0_3.index t 1 * 4 + 1 * (x 1).val = (x 1).val; rw [e1]; omega

theorem iblk_4 (c : Dev nD) (t : Fin cfg0.N) :
    (iblk0 V c 4 t : Vec F S1x4 .f32) = (V c main_v1 : S1x4.Idx → Elt F .f32) := by
  obtain ⟨-, -, -, -, ⟨e0, e1⟩, -, -, -, -, -, -⟩ := idx_facts t
  unfold iblk0
  funext x
  rw [View.read_apply]
  show V c main_v1 _ = V c main_v1 _
  congr 1
  funext a
  apply Fin.ext
  match a with
  | ⟨0, _⟩ => show win0_4.index t 0 * 1 + 1 * (x 0).val = (x 0).val; rw [e0]; omega
  | ⟨1, _⟩ => show win0_4.index t 1 * 4 + 1 * (x 1).val = (x 1).val; rw [e1]; omega

theorem iblk_5 (c : Dev nD) (t : Fin cfg0.N) :
    (iblk0 V c 5 t : Vec F S4x8 .f32) = (V c main_arg8 : S4x8.Idx → Elt F .f32) := by
  obtain ⟨-, -, -, -, -, ⟨e0, e1⟩, -, -, -, -, -⟩ := idx_facts t
  unfold iblk0
  funext x
  rw [View.read_apply]
  show V c main_arg8 _ = V c main_arg8 _
  congr 1
  funext a
  apply Fin.ext
  match a with
  | ⟨0, _⟩ => show win0_5.index t 0 * 4 + 1 * (x 0).val = (x 0).val; rw [e0]; omega
  | ⟨1, _⟩ => show win0_5.index t 1 * 8 + 1 * (x 1).val = (x 1).val; rw [e1]; omega

theorem iblk_6 (c : Dev nD) (t : Fin cfg0.N) :
    (iblk0 V c 6 t : Vec F S1x8 .f32) = (V c main_v2 : S1x8.Idx → Elt F .f32) := by
  obtain ⟨-, -, -, -, -, -, ⟨e0, e1⟩, -, -, -, -⟩ := idx_facts t
  unfold iblk0
  funext x
  rw [View.read_apply]
  show V c main_v2 _ = V c main_v2 _
  congr 1
  funext a
  apply Fin.ext
  match a with
  | ⟨0, _⟩ => show win0_6.index t 0 * 1 + 1 * (x 0).val = (x 0).val; rw [e0]; omega
  | ⟨1, _⟩ => show win0_6.index t 1 * 8 + 1 * (x 1).val = (x 1).val; rw [e1]; omega

theorem iblk_7 (c : Dev nD) (t : Fin cfg0.N) :
    (iblk0 V c 7 t : Vec F S8x5000 .f32) = (V c main_arg10 : S8x5000.Idx → Elt F .f32) := by
  obtain ⟨-, -, -, -, -, -, -, ⟨e0, e1⟩, -, -, -⟩ := idx_facts t
  unfold iblk0
  funext x
  rw [View.read_apply]
  show V c main_arg10 _ = V c main_arg10 _
  congr 1
  funext a
  apply Fin.ext
  match a with
  | ⟨0, _⟩ => show win0_7.index t 0 * 8 + 1 * (x 0).val = (x 0).val; rw [e0]; omega
  | ⟨1, _⟩ => show win0_7.index t 1 * 5000 + 1 * (x 1).val = (x 1).val; rw [e1]; omega

theorem iblk_8 (c : Dev nD) (t : Fin cfg0.N) :
    (iblk0 V c 8 t : Vec F S1x5000 .f32) = (V c main_v3 : S1x5000.Idx → Elt F .f32) := by
  obtain ⟨-, -, -, -, -, -, -, -, ⟨e0, e1⟩, -, -⟩ := idx_facts t
  unfold iblk0
  funext x
  rw [View.read_apply]
  show V c main_v3 _ = V c main_v3 _
  congr 1
  funext a
  apply Fin.ext
  match a with
  | ⟨0, _⟩ => show win0_8.index t 0 * 1 + 1 * (x 0).val = (x 0).val; rw [e0]; omega
  | ⟨1, _⟩ => show win0_8.index t 1 * 5000 + 1 * (x 1).val = (x 1).val; rw [e1]; omega

/-! ## The output windows: block t is rows 256·t … 256·t + 255, and the blocks cover the array -/

/-- Entry j of window 9's block at point t sits at row 256·t + j₀, column j₁ of its array. -/
theorem emb_9 (t : Fin cfg0.N) (j : S256x4.Idx) (k : S4096x4.Idx)
    (hk0 : (k 0).val = 256 * t.val + (j 0).val) (hk1 : (k 1).val = (j 1).val) :
    ((cfg0.win 9).blk t).view.emb j = k := by
  obtain ⟨-, -, -, -, -, -, -, -, -, ⟨e0, e1⟩, -⟩ := idx_facts t
  funext a
  apply Fin.ext
  match a with
  | ⟨0, _⟩ => show win0_9.index t 0 * 256 + 1 * (j 0).val = (k 0).val; rw [e0, hk0]; omega
  | ⟨1, _⟩ => show win0_9.index t 1 * 4 + 1 * (j 1).val = (k 1).val; rw [e1, hk1]; omega

/-- An index of the array is in point t's block iff each coordinate is in the block's range on its axis. -/
theorem mem_blk_9 (t : Fin cfg0.N) (i : S4096x4.Idx) :
    i ∈ ((cfg0.win 9).blk t).view.set ↔ ∀ a : Fin 2, win0_9.index t a * S256x4.size a ≤ (i a).val ∧ (i a).val < win0_9.index t a * S256x4.size a + S256x4.size a := by
  show i ∈ ((View.whole main_v4_0).slice (win0_9.rect t)).set ↔ _
  rw [View.set_slice_whole, Rect.mem_set_unit]
  exact Iff.rfl

/-- Row r of the array is in the block of point r / 256. -/
theorem cover_9 (i : S4096x4.Idx) :
    ∃ t : Fin cfg0.N, (cfg0.win 9).flush t = true ∧ i ∈ ((cfg0.win 9).blk t).view.set := by
  have hi0 : (i 0).val < 4096 := (i 0).isLt
  have hi1 : (i 1).val < 4 := (i 1).isLt
  have hN : cfg0.N = 16 := N_0
  have ht : (i 0).val / 256 < cfg0.N := by rw [hN]; omega
  obtain ⟨-, -, -, -, -, -, -, -, -, ⟨e0, e1⟩, -⟩ := idx_facts ⟨(i 0).val / 256, ht⟩
  refine ⟨⟨(i 0).val / 256, ht⟩, flush0_9 _, ?_⟩
  rw [mem_blk_9]
  intro a
  match a with
  | ⟨0, _⟩ =>
    show win0_9.index ⟨(i 0).val / 256, ht⟩ 0 * 256 ≤ (i 0).val ∧ (i 0).val < win0_9.index ⟨(i 0).val / 256, ht⟩ 0 * 256 + 256
    rw [e0]
    show (i 0).val / 256 * 256 ≤ (i 0).val ∧ (i 0).val < (i 0).val / 256 * 256 + 256
    omega
  | ⟨1, _⟩ =>
    show win0_9.index ⟨(i 0).val / 256, ht⟩ 1 * 4 ≤ (i 1).val ∧ (i 1).val < win0_9.index ⟨(i 0).val / 256, ht⟩ 1 * 4 + 4
    rw [e1]
    omega

/-- Entry j of window 10's block at point t sits at row 256·t + j₀, column j₁ of its array. -/
theorem emb_10 (t : Fin cfg0.N) (j : S256x5000.Idx) (k : S4096x5000.Idx)
    (hk0 : (k 0).val = 256 * t.val + (j 0).val) (hk1 : (k 1).val = (j 1).val) :
    ((cfg0.win 10).blk t).view.emb j = k := by
  obtain ⟨-, -, -, -, -, -, -, -, -, -, ⟨e0, e1⟩⟩ := idx_facts t
  funext a
  apply Fin.ext
  match a with
  | ⟨0, _⟩ => show win0_10.index t 0 * 256 + 1 * (j 0).val = (k 0).val; rw [e0, hk0]; omega
  | ⟨1, _⟩ => show win0_10.index t 1 * 5000 + 1 * (j 1).val = (k 1).val; rw [e1, hk1]; omega

/-- An index of the array is in point t's block iff each coordinate is in the block's range on its axis. -/
theorem mem_blk_10 (t : Fin cfg0.N) (i : S4096x5000.Idx) :
    i ∈ ((cfg0.win 10).blk t).view.set ↔ ∀ a : Fin 2, win0_10.index t a * S256x5000.size a ≤ (i a).val ∧ (i a).val < win0_10.index t a * S256x5000.size a + S256x5000.size a := by
  show i ∈ ((View.whole main_v4_1).slice (win0_10.rect t)).set ↔ _
  rw [View.set_slice_whole, Rect.mem_set_unit]
  exact Iff.rfl

/-- Row r of the array is in the block of point r / 256. -/
theorem cover_10 (i : S4096x5000.Idx) :
    ∃ t : Fin cfg0.N, (cfg0.win 10).flush t = true ∧ i ∈ ((cfg0.win 10).blk t).view.set := by
  have hi0 : (i 0).val < 4096 := (i 0).isLt
  have hi1 : (i 1).val < 5000 := (i 1).isLt
  have hN : cfg0.N = 16 := N_0
  have ht : (i 0).val / 256 < cfg0.N := by rw [hN]; omega
  obtain ⟨-, -, -, -, -, -, -, -, -, -, ⟨e0, e1⟩⟩ := idx_facts ⟨(i 0).val / 256, ht⟩
  refine ⟨⟨(i 0).val / 256, ht⟩, flush0_10 _, ?_⟩
  rw [mem_blk_10]
  intro a
  match a with
  | ⟨0, _⟩ =>
    show win0_10.index ⟨(i 0).val / 256, ht⟩ 0 * 256 ≤ (i 0).val ∧ (i 0).val < win0_10.index ⟨(i 0).val / 256, ht⟩ 0 * 256 + 256
    rw [e0]
    show (i 0).val / 256 * 256 ≤ (i 0).val ∧ (i 0).val < (i 0).val / 256 * 256 + 256
    omega
  | ⟨1, _⟩ =>
    show win0_10.index ⟨(i 0).val / 256, ht⟩ 1 * 5000 ≤ (i 1).val ∧ (i 1).val < win0_10.index ⟨(i 0).val / 256, ht⟩ 1 * 5000 + 5000
    rw [e1]
    omega

end Cert.KernelIdeal.AEBlocks

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibDenseRows.lean ====
/-
  A dense layer x ↦ x·W + b and a ReLU, read row by row on the extended reals, for any extents.

  A matrix [M, N] is taken apart into its rows (`rows v r : Fin N → EReal`). On rows,
  `matvec W x` is the row vector x·W (entry e is ∑ k, x k · W k e), `dense W b x` adds the bias b to it, and
  `relu x` is the entrywise maximum with 0. The lemmas below read the vector operations a kernel body spells such a layer
  with, row by row: a plain [M, K] × [K, N] matrix product into the zero accumulator is `matvec` of each row of the
  left operand; adding a [1, N] row broadcast over the M rows adds that one row to every row; the maximum with the splat
  of the zero word is `relu` of every row; a change of float format is the identity. No finiteness is used anywhere:
  every statement is an equation between the same sums and maxima of extended reals, term by term.
-/
import Idealize.ShloMosaic.Lib.ValueIdx
import Idealize.ShloMosaic.Lib.ValueLayout
import Idealize.ShloMosaic.PureOps.Ideal.Laws
import proofs.«170223_j25598005084994_2_alg».proof.Proof.LibPlainMatmul

noncomputable section

namespace Cert.LibDenseRows

open Idealize.ShloMosaic Idealize.ShloMosaic.ValueIdx

/-! ## Rows, and the layer on a row -/

/-- Row `r` of an [M, N] matrix, as a function of the column. -/
def rows {M N : ℕ} (v : (⟨2, ![M, N]⟩ : Shape).Idx → EReal) (r : Fin M) : Fin N → EReal := fun e => v (ix2 r e)

theorem rows_apply {M N : ℕ} (v : (⟨2, ![M, N]⟩ : Shape).Idx → EReal) (r : Fin M) (e : Fin N) :
    rows v r e = v (ix2 r e) := rfl

/-- A rank-1 array [N] as a function of its one coordinate. -/
def vec {N : ℕ} (b : (⟨1, ![N]⟩ : Shape).Idx → EReal) : Fin N → EReal := fun e => b (ix1 e)

/-- The row vector x·W: entry `e` is ∑ k, x k · W k e. -/
def matvec {K N : ℕ} (W : Fin K → Fin N → EReal) (x : Fin K → EReal) : Fin N → EReal := fun e => ∑ k : Fin K, x k * W k e

/-- A dense layer on a row: x·W + b. -/
def dense {K N : ℕ} (W : Fin K → Fin N → EReal) (b : Fin N → EReal) (x : Fin K → EReal) : Fin N → EReal :=
  fun e => matvec W x e + b e

/-- ReLU on a row: the entrywise maximum with 0. -/
def relu {N : ℕ} (x : Fin N → EReal) : Fin N → EReal := fun e => max (x e) 0

/-! ## A kernel body's vector operations, row by row -/

/-- A plain [M, K] × [K, N] product into the zero accumulator: row `r` of the product is row `r` of the left operand
    times the right operand. -/
theorem rows_matmul_zero {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (matmul d prec x w (constant (F := Ideal) ⟨2, ![M, N]⟩ .f32 0x00000000#32)) r = matvec (rows w) (rows x r) :=
  funext fun e => matmul_plain_zero_apply d hd prec x w r e

/-- Adding a [1, N] row broadcast over the M rows adds that row to every row. -/
theorem rows_add_broadcast_row {M N : ℕ} {φ : FTy} (u : FVec Ideal ⟨2, ![M, N]⟩ φ) (b : FVec Ideal ⟨2, ![1, N]⟩ φ)
    (h : (⟨2, ![1, N]⟩ : Shape).Broadcasts ⟨2, ![M, N]⟩) (r : Fin M) :
    rows (addf u (broadcastTo ⟨2, ![M, N]⟩ b h)) r = fun e => rows u r e + rows b 0 e :=
  funext fun e => by
    show u (ix2 r e) + broadcastTo ⟨2, ![M, N]⟩ b h (ix2 r e) = u (ix2 r e) + b (ix2 (0 : Fin 1) e)
    rw [broadcastTo_1b_ab_apply]

/-- The maximum with the splat of the zero word is ReLU of every row. -/
theorem rows_max_zero {M N : ℕ} (v : FVec Ideal ⟨2, ![M, N]⟩ .f32) (r : Fin M) :
    rows (maximumf v (broadcast ⟨2, ![M, N]⟩ (Scalar.ofBits (F := Ideal) .f32 0x00000000#32))) r = relu (rows v r) :=
  funext fun e => by
    show max (v (ix2 r e)) (Ideal.ofBits .f32 0x00000000#32) = max (v (ix2 r e)) 0
    rw [Ideal.ofBits_zero_f32]

/-- A narrowing of the float format is the identity on the extended reals. -/
theorem truncf_eq {s : Shape} {φ ψ : FTy} (a : FVec Ideal s φ) (h : ψ.bits < φ.bits) : (truncf ψ a h : FVec Ideal s ψ) = a := rfl

/-- The kernel's whole layer: a plain product into the zero accumulator plus a broadcast bias row is `dense` of every
    row. -/
theorem rows_matmul_bias {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨2, ![1, N]⟩ .f32)
    (h : (⟨2, ![1, N]⟩ : Shape).Broadcasts ⟨2, ![M, N]⟩) (r : Fin M) :
    rows (addf (matmul d prec x w (constant (F := Ideal) ⟨2, ![M, N]⟩ .f32 0x00000000#32)) (broadcastTo ⟨2, ![M, N]⟩ b h)) r
      = dense (rows w) (rows b 0) (rows x r) :=
  (rows_add_broadcast_row _ b h r).trans (funext fun e => by
    show rows (matmul d prec x w (constant (F := Ideal) ⟨2, ![M, N]⟩ .f32 0x00000000#32)) r e + rows b 0 e = matvec (rows w) (rows x r) e + rows b 0 e
    rw [rows_matmul_zero d hd prec x w r])

end Cert.LibDenseRows

end
-- ==== Proof.AERowSpec.lean ====
/-
  The dense autoencoder, one row at a time, on the extended reals.

  A row x of the text features goes through two dense layers with a ReLU after each (the encoder, giving the row's
  embedding), and the embedding through a dense layer with a ReLU and a dense layer with a logistic (the decoder,
  giving the row's reconstruction). Both programs compute exactly these functions of the row and of the weight
  arrays; they differ only in how many rows they treat at once.
-/
import Idealize.ShloMosaic.PureOps.Ideal
import proofs.«170223_j25598005084994_2_alg».proof.Proof.LibDenseRows

noncomputable section

namespace Cert.AERowSpec

open Idealize.ShloMosaic Cert.LibDenseRows

/-- The logistic function 1 / (1 + e^(-x)) on every entry of a row. -/
def sigm {N : ℕ} (x : Fin N → EReal) : Fin N → EReal := fun e => Ideal.logistic (x e)

/-- The encoder on a row: relu (relu (x·W1 + b1)·W2 + b2). -/
def encRow {K H Z : ℕ} (W1 : Fin K → Fin H → EReal) (b1 : Fin H → EReal) (W2 : Fin H → Fin Z → EReal) (b2 : Fin Z → EReal)
    (x : Fin K → EReal) : Fin Z → EReal :=
  relu (dense W2 b2 (relu (dense W1 b1 x)))

/-- The decoder on a row: logistic (relu (z·W3 + b3)·W4 + b4). -/
def decRow {Z H K : ℕ} (W3 : Fin Z → Fin H → EReal) (b3 : Fin H → EReal) (W4 : Fin H → Fin K → EReal) (b4 : Fin K → EReal)
    (z : Fin Z → EReal) : Fin K → EReal :=
  sigm (dense W4 b4 (relu (dense W3 b3 z)))

end Cert.AERowSpec

end
-- ==== Proof.AEKernelRows.lean ====
/-
  The kernel body of the autoencoder region, row by row.

  The body's two stored values are functions of the nine blocks it loads. Row p of the stored embedding block is the
  encoder applied to row p of the feature block, and row p of the stored reconstruction block is the decoder applied to
  that embedding row: each matrix product is into the zero matrix, each bias is a one-row matrix spread over the rows,
  each ReLU a maximum with the zero word, and the changes of float format are the identity on the extended reals.
-/
import proofs.«170223_j25598005084994_2_alg».proof.Proof.Gen.KernelIdeal.Skeleton
import proofs.«170223_j25598005084994_2_alg».proof.Proof.AERowSpec
import Idealize.ShloMosaic.Lib.Pipeline.Value

noncomputable section

namespace Cert.KernelIdeal.AEKernelRows

open Idealize.ShloMosaic Idealize.ShloMosaic.ValueIdx Cert.KernelIdeal Cert.KernelIdeal.Gen Cert.LibDenseRows Cert.AERowSpec

/-- One layer of the body: product into zero, plus the bias row recast to its own shape and spread over the rows,
    then the maximum with zero. -/
theorem rows_layer {M K N : ℕ} {φ₁ φ₂ : FTy} (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂)
    (b : FVec Ideal ⟨2, ![1, N]⟩ .f32) (h1 : (⟨2, ![1, N]⟩ : Shape).ShapeCasts ⟨2, ![1, N]⟩)
    (h2 : (⟨2, ![1, N]⟩ : Shape).Broadcasts ⟨2, ![M, N]⟩) (r : Fin M) :
    rows (maximumf (addf (matmul d none x w (constant (F := Ideal) ⟨2, ![M, N]⟩ .f32 0x00000000#32))
        (broadcastTo ⟨2, ![M, N]⟩ (shapeCast ⟨2, ![1, N]⟩ b h1) h2))
        (broadcast ⟨2, ![M, N]⟩ (Scalar.ofBits (F := Ideal) .f32 0x00000000#32))) r
      = relu (dense (rows w) (rows b 0) (rows x r)) := by
  rw [rows_max_zero, shapeCast_self b h1, rows_matmul_bias d hd none x w b h2 r]

/-- Row p of the embedding block the body stores is the encoder of row p of the feature block. -/
theorem rows_pay2 (x0 : Vec Ideal S256x5000 .f32) (x1 : Vec Ideal S5000x8 .f32) (x2 : Vec Ideal S1x8 .f32)
    (x3 : Vec Ideal S8x4 .f32) (x4 : Vec Ideal S1x4 .f32) (p : Fin 256) :
    rows (k0_pay2 x0 x1 x2 x3 x4) p = encRow (rows x1) (rows x2 0) (rows x3) (rows x4 0) (rows x0 p) := by
  unfold k0_pay2 encRow
  refine (rows_layer dot_S256x8_S8x4_S256x4_1_0_0_1_n_n rfl _ _ x4 _ _ p).trans ?_
  refine congrArg (fun u => relu (dense (rows x3) (rows x4 0) u)) ?_
  exact rows_layer dot_S256x5000_S5000x8_S256x8_1_0_0_1_n_n rfl _ _ x2 _ _ p

/-- The last layer of the body: product into zero, plus the bias row recast to its own shape and spread over the rows,
    then the logistic. -/
theorem rows_logistic_layer {M K N : ℕ} {φ₁ φ₂ : FTy} (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂)
    (b : FVec Ideal ⟨2, ![1, N]⟩ .f32) (h1 : (⟨2, ![1, N]⟩ : Shape).ShapeCasts ⟨2, ![1, N]⟩)
    (h2 : (⟨2, ![1, N]⟩ : Shape).Broadcasts ⟨2, ![M, N]⟩) (r : Fin M) :
    rows (logistic (addf (matmul d none x w (constant (F := Ideal) ⟨2, ![M, N]⟩ .f32 0x00000000#32))
        (broadcastTo ⟨2, ![M, N]⟩ (shapeCast ⟨2, ![1, N]⟩ b h1) h2))) r
      = sigm (dense (rows w) (rows b 0) (rows x r)) := by
  rw [shapeCast_self b h1]
  exact congrArg sigm (rows_matmul_bias d hd none x w b h2 r)

/-- Row p of the hidden decoder block is the decoder's first layer of row p of the embedding block. -/
theorem rows_pay3 (x0 : Vec Ideal S256x5000 .f32) (x1 : Vec Ideal S5000x8 .f32) (x2 : Vec Ideal S1x8 .f32)
    (x3 : Vec Ideal S8x4 .f32) (x4 : Vec Ideal S1x4 .f32) (x5 : Vec Ideal S4x8 .f32) (x6 : Vec Ideal S1x8 .f32) (p : Fin 256) :
    rows (k0_pay3 x0 x1 x2 x3 x4 x5 x6) p = relu (dense (rows x5) (rows x6 0) (rows (k0_pay2 x0 x1 x2 x3 x4) p)) := by
  unfold k0_pay3
  exact rows_layer dot_S256x4_S4x8_S256x8_1_0_0_1_n_n rfl _ _ x6 _ _ p

/-- Row p of the reconstruction block is the decoder's last layer of row p of the hidden block. -/
theorem rows_pay1 (v31 : FVec Ideal S256x8 .f32) (v33 : FVec Ideal S8x5000 .bf16) (v36 : Vec Ideal S1x5000 .f32) (p : Fin 256) :
    rows (k0_pay1 v31 v33 v36) p = sigm (dense (rows v33) (rows v36 0) (rows v31 p)) := by
  unfold k0_pay1
  exact rows_logistic_layer dot_S256x8_S8x5000_S256x5000_1_0_0_1_n_n rfl _ v33 v36 _ _ p

/-- Row p of the reconstruction block the body stores is the decoder of the encoder of row p of the feature block. -/
theorem rows_out (x0 : Vec Ideal S256x5000 .f32) (x1 : Vec Ideal S5000x8 .f32) (x2 : Vec Ideal S1x8 .f32)
    (x3 : Vec Ideal S8x4 .f32) (x4 : Vec Ideal S1x4 .f32) (x5 : Vec Ideal S4x8 .f32) (x6 : Vec Ideal S1x8 .f32)
    (x7 : Vec Ideal S8x5000 .f32) (x8 : Vec Ideal S1x5000 .f32) (p : Fin 256) :
    rows (k0_pay1 (k0_pay3 x0 x1 x2 x3 x4 x5 x6) (k0_pay4 x7) x8) p
      = decRow (rows x5) (rows x6 0) (rows x7) (rows x8 0) (encRow (rows x1) (rows x2 0) (rows x3) (rows x4 0) (rows x0 p)) := by
  rw [rows_pay1, rows_pay3, rows_pay2]
  rfl

end Cert.KernelIdeal.AEKernelRows

end
-- ==== Proof.LibHostDenseRows.lean ====
/-
  A dense layer x ↦ x·W + b and a ReLU as a host program spells them, read row by row on the extended reals, for any
  extents.

  On the host the layer is a `dot_general` of an [M, K] matrix with a [K, N] matrix contracted row by column, plus a
  bias vector [N] broadcast first to one row [1, N] and then over the M rows; the ReLU is the entrywise maximum with
  the zero constant broadcast to the whole matrix. On the extended reals the product's entry (r, e) is
  ∑ k < K, x[r, k] · W[k, e] with nothing else added, so row r of the layer is `dense W b` of row r of x, and the
  maximum is `relu` of every row: the same sums and maxima, term by term, with no finiteness used. The last lemma
  reads a vector [N] recast as the one row of a [1, N] matrix, which is how a kernel body spells the same bias.
-/
import Idealize.ShloMosaic.Lib.ValueIdx
import Idealize.ShloMosaic.Lib.ValueLayout
import Idealize.ShloMosaic.Lib.Pipeline.Value
import Idealize.ShloMosaic.PureOps.Ideal.Laws
import proofs.«170223_j25598005084994_2_alg».proof.Proof.LibDenseRows

noncomputable section

namespace Cert.LibHostDenseRows

open Idealize.ShloMosaic Idealize.ShloMosaic.ValueIdx Cert.LibDenseRows

/-- Entry (r, e) of a plain host product [M, K] × [K, N] is ∑ k, lhs[r, k] · rhs[k, e]. The dimension record may be
    any record equal to the plain one. -/
theorem hostDot_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    Host.dotGeneral (F := Ideal) d prec lhs rhs (ix2 r e) = ∑ k : Fin K, lhs (ix2 r k) * rhs (ix2 k e) := by
  subst hd
  show FloatOps.dotGeneral (DotDims.plain M K N) prec .single lhs rhs (ix2 r e) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

/-- Row `r` of a plain host product is row `r` of the left operand times the right operand. -/
theorem rows_hostDot {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (Host.dotGeneral (F := Ideal) d prec x w) r = matvec (rows w) (rows x r) :=
  funext fun e => hostDot_plain_apply d hd prec x w r e

/-- A vector [N] broadcast to one row [1, N] and that row over M rows: every row is the vector. -/
theorem rows_broadcast_vec {M N : ℕ} (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (broadcastInDim ⟨2, ![M, N]⟩ ![0, 1] h2 (broadcastInDim ⟨2, ![1, N]⟩ ![1] h1 b)) r = vec b :=
  funext fun e => by
    show broadcastInDim ⟨2, ![M, N]⟩ ![0, 1] h2 (broadcastInDim ⟨2, ![1, N]⟩ ![1] h1 b) (ix2 r e) = b (ix1 e)
    rw [broadcastInDim_apply ![0, 1] h2 _ (ix2 r e) (ix2 (0 : Fin 1) e) (fun a => by
      match a with
      | ⟨0, _⟩ => show (0 : ℕ) = if (1 : ℕ) = 1 then 0 else r.val; rw [if_pos rfl]
      | ⟨1, _⟩ =>
        show e.val = if N = 1 then 0 else e.val
        split
        · have := e.isLt; omega
        · rfl)]
    exact broadcastInDim_apply ![1] h1 b (ix2 (0 : Fin 1) e) (ix1 e) (fun a => by
      match a with
      | ⟨0, _⟩ =>
        show e.val = if N = 1 then 0 else e.val
        split
        · have := e.isLt; omega
        · rfl)

/-- The host's whole layer: a plain product plus the bias vector broadcast over the rows is `dense` of every row. -/
theorem rows_hostDense {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (addf (Host.dotGeneral (F := Ideal) d prec x w)
        (broadcastInDim ⟨2, ![M, N]⟩ ![0, 1] h2 (broadcastInDim ⟨2, ![1, N]⟩ ![1] h1 b))) r
      = dense (rows w) (vec b) (rows x r) :=
  funext fun e => by
    show rows (Host.dotGeneral (F := Ideal) d prec x w) r e
        + rows (broadcastInDim ⟨2, ![M, N]⟩ ![0, 1] h2 (broadcastInDim ⟨2, ![1, N]⟩ ![1] h1 b)) r e
      = matvec (rows w) (rows x r) e + vec b e
    rw [rows_hostDot d hd prec x w r, rows_broadcast_vec b h1 h2 r]

/-- The maximum with the zero constant broadcast to the whole matrix is ReLU of every row. -/
theorem rows_max_zero_const {M N : ℕ} (v : FVec Ideal ⟨2, ![M, N]⟩ .f32)
    (h : (⟨0, ![]⟩ : Shape).BroadcastsInDim ⟨2, ![M, N]⟩ ![]) (r : Fin M) :
    rows (maximumf v (broadcastInDim ⟨2, ![M, N]⟩ ![] h (constant (F := Ideal) ⟨0, ![]⟩ .f32 0x00000000#32))) r
      = relu (rows v r) :=
  funext fun e => by
    show max (v (ix2 r e)) (broadcastInDim ⟨2, ![M, N]⟩ ![] h (constant (F := Ideal) ⟨0, ![]⟩ .f32 0x00000000#32) (ix2 r e))
      = max (v (ix2 r e)) 0
    have hz : broadcastInDim ⟨2, ![M, N]⟩ ![] h (constant (F := Ideal) ⟨0, ![]⟩ .f32 0x00000000#32) (ix2 r e)
        = Ideal.ofBits .f32 0x00000000#32 :=
      broadcastInDim_apply _ h _ (ix2 r e) (fun a => a.elim0) (fun a => a.elim0)
    rw [hz, Ideal.ofBits_zero_f32]

/-- A vector [N] recast as the one row of a [1, N] matrix: that row is the vector. -/
theorem rows_shapeCast_vec {N : ℕ} (b : (⟨1, ![N]⟩ : Shape).Idx → EReal)
    (h : (⟨1, ![N]⟩ : Shape).ShapeCasts ⟨2, ![1, N]⟩) :
    rows (shapeCast ⟨2, ![1, N]⟩ b h) (0 : Fin 1) = vec b :=
  funext fun e => shapeCast_a_1a_apply b h 0 e

end Cert.LibHostDenseRows

end
-- ==== Proof.AEHostRows.lean ====
/-
  The reference's encoder and decoder, row by row.

  The reference spells each dense layer as a plain matrix product of the whole [4096, K] matrix with the weights, plus
  the bias (a one-row matrix) spread over the 4096 rows, and each ReLU as the maximum with the zero constant spread over
  the matrix; the logistic is written out as 1 / (1 + exp (-u)). Row r of the encoder's result is therefore the encoder
  of row r of the features, and row r of the decoder's result the decoder of row r of the embedding.
-/
import proofs.«170223_j25598005084994_2_alg».proof.Proof.RefTerms
import proofs.«170223_j25598005084994_2_alg».proof.Proof.AERowSpec
import proofs.«170223_j25598005084994_2_alg».proof.Proof.LibHostDenseRows
import Idealize.ShloMosaic.PureOps.Ideal.Laws

noncomputable section

namespace Cert.RefTerms.AEHostRows

open Idealize.ShloMosaic Idealize.ShloMosaic.ValueIdx Cert.ReferenceIdeal Cert.RefTerms Cert.LibDenseRows
  Cert.LibHostDenseRows Cert.AERowSpec

/-- A one-row matrix spread over M rows: every row is that row. -/
theorem rows_broadcast_row {M N : ℕ} (b : (⟨2, ![1, N]⟩ : Shape).Idx → EReal)
    (h2 : (⟨2, ![1, N]⟩ : Shape).BroadcastsInDim ⟨2, ![M, N]⟩ ![0, 1]) (r : Fin M) :
    rows (broadcastInDim ⟨2, ![M, N]⟩ ![0, 1] h2 b) r = rows b 0 :=
  funext fun e => by
    show broadcastInDim ⟨2, ![M, N]⟩ ![0, 1] h2 b (ix2 r e) = b (ix2 (0 : Fin 1) e)
    exact broadcastInDim_apply ![0, 1] h2 _ (ix2 r e) (ix2 (0 : Fin 1) e) (fun a => by
      match a with
      | ⟨0, _⟩ => show (0 : ℕ) = if (1 : ℕ) = 1 then 0 else r.val; rw [if_pos rfl]
      | ⟨1, _⟩ =>
        show e.val = if N = 1 then 0 else e.val
        split
        · have := e.isLt; omega
        · rfl)

/-- One layer of the reference: plain product, plus the bias row spread over the rows, then the maximum with the zero
    constant. -/
theorem rows_layer {M K N : ℕ} {φ₁ φ₂ : FTy} (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂)
    (b : FVec Ideal ⟨2, ![1, N]⟩ .f32) (h2 : (⟨2, ![1, N]⟩ : Shape).BroadcastsInDim ⟨2, ![M, N]⟩ ![0, 1])
    (h0 : (⟨0, ![]⟩ : Shape).BroadcastsInDim ⟨2, ![M, N]⟩ ![]) (r : Fin M) :
    rows (maximumf (addf (Host.dotGeneral (F := Ideal) d none x w) (broadcastInDim ⟨2, ![M, N]⟩ ![0, 1] h2 b))
        (broadcastInDim ⟨2, ![M, N]⟩ ![] h0 (constant (F := Ideal) ⟨0, ![]⟩ .f32 0x00000000#32))) r
      = relu (dense (rows w) (rows b 0) (rows x r)) := by
  rw [rows_max_zero_const]
  refine congrArg relu (funext fun e => ?_)
  show rows (Host.dotGeneral (F := Ideal) d none x w) r e + rows (broadcastInDim ⟨2, ![M, N]⟩ ![0, 1] h2 b) r e
    = matvec (rows w) (rows x r) e + rows b 0 e
  rw [rows_hostDot d hd none x w r, rows_broadcast_row b h2 r]

/-- Row r of the reference's embedding is the encoder of row r of the features. -/
theorem rows_enc (x : Vec Ideal S4096x5000 .f32) (W1 : Vec Ideal S5000x8 .f32) (b1 : Vec Ideal S1x8 .f32)
    (W2 : Vec Ideal S8x4 .f32) (b2 : Vec Ideal S1x4 .f32) (r : Fin 4096) :
    rows (enc (F := Ideal) x W1 b1 W2 b2) r = encRow (rows W1) (rows b1 0) (rows W2) (rows b2 0) (rows x r) := by
  unfold enc encRow
  refine (rows_layer dot_S4096x8_S8x4_S4096x4_1_0_0_1_n_n rfl _ W2 b2 _ _ r).trans ?_
  refine congrArg (fun u => relu (dense (rows W2) (rows b2 0) u)) ?_
  exact rows_layer dot_S4096x5000_S5000x8_S4096x8_1_0_0_1_n_n rfl x W1 b1 _ _ r

/-- The constant 1 spread over a matrix reads 1 at every entry. -/
theorem one_apply {M N : ℕ} (h0 : (⟨0, ![]⟩ : Shape).BroadcastsInDim ⟨2, ![M, N]⟩ ![]) (j : (⟨2, ![M, N]⟩ : Shape).Idx) :
    broadcastInDim ⟨2, ![M, N]⟩ ![] h0 (constant (F := Ideal) ⟨0, ![]⟩ .f32 0x3F800000#32) j = Ideal.ofBits .f32 0x3F800000#32 :=
  broadcastInDim_apply _ h0 _ j (fun a => a.elim0) (fun a => a.elim0)

/-- The float word 0x3F800000 is the number 1. -/
theorem one_f32 : Ideal.ofBits .f32 0x3F800000#32 = 1 := by
  simp [Ideal.ofBits, Ideal.ieee, -EReal.coe_mul]
  norm_num

/-- The reference's 1 / (1 + exp (-u)) is the logistic function of u, entry by entry. -/
theorem logistic_spelt {s : Shape} (one u : FVec Ideal s .f32) (j : s.Idx) (h1 : one j = 1) :
    Host.divf (F := Ideal) one (addf one (Host.exp (F := Ideal) (Host.negf (F := Ideal) u))) j = Ideal.logistic (u j) := by
  show FloatOps.hostDivf (one j) (FloatOps.addf (one j) (FloatOps.hostUnary .exp (FloatOps.hostNegf (u j)))) = _
  rw [h1]
  rfl

/-- The reference's last layer: plain product, plus the bias row spread over the rows, then the logistic written
    out. -/
theorem rows_logistic_layer {M K N : ℕ} {φ₁ φ₂ : FTy} (d : DotDims ⟨2, ![M, K]⟩ ⟨2, ![K, N]⟩ ⟨2, ![M, N]⟩)
    (hd : d = DotDims.plain M K N) (x : FVec Ideal ⟨2, ![M, K]⟩ φ₁) (w : FVec Ideal ⟨2, ![K, N]⟩ φ₂)
    (b : FVec Ideal ⟨2, ![1, N]⟩ .f32) (h2 : (⟨2, ![1, N]⟩ : Shape).BroadcastsInDim ⟨2, ![M, N]⟩ ![0, 1])
    (h0 : (⟨0, ![]⟩ : Shape).BroadcastsInDim ⟨2, ![M, N]⟩ ![]) (r : Fin M) :
    rows (Host.divf (F := Ideal) (broadcastInDim ⟨2, ![M, N]⟩ ![] h0 (constant (F := Ideal) ⟨0, ![]⟩ .f32 0x3F800000#32))
        (addf (broadcastInDim ⟨2, ![M, N]⟩ ![] h0 (constant (F := Ideal) ⟨0, ![]⟩ .f32 0x3F800000#32))
          (Host.exp (F := Ideal) (Host.negf (F := Ideal)
            (addf (Host.dotGeneral (F := Ideal) d none x w) (broadcastInDim ⟨2, ![M, N]⟩ ![0, 1] h2 b)))))) r
      = sigm (dense (rows w) (rows b 0) (rows x r)) :=
  funext fun e => by
    refine (logistic_spelt _ _ (ix2 r e) ((one_apply h0 _).trans one_f32)).trans ?_
    refine congrArg Ideal.logistic ?_
    show rows (Host.dotGeneral (F := Ideal) d none x w) r e + rows (broadcastInDim ⟨2, ![M, N]⟩ ![0, 1] h2 b) r e
      = matvec (rows w) (rows x r) e + rows b 0 e
    rw [rows_hostDot d hd none x w r, rows_broadcast_row b h2 r]

/-- Row r of the reference's reconstruction is the decoder of row r of the embedding. -/
theorem rows_dec (z : Vec Ideal S4096x4 .f32) (W3 : Vec Ideal S4x8 .f32) (b3 : Vec Ideal S1x8 .f32)
    (W4 : Vec Ideal S8x5000 .f32) (b4 : Vec Ideal S1x5000 .f32) (r : Fin 4096) :
    rows (dec (F := Ideal) z W3 b3 W4 b4) r = decRow (rows W3) (rows b3 0) (rows W4) (rows b4 0) (rows z r) := by
  unfold dec decRow
  refine (rows_logistic_layer dot_S4096x8_S8x5000_S4096x5000_1_0_0_1_n_n rfl _ W4 b4 _ _ r).trans ?_
  refine congrArg (fun u => sigm (dense (rows W4) (rows b4 0) u)) ?_
  exact rows_layer dot_S4096x4_S4x8_S4096x8_1_0_0_1_n_n rfl z W3 b3 _ _ r

end Cert.RefTerms.AEHostRows

end
-- ==== Proof.AEValue.lean ====
/-
  The autoencoder region's two output arrays after the region.

  At grid point t the region's body turns rows 256·t … 256·t + 255 of the feature array into the same rows of the
  embedding array (the encoder, row by row) and of the reconstruction array (the decoder of those embedding rows, row by
  row), reading the weights and biases whole. The reference applies the same encoder and decoder to all 4096 rows at
  once. Row p of block t is row 256·t + p of the array, both sides are the same function of that row, and the sixteen
  blocks cover all rows: so after the region the two arrays hold the reference's encoder and decoder of the arrays the
  region found. No finiteness is needed: the two sides are the same sums, maxima and logistic, term by term.
-/
import proofs.«170223_j25598005084994_2_alg».proof.Proof.Gen.KernelIdeal.Frame
import proofs.«170223_j25598005084994_2_alg».proof.Proof.RefTerms
import Idealize.ShloMosaic.PureOps.Ideal
import Idealize.ShloMosaic.Lib.Pipeline.Value
import proofs.«170223_j25598005084994_2_alg».proof.Proof.AEBlocks
import proofs.«170223_j25598005084994_2_alg».proof.Proof.AEKernelRows
import proofs.«170223_j25598005084994_2_alg».proof.Proof.AEHostRows

noncomputable section

open Idealize.ShloMosaic Idealize.ShloMosaic.TcCoe Idealize.SL.Sem
open Idealize.ShloMosaic.Pipeline (Dat)

namespace Cert.KernelIdeal.AEValue

open Cert.KernelIdeal Cert.KernelIdeal.Gen Cert.RefTerms Cert.KernelIdeal.AEBlocks Cert.AERowSpec

variable (V : (c : Dev nD) → (b : Ref sig .tc) → Buf (Elt Ideal) ((c : Thread nD τ).loc b))

/-- What point t writes back into the embedding array is block t of the reference's encoder of the arrays. -/
theorem flushed_z (c : Dev nD) (t : Fin cfg0.N) :
    (dat0 (F := Ideal) V c).flushed 9 t = ((cfg0.win 9).blk t).view.read (Elt Ideal)
      (enc (F := Ideal) (V c main_arg0) (V c main_arg4) (V c main_v0) (V c main_arg6) (V c main_v1)) := by
  show (cfg0.win 9).cut (grid0.coords t) ((dat0 V c).after 9 t) = _
  rw [after0_9]
  unfold out0_9
  rw [View.canon_unit_zero hz]
  simp only [View.ld_unit_zero (S := S256x5000) hz, View.ld_unit_zero (S := S5000x8) hz, View.ld_unit_zero (S := S1x8) hz,
    View.ld_unit_zero (S := S8x4) hz, View.ld_unit_zero (S := S1x4) hz]
  rw [iblk_1 V c t, iblk_2 V c t, iblk_3 V c t, iblk_4 V c t]
  refine funext fun (j : S256x4.Idx) => ?_
  obtain ⟨p, q, rfl⟩ : ∃ (p : Fin 256) (q : Fin 4), j = ValueIdx.ix2 p q := ⟨j 0, j 1, ValueIdx.eq_ix2 j⟩
  have hN : cfg0.N = 16 := N_0
  have ht : t.val < 16 := lt_of_lt_of_eq t.isLt hN
  have hr : 256 * t.val + p.val < 4096 := by have := p.isLt; omega
  have hk : ((cfg0.win 9).blk t).view.emb (ValueIdx.ix2 p q) = (ValueIdx.ix2 (⟨256 * t.val + p.val, hr⟩ : Fin 4096) q : S4096x4.Idx) :=
    emb_9 t _ _ rfl rfl
  show k0_pay2 (F := Ideal) _ _ _ _ _ (ValueIdx.ix2 p q) = enc (F := Ideal) _ _ _ _ _ (((cfg0.win 9).blk t).view.emb (ValueIdx.ix2 p q))
  rw [hk]
  refine (congrFun (AEKernelRows.rows_pay2 (iblk0 V c 0 t) (V c main_arg4) (V c main_v0) (V c main_arg6) (V c main_v1) p) q).trans ?_
  refine ((congrFun (AEHostRows.rows_enc (V c main_arg0) (V c main_arg4) (V c main_v0) (V c main_arg6) (V c main_v1) ⟨_, hr⟩) q).trans ?_).symm
  refine congrFun (congrArg (encRow _ _ _ _) ?_) q
  funext e
  exact (iblk_x_apply V c t (ValueIdx.ix2 p e) (ValueIdx.ix2 ⟨_, hr⟩ e) rfl rfl).symm

/-- What point t writes back into the reconstruction array is block t of the reference's decoder of its encoder of the
    arrays. -/
theorem flushed_x (c : Dev nD) (t : Fin cfg0.N) :
    (dat0 (F := Ideal) V c).flushed 10 t = ((cfg0.win 10).blk t).view.read (Elt Ideal)
      (dec (F := Ideal) (enc (F := Ideal) (V c main_arg0) (V c main_arg4) (V c main_v0) (V c main_arg6) (V c main_v1))
        (V c main_arg8) (V c main_v2) (V c main_arg10) (V c main_v3)) := by
  show (cfg0.win 10).cut (grid0.coords t) ((dat0 V c).after 10 t) = _
  rw [after0_10]
  unfold out0_10
  rw [View.canon_unit_zero hz]
  simp only [View.ld_unit_zero (S := S256x5000) hz, View.ld_unit_zero (S := S5000x8) hz, View.ld_unit_zero (S := S1x8) hz,
    View.ld_unit_zero (S := S8x4) hz, View.ld_unit_zero (S := S1x4) hz, View.ld_unit_zero (S := S4x8) hz,
    View.ld_unit_zero (S := S8x5000) hz, View.ld_unit_zero (S := S1x5000) hz]
  rw [iblk_1 V c t, iblk_2 V c t, iblk_3 V c t, iblk_4 V c t, iblk_5 V c t, iblk_6 V c t, iblk_7 V c t, iblk_8 V c t]
  refine funext fun (j : S256x5000.Idx) => ?_
  obtain ⟨p, q, rfl⟩ : ∃ (p : Fin 256) (q : Fin 5000), j = ValueIdx.ix2 p q := ⟨j 0, j 1, ValueIdx.eq_ix2 j⟩
  have hN : cfg0.N = 16 := N_0
  have ht : t.val < 16 := lt_of_lt_of_eq t.isLt hN
  have hr : 256 * t.val + p.val < 4096 := by have := p.isLt; omega
  have hk : ((cfg0.win 10).blk t).view.emb (ValueIdx.ix2 p q) = (ValueIdx.ix2 (⟨256 * t.val + p.val, hr⟩ : Fin 4096) q : S4096x5000.Idx) :=
    emb_10 t _ _ rfl rfl
  show k0_pay1 (F := Ideal) (k0_pay3 (F := Ideal) _ _ _ _ _ _ _) (k0_pay4 (F := Ideal) _) _ (ValueIdx.ix2 p q)
    = dec (F := Ideal) _ _ _ _ _ (((cfg0.win 10).blk t).view.emb (ValueIdx.ix2 p q))
  rw [hk]
  refine (congrFun (AEKernelRows.rows_out (iblk0 V c 0 t) (V c main_arg4) (V c main_v0) (V c main_arg6) (V c main_v1)
    (V c main_arg8) (V c main_v2) (V c main_arg10) (V c main_v3) p) q).trans ?_
  refine ((congrFun (AEHostRows.rows_dec (enc (F := Ideal) (V c main_arg0) (V c main_arg4) (V c main_v0) (V c main_arg6) (V c main_v1))
    (V c main_arg8) (V c main_v2) (V c main_arg10) (V c main_v3) ⟨_, hr⟩) q).trans ?_).symm
  refine congrFun (congrArg (decRow _ _ _ _) ?_) q
  refine (AEHostRows.rows_enc (V c main_arg0) (V c main_arg4) (V c main_v0) (V c main_arg6) (V c main_v1) ⟨_, hr⟩).trans ?_
  refine congrArg (encRow _ _ _ _) ?_
  funext e
  exact (iblk_x_apply V c t (ValueIdx.ix2 p e) (ValueIdx.ix2 ⟨_, hr⟩ e) rfl rfl).symm

/-- After the region the embedding array holds the reference's encoder of the arrays the region found. -/
theorem final_z (c : Dev nD) :
    (dat0 (F := Ideal) V c).arrAt 9 cfg0.N
      = enc (F := Ideal) (V c main_arg0) (V c main_arg4) (V c main_v0) (V c main_arg6) (V c main_v1) :=
  (dat0 (F := Ideal) V c).arrAt_eq_of_cover 9 _ (fun t _ => flushed_z V c t) cover_9

/-- After the region the reconstruction array holds the reference's decoder of its encoder of the arrays the region
    found. -/
theorem final_x (c : Dev nD) :
    (dat0 (F := Ideal) V c).arrAt 10 cfg0.N
      = dec (F := Ideal) (enc (F := Ideal) (V c main_arg0) (V c main_arg4) (V c main_v0) (V c main_arg6) (V c main_v1))
          (V c main_arg8) (V c main_v2) (V c main_arg10) (V c main_v3) :=
  (dat0 (F := Ideal) V c).arrAt_eq_of_cover 10 _ (fun t _ => flushed_x V c t) cover_10

end Cert.KernelIdeal.AEValue

end
-- ==== Proof.Proj1Value.lean ====
/-
  The first dense projection of the graph layers: the [200000, 8] array the region leaves is the reference's
  product of the node features [200000, 128] with the weight matrix [128, 8].

  The region runs over 20 points; point t reads rows 10000·t … 10000·t + 9999 of the left operand and the whole
  weight matrix, and writes rows 10000·t … 10000·t + 9999 of the result. On the extended reals entry (p, q) of the
  block's product into the zero accumulator is ∑ k < 128, x[p, k] · W[k, q] (a change of float format is the identity),
  and block row p of point t is array row 10000·t + p, so the entry is ∑ k, X[10000·t + p, k] · W[k, q]: entry
  (10000·t + p, q) of the reference's product, the same sum term by term. Every row r lies in the block of point
  r / 10000, so the blocks cover the array and it ends holding the reference's product. No finiteness is used.
-/
import proofs.«170223_j25598005084994_2_alg».proof.Proof.Gen.KernelIdeal.Frame
import proofs.«170223_j25598005084994_2_alg».proof.Proof.RefTerms
import proofs.«170223_j25598005084994_2_alg».proof.Proof.LibPlainMatmul
import proofs.«170223_j25598005084994_2_alg».proof.Proof.LibHostDenseRows
import Idealize.ShloMosaic.PureOps.Ideal
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.KernelIdeal.ProjValue

open Cert.KernelIdeal Cert.KernelIdeal.Gen Cert.RefTerms

variable (V : (c : Dev nD) → (b : Ref sig .tc) → Buf (Elt Ideal) ((c : Thread nD τ).loc b))

/-- The zero offsets of a whole-buffer access. -/
theorem zero_offsets1 : (![0, 0] : Fin 2 → Nat) = fun _ => 0 := funext fun a => by fin_cases a <;> rfl

/-- Entry (p, q) of the body's product of a [10000, 128] block with the [128, 8] weights is ∑ k, x[p, k] · w[k, q]. -/
theorem pay1_apply (x : Vec Ideal S10000x128 .f32) (w : Vec Ideal S128x8 .f32) (p : Fin 10000) (q : Fin 8) :
    k1_pay1 (F := Ideal) x w (ix2 p q) = ∑ k : Fin 128, x (ix2 p k) * w (ix2 k q) := by
  unfold k1_pay1
  exact matmul_plain_zero_apply dot_S10000x128_S128x8_S10000x8_1_0_0_1_n_n rfl none _ _ p q

/-- Entry (r, q) of the reference's product is the same sum over the whole arrays. -/
theorem proj1_apply (x : Vec Ideal S200000x128 .f32) (w : Vec Ideal S128x8 .f32) (r : Fin 200000) (q : Fin 8) :
    proj1 (F := Ideal) x w (ix2 r q) = ∑ k : Fin 128, x (ix2 r k) * w (ix2 k q) := by
  unfold proj1
  exact Cert.LibHostDenseRows.hostDot_plain_apply Cert.ReferenceIdeal.dot_S200000x128_S128x8_S200000x8_1_0_0_1_n_n rfl none x w r q

/-- The block indices over the grid: the left operand's and the result's blocks move down the rows with the point, the
    weights' block stays at (0, 0). -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row p of the left operand's block at point t is row 10000·t + p of the array. -/
theorem lhs_block1_apply (c : Dev nD) (t : Fin cfg1.N) (p : Fin 10000) (k : Fin 128) (r : Fin 200000)
    (hr : r.val = 10000 * t.val + p.val) :
    (iblk1 (F := Ideal) V c 0 t : Vec Ideal S10000x128 .f32) (ix2 p k) = (V c main_arg1 : S200000x128.Idx → EReal) (ix2 r k) := by
  obtain ⟨e0, e1, -, -, -, -⟩ := block_index1 t
  unfold iblk1
  rw [View.read_apply]
  show V c main_arg1 _ = V c main_arg1 _
  refine congrArg _ ?_
  funext a
  apply Fin.ext
  match a with
  | ⟨0, _⟩ => show win1_0.index t 0 * 10000 + 1 * p.val = r.val; rw [e0, hr]; omega
  | ⟨1, _⟩ => show win1_0.index t 1 * 128 + 1 * k.val = k.val; rw [e1]; omega

/-- The weights' block at every point is the weight matrix itself. -/
theorem rhs_block1_apply (c : Dev nD) (t : Fin cfg1.N) (k : Fin 128) (q : Fin 8) :
    (iblk1 (F := Ideal) V c 1 t : Vec Ideal S128x8 .f32) (ix2 k q) = (V c main_arg12 : S128x8.Idx → EReal) (ix2 k q) := by
  obtain ⟨-, -, e0, e1, -, -⟩ := block_index1 t
  unfold iblk1
  rw [View.read_apply]
  show V c main_arg12 _ = V c main_arg12 _
  refine congrArg _ ?_
  funext a
  apply Fin.ext
  match a with
  | ⟨0, _⟩ => show win1_1.index t 0 * 128 + 1 * k.val = k.val; rw [e0]; omega
  | ⟨1, _⟩ => show win1_1.index t 1 * 8 + 1 * q.val = q.val; rw [e1]; omega

/-- What point t writes back is block t of the reference's product of the whole arrays. -/
theorem written_block1 (c : Dev nD) (t : Fin cfg1.N) :
    (dat1 (F := Ideal) V c).flushed 2 t
      = ((cfg1.win 2).blk t).view.read (Elt Ideal) (proj1 (F := Ideal) (V c main_arg1) (V c main_arg12)) := by
  show (cfg1.win 2).cut (grid1.coords t) ((dat1 (F := Ideal) V c).after 2 t) = _
  rw [after1_2]
  unfold out1_2
  rw [View.canon_unit_zero zero_offsets1]
  simp only [View.ld_unit_zero (S := S10000x128) zero_offsets1, View.ld_unit_zero (S := S128x8) zero_offsets1]
  funext j
  obtain ⟨p, q, rfl⟩ : ∃ (p : Fin 10000) (q : Fin 8), j = ix2 p q := ⟨j 0, j 1, eq_ix2 j⟩
  obtain ⟨-, -, -, -, e0, e1⟩ := block_index1 t
  have ht : t.val < 20 := t.isLt
  have hrow : ((cfg1.win 2).blk t).view.emb (ix2 p q) = ix2 (⟨10000 * t.val + p.val, by omega⟩ : Fin 200000) q := by
    funext a
    apply Fin.ext
    match a with
    | ⟨0, _⟩ => show win1_2.index t 0 * 10000 + 1 * p.val = 10000 * t.val + p.val; rw [e0]; omega
    | ⟨1, _⟩ => show win1_2.index t 1 * 8 + 1 * q.val = q.val; rw [e1]; omega
  rw [View.read_apply, hrow, proj1_apply]
  refine (pay1_apply _ _ p q).trans ?_
  refine Finset.sum_congr rfl fun k _ => ?_
  rw [lhs_block1_apply V c t p k ⟨10000 * t.val + p.val, by omega⟩ rfl, rhs_block1_apply V c t k q]

/-- An index of the array is in point t's block iff each coordinate is in the block's range on its axis. -/
theorem mem_block1 (t : Fin cfg1.N) (i : S200000x8.Idx) :
    i ∈ ((cfg1.win 2).blk t).view.set ↔ ∀ a : Fin 2, win1_2.index t a * S10000x8.size a ≤ (i a).val ∧ (i a).val < win1_2.index t a * S10000x8.size a + S10000x8.size a := by
  show i ∈ ((View.whole main_v9).slice (win1_2.rect t)).set ↔ _
  rw [View.set_slice_whole, Rect.mem_set_unit]
  exact Iff.rfl

/-- Row r of the array lies in the block of point r / 10000: the blocks cover the array. -/
theorem blocks_cover1 (i : S200000x8.Idx) :
    ∃ t : Fin cfg1.N, (cfg1.win 2).flush t = true ∧ i ∈ ((cfg1.win 2).blk t).view.set := by
  have hi0 : (i 0).val < 200000 := (i 0).isLt
  have hi1 : (i 1).val < 8 := (i 1).isLt
  have hN : cfg1.N = 20 := N_1
  let t : Fin cfg1.N := ⟨(i 0).val / 10000, by rw [hN]; omega⟩
  have htv : t.val = (i 0).val / 10000 := rfl
  obtain ⟨-, -, -, -, e0, e1⟩ := block_index1 t
  refine ⟨t, flush1_2 t, ?_⟩
  rw [mem_block1]
  intro a
  match a with
  | ⟨0, _⟩ => show win1_2.index t (0 : Fin 2) * 10000 ≤ (i 0).val ∧ (i 0).val < win1_2.index t (0 : Fin 2) * 10000 + 10000; rw [e0, htv]; omega
  | ⟨1, _⟩ => show win1_2.index t (1 : Fin 2) * 8 ≤ (i 1).val ∧ (i 1).val < win1_2.index t (1 : Fin 2) * 8 + 8; rw [e1]; omega

/-- The array after the region is the reference's product. -/
theorem final1 (c : Dev nD) :
    (dat1 (F := Ideal) V c).arrAt 2 cfg1.N = proj1 (F := Ideal) (V c main_arg1) (V c main_arg12) :=
  (dat1 (F := Ideal) V c).arrAt_eq_of_cover 2 (proj1 (F := Ideal) (V c main_arg1) (V c main_arg12))
    (fun t _ => written_block1 V c t) blocks_cover1

end Cert.KernelIdeal.ProjValue

end
-- ==== Proof.Proj2Value.lean ====
/-
  The second dense projection of the graph layers: the [200000, 4] array the region leaves is the reference's
  product of the first layer's activations [200000, 8] with the weight matrix [8, 4].

  The region runs over 20 points; point t reads rows 10000·t … 10000·t + 9999 of the left operand and the whole
  weight matrix, and writes rows 10000·t … 10000·t + 9999 of the result. On the extended reals entry (p, q) of the
  block's product into the zero accumulator is ∑ k < 8, x[p, k] · W[k, q] (a change of float format is the identity),
  and block row p of point t is array row 10000·t + p, so the entry is ∑ k, X[10000·t + p, k] · W[k, q]: entry
  (10000·t + p, q) of the reference's product, the same sum term by term. Every row r lies in the block of point
  r / 10000, so the blocks cover the array and it ends holding the reference's product. No finiteness is used.
-/
import proofs.«170223_j25598005084994_2_alg».proof.Proof.Gen.KernelIdeal.Frame
import proofs.«170223_j25598005084994_2_alg».proof.Proof.RefTerms
import proofs.«170223_j25598005084994_2_alg».proof.Proof.LibPlainMatmul
import proofs.«170223_j25598005084994_2_alg».proof.Proof.LibHostDenseRows
import Idealize.ShloMosaic.PureOps.Ideal
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.KernelIdeal.ProjValue

open Cert.KernelIdeal Cert.KernelIdeal.Gen Cert.RefTerms

variable (V : (c : Dev nD) → (b : Ref sig .tc) → Buf (Elt Ideal) ((c : Thread nD τ).loc b))

/-- The zero offsets of a whole-buffer access. -/
theorem zero_offsets2 : (![0, 0] : Fin 2 → Nat) = fun _ => 0 := funext fun a => by fin_cases a <;> rfl

/-- Entry (p, q) of the body's product of a [10000, 8] block with the [8, 4] weights is ∑ k, x[p, k] · w[k, q]. -/
theorem pay2_apply (x : Vec Ideal S10000x8 .f32) (w : Vec Ideal S8x4 .f32) (p : Fin 10000) (q : Fin 4) :
    k2_pay1 (F := Ideal) x w (ix2 p q) = ∑ k : Fin 8, x (ix2 p k) * w (ix2 k q) := by
  unfold k2_pay1
  rw [shapeCast_self]
  exact matmul_plain_zero_apply dot_S10000x8_S8x4_S10000x4_1_0_0_1_n_n rfl none _ _ p q

/-- Entry (r, q) of the reference's product is the same sum over the whole arrays. -/
theorem proj2_apply (x : Vec Ideal S200000x8 .f32) (w : Vec Ideal S8x4 .f32) (r : Fin 200000) (q : Fin 4) :
    proj2 (F := Ideal) x w (ix2 r q) = ∑ k : Fin 8, x (ix2 r k) * w (ix2 k q) := by
  unfold proj2
  exact Cert.LibHostDenseRows.hostDot_plain_apply Cert.ReferenceIdeal.dot_S200000x8_S8x4_S200000x4_1_0_0_1_n_n rfl none x w r q

/-- The block indices over the grid: the left operand's and the result's blocks move down the rows with the point, the
    weights' block stays at (0, 0). -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the left operand's block at point t is row 10000·t + p of the array. -/
theorem lhs_block2_apply (c : Dev nD) (t : Fin cfg2.N) (p : Fin 10000) (k : Fin 8) (r : Fin 200000)
    (hr : r.val = 10000 * t.val + p.val) :
    (iblk2 (F := Ideal) V c 0 t : Vec Ideal S10000x8 .f32) (ix2 p k) = (V c main_v54 : S200000x8.Idx → EReal) (ix2 r k) := by
  obtain ⟨e0, e1, -, -, -, -⟩ := block_index2 t
  unfold iblk2
  rw [View.read_apply]
  show V c main_v54 _ = V c main_v54 _
  refine congrArg _ ?_
  funext a
  apply Fin.ext
  match a with
  | ⟨0, _⟩ => show win2_0.index t 0 * 10000 + 1 * p.val = r.val; rw [e0, hr]; omega
  | ⟨1, _⟩ => show win2_0.index t 1 * 8 + 1 * k.val = k.val; rw [e1]; omega

/-- The weights' block at every point is the weight matrix itself. -/
theorem rhs_block2_apply (c : Dev nD) (t : Fin cfg2.N) (k : Fin 8) (q : Fin 4) :
    (iblk2 (F := Ideal) V c 1 t : Vec Ideal S8x4 .f32) (ix2 k q) = (V c main_arg14 : S8x4.Idx → EReal) (ix2 k q) := by
  obtain ⟨-, -, e0, e1, -, -⟩ := block_index2 t
  unfold iblk2
  rw [View.read_apply]
  show V c main_arg14 _ = V c main_arg14 _
  refine congrArg _ ?_
  funext a
  apply Fin.ext
  match a with
  | ⟨0, _⟩ => show win2_1.index t 0 * 8 + 1 * k.val = k.val; rw [e0]; omega
  | ⟨1, _⟩ => show win2_1.index t 1 * 4 + 1 * q.val = q.val; rw [e1]; omega

/-- What point t writes back is block t of the reference's product of the whole arrays. -/
theorem written_block2 (c : Dev nD) (t : Fin cfg2.N) :
    (dat2 (F := Ideal) V c).flushed 2 t
      = ((cfg2.win 2).blk t).view.read (Elt Ideal) (proj2 (F := Ideal) (V c main_v54) (V c main_arg14)) := by
  show (cfg2.win 2).cut (grid2.coords t) ((dat2 (F := Ideal) V c).after 2 t) = _
  rw [after2_2]
  unfold out2_2
  rw [View.canon_unit_zero zero_offsets2]
  simp only [View.ld_unit_zero (S := S10000x8) zero_offsets2, View.ld_unit_zero (S := S8x4) zero_offsets2]
  funext j
  obtain ⟨p, q, rfl⟩ : ∃ (p : Fin 10000) (q : Fin 4), j = ix2 p q := ⟨j 0, j 1, eq_ix2 j⟩
  obtain ⟨-, -, -, -, e0, e1⟩ := block_index2 t
  have ht : t.val < 20 := t.isLt
  have hrow : ((cfg2.win 2).blk t).view.emb (ix2 p q) = ix2 (⟨10000 * t.val + p.val, by omega⟩ : Fin 200000) q := by
    funext a
    apply Fin.ext
    match a with
    | ⟨0, _⟩ => show win2_2.index t 0 * 10000 + 1 * p.val = 10000 * t.val + p.val; rw [e0]; omega
    | ⟨1, _⟩ => show win2_2.index t 1 * 4 + 1 * q.val = q.val; rw [e1]; omega
  rw [View.read_apply, hrow, proj2_apply]
  refine (pay2_apply _ _ p q).trans ?_
  refine Finset.sum_congr rfl fun k _ => ?_
  rw [lhs_block2_apply V c t p k ⟨10000 * t.val + p.val, by omega⟩ rfl, rhs_block2_apply V c t k q]

/-- An index of the array is in point t's block iff each coordinate is in the block's range on its axis. -/
theorem mem_block2 (t : Fin cfg2.N) (i : S200000x4.Idx) :
    i ∈ ((cfg2.win 2).blk t).view.set ↔ ∀ a : Fin 2, win2_2.index t a * S10000x4.size a ≤ (i a).val ∧ (i a).val < win2_2.index t a * S10000x4.size a + S10000x4.size a := by
  show i ∈ ((View.whole main_v55).slice (win2_2.rect t)).set ↔ _
  rw [View.set_slice_whole, Rect.mem_set_unit]
  exact Iff.rfl

/-- Row r of the array lies in the block of point r / 10000: the blocks cover the array. -/
theorem blocks_cover2 (i : S200000x4.Idx) :
    ∃ t : Fin cfg2.N, (cfg2.win 2).flush t = true ∧ i ∈ ((cfg2.win 2).blk t).view.set := by
  have hi0 : (i 0).val < 200000 := (i 0).isLt
  have hi1 : (i 1).val < 4 := (i 1).isLt
  have hN : cfg2.N = 20 := N_2
  let t : Fin cfg2.N := ⟨(i 0).val / 10000, by rw [hN]; omega⟩
  have htv : t.val = (i 0).val / 10000 := rfl
  obtain ⟨-, -, -, -, e0, e1⟩ := block_index2 t
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; rw [e0, htv]; omega
  | ⟨1, _⟩ => show win2_2.index t (1 : Fin 2) * 4 ≤ (i 1).val ∧ (i 1).val < win2_2.index t (1 : Fin 2) * 4 + 4; rw [e1]; omega

/-- The array after the region is the reference's product. -/
theorem final2 (c : Dev nD) :
    (dat2 (F := Ideal) V c).arrAt 2 cfg2.N = proj2 (F := Ideal) (V c main_v54) (V c main_arg14) :=
  (dat2 (F := Ideal) V c).arrAt_eq_of_cover 2 (proj2 (F := Ideal) (V c main_v54) (V c main_arg14))
    (fun t _ => written_block2 V c t) blocks_cover2

end Cert.KernelIdeal.ProjValue

end
-- ==== Proof.ProjValue.lean ====
/-
  The two dense projections of the graph layers, together: after each region its result array is the reference's
  product of the region's left operand with its weight matrix (`ProjValue.final1`, `ProjValue.final2`).
-/
import proofs.«170223_j25598005084994_2_alg».proof.Proof.Proj1Value
import proofs.«170223_j25598005084994_2_alg».proof.Proof.Proj2Value
-- ==== Proof.RefResults.lean ====
/-
  The three results of the model as functions of its eighteen argument arrays, composed of the reference's pieces:
  the reconstruction, the concatenated embedding, and the logits. Both programs' runs are stated over these.
-/
import proofs.«170223_j25598005084994_2_alg».proof.Proof.RefTerms

noncomputable section

namespace Cert.RefTerms

open Cert.ReferenceIdeal Idealize.ShloMosaic Idealize.ShloMosaic.TcCoe

variable {F : FTy → Type} [FloatOps F]

/-- The text embedding: the encoder of the text features, the biases as one-row matrices. -/
def zTextOf (x : Vec F S4096x5000 .f32) (We1 : Vec F S5000x8 .f32) (be1 : Vec F S8 .f32) (We2 : Vec F S8x4 .f32)
    (be2 : Vec F S4 .f32) : Vec F S4096x4 .f32 :=
  enc x We1 (row8 be1) We2 (row4 be2)

/-- The reconstruction: the decoder of the text embedding. -/
def xHatOf (x : Vec F S4096x5000 .f32) (We1 : Vec F S5000x8 .f32) (be1 : Vec F S8 .f32) (We2 : Vec F S8x4 .f32)
    (be2 : Vec F S4 .f32) (Wd1 : Vec F S4x8 .f32) (bd1 : Vec F S8 .f32) (Wd2 : Vec F S8x5000 .f32)
    (bd2 : Vec F S5000 .f32) : Vec F S4096x5000 .f32 :=
  dec (zTextOf x We1 be1 We2 be2) Wd1 (row8 bd1) Wd2 (row5000 bd2)

/-- The graph embedding: two message-passing layers over the two projections of the node features, then the mean pool
    over the graphs. -/
def zGraphOf (nx : Vec F S200000x128 .f32) (ei : Vec F S2x6400000 .i32) (batch : Vec F S200000 .i32)
    (Wg1 : Vec F S128x8 .f32) (bg1 : Vec F S8 .f32) (Wg2 : Vec F S8x4 .f32) (bg2 : Vec F S4 .f32) : Vec F S4096x4 .f32 :=
  pool (gcn4 (proj2 (relu8 (gcn8 (proj1 nx Wg1) (erow0 ei) (erow1 ei) bg1)) Wg2) (erow0 ei) (erow1 ei) bg2) batch

/-- The concatenated embedding. -/
def zAllOf (x : Vec F S4096x5000 .f32) (nx : Vec F S200000x128 .f32) (ei : Vec F S2x6400000 .i32)
    (batch : Vec F S200000 .i32) (We1 : Vec F S5000x8 .f32) (be1 : Vec F S8 .f32) (We2 : Vec F S8x4 .f32)
    (be2 : Vec F S4 .f32) (Wg1 : Vec F S128x8 .f32) (bg1 : Vec F S8 .f32) (Wg2 : Vec F S8x4 .f32)
    (bg2 : Vec F S4 .f32) : Vec F S4096x8 .f32 :=
  zcat (zTextOf x We1 be1 We2 be2) (zGraphOf nx ei batch Wg1 bg1 Wg2 bg2)

/-- The logits: the classifier on the concatenated embedding. -/
def logitsOf (x : Vec F S4096x5000 .f32) (nx : Vec F S200000x128 .f32) (ei : Vec F S2x6400000 .i32)
    (batch : Vec F S200000 .i32) (We1 : Vec F S5000x8 .f32) (be1 : Vec F S8 .f32) (We2 : Vec F S8x4 .f32)
    (be2 : Vec F S4 .f32) (Wg1 : Vec F S128x8 .f32) (bg1 : Vec F S8 .f32) (Wg2 : Vec F S8x4 .f32)
    (bg2 : Vec F S4 .f32) (Wc : Vec F S8x1 .f32) (bc : Vec F S1 .f32) : Vec F S4096x1 .f32 :=
  logits (zAllOf x nx ei batch We1 be1 We2 be2 Wg1 bg1 Wg2 bg2) Wc bc

end Cert.RefTerms

end
-- ==== Proof.LibCastRow.lean ====
/-
  A vector as the one row of a matrix, spelt two ways.

  A rank-1 array [N] can be made the one row of a [1, N] matrix either by a shape cast or by a broadcast along axis 1
  into a leading unit axis. Both read, at (u, e), the vector at e: the row-major position of (u, e) in [1, N] is
  u·N + e = e since u = 0, and the broadcast keeps coordinate e on the axis it names (coordinate 0 when N = 1, where
  e = 0 anyway). So the two arrays are equal, for any element type and any extent.
-/
import Idealize.ShloMosaic.Lib.ValueIdx
import Idealize.ShloMosaic.Lib.ValueLayout
import Idealize.ShloMosaic.Lib.Pipeline.Value

noncomputable section

namespace Cert.LibCastRow

open Idealize.ShloMosaic Idealize.ShloMosaic.ValueIdx

/-- A vector [N] recast as the one row of a [1, N] matrix is the vector broadcast along axis 1 into one row. -/
theorem cast_row {α : Type} {N : ℕ} (b : (⟨1, ![N]⟩ : Shape).Idx → α)
    (h1 : (⟨1, ![N]⟩ : Shape).ShapeCasts ⟨2, ![1, N]⟩)
    (h2 : (⟨1, ![N]⟩ : Shape).BroadcastsInDim ⟨2, ![1, N]⟩ ![1]) :
    shapeCast ⟨2, ![1, N]⟩ b h1 = broadcastInDim ⟨2, ![1, N]⟩ ![1] h2 b :=
  funext fun j => by
    obtain ⟨u, e, rfl⟩ : ∃ (u : Fin 1) (e : Fin N), j = ix2 u e := ⟨j 0, j 1, eq_ix2 j⟩
    rw [shapeCast_a_1a_apply b h1 u e]
    exact (broadcastInDim_apply ![1] h2 b (ix2 u e) (ix1 e) (fun a => by
      match a with
      | ⟨0, _⟩ =>
        show e.val = if N = 1 then 0 else e.val
        split
        · have := e.isLt; omega
        · rfl)).symm

end Cert.LibCastRow

end
-- ==== Proof.KValue.lean ====
/-
  The idealized kernel program's three results as functions of its arguments.

  The last boundary's contents at the three result buffers are read back through the host stretches (the lemmas of the
  host-steps module) to the regions' output arrays, and each region's output array is the reference's own piece of
  arithmetic applied to the arrays the region was entered with: region 0 the encoder and the decoder of the
  autoencoder, regions 1 and 2 the two dense projections of the graph layers. A bias vector recast as a one-row
  matrix is the same one-row matrix the reference makes by a broadcast.
-/
import proofs.«170223_j25598005084994_2_alg».proof.Proof.KHost
import proofs.«170223_j25598005084994_2_alg».proof.Proof.AEValue
import proofs.«170223_j25598005084994_2_alg».proof.Proof.ProjValue
import proofs.«170223_j25598005084994_2_alg».proof.Proof.RefResults
import proofs.«170223_j25598005084994_2_alg».proof.Proof.LibCastRow
import Idealize.ShloMosaic.Lib.ValueLayout
import Idealize.ShloMosaic.Lib.Pipeline.Value

set_option maxRecDepth 16384

noncomputable section

namespace Cert.KernelIdeal.Results

open Idealize.ShloMosaic Idealize.ShloMosaic.TcCoe Idealize.ShloMosaic.ValueIdx Idealize.SL.Sem
open Cert.KernelIdeal Cert.KernelIdeal.Gen Cert.KernelIdeal.HostSteps Cert.RefTerms Cert.LibCastRow

variable (m : (ℓ : Loc nD τ sig) → Buf (Elt Ideal) ℓ) (ρ : Dev nD → PrngReg)

/-- The text embedding, the reconstruction, the concatenated embedding and the logits of the program's arguments. -/
def zText (c : Dev nD) : Vec Ideal Cert.ReferenceIdeal.S4096x4 .f32 :=
  zTextOf (F := Ideal) (m ((c : Thread nD τ).loc main_arg0)) (m ((c : Thread nD τ).loc main_arg4)) (m ((c : Thread nD τ).loc main_arg5)) (m ((c : Thread nD τ).loc main_arg6)) (m ((c : Thread nD τ).loc main_arg7))
def xHat (c : Dev nD) : Vec Ideal Cert.ReferenceIdeal.S4096x5000 .f32 :=
  xHatOf (F := Ideal) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
def zAll (c : Dev nD) : Vec Ideal Cert.ReferenceIdeal.S4096x8 .f32 :=
  zAllOf (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15))
def logitsAll (c : Dev nD) : Vec Ideal Cert.ReferenceIdeal.S4096x1 .f32 :=
  logitsOf (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

/-- Region 0's first output array: the text embedding. -/
theorem W2_z (c : Dev nD) : W2 m ρ c (Proc.devRef .tc main_v4_0) = zText m c := by
  refine (W2_arr m ρ c 9).trans ?_
  rw [AEValue.final_z (V1 m ρ) c]
  show enc (F := Ideal) (W1 m ρ c (Proc.devRef .tc main_arg0)) (W1 m ρ c (Proc.devRef .tc main_arg4)) (W1 m ρ c (Proc.devRef .tc main_v0)) (W1 m ρ c (Proc.devRef .tc main_arg6)) (W1 m ρ c (Proc.devRef .tc main_v1)) = _
  rw [W1_main_arg0, W1_main_arg4, W1_main_arg6, W1_main_v0, W1_main_v1]
  unfold zText zTextOf row8 row4
  rw [cast_row, cast_row]

/-- Region 0's second output array: the reconstruction. -/
theorem W2_x (c : Dev nD) : W2 m ρ c (Proc.devRef .tc main_v4_1) = xHat m c := by
  refine (W2_arr m ρ c 10).trans ?_
  rw [AEValue.final_x (V1 m ρ) c]
  show dec (F := Ideal) (enc (F := Ideal) (W1 m ρ c (Proc.devRef .tc main_arg0)) (W1 m ρ c (Proc.devRef .tc main_arg4)) (W1 m ρ c (Proc.devRef .tc main_v0)) (W1 m ρ c (Proc.devRef .tc main_arg6)) (W1 m ρ c (Proc.devRef .tc main_v1)))
      (W1 m ρ c (Proc.devRef .tc main_arg8)) (W1 m ρ c (Proc.devRef .tc main_v2)) (W1 m ρ c (Proc.devRef .tc main_arg10)) (W1 m ρ c (Proc.devRef .tc main_v3)) = _
  rw [W1_main_arg0, W1_main_arg4, W1_main_arg6, W1_main_v0, W1_main_v1, W1_main_arg8, W1_main_arg10, W1_main_v2, W1_main_v3]
  unfold xHat xHatOf zTextOf row8 row4 row5000
  rw [cast_row, cast_row, cast_row, cast_row]

/-- Region 1's output array: the first projection of the node features. -/
theorem W4_h (c : Dev nD) : W4 m ρ c (Proc.devRef .tc main_v9) = proj1 (F := Ideal) (m ((c : Thread nD τ).loc main_arg1)) (m ((c : Thread nD τ).loc main_arg12)) := by
  refine (W4_arr m ρ c 2).trans ?_
  rw [ProjValue.final1 (V3 m ρ) c]
  show proj1 (F := Ideal) (W3 m ρ c (Proc.devRef .tc main_arg1)) (W3 m ρ c (Proc.devRef .tc main_arg12)) = _
  rw [W3_main_arg1, W3_main_arg12]

/-- Region 2's output array: the second projection, of the first layer's output. -/
theorem W9_h (c : Dev nD) : W9 m ρ c (Proc.devRef .tc main_v55)
    = proj2 (F := Ideal) (relu8 (gcn8 (proj1 (m ((c : Thread nD τ).loc main_arg1)) (m ((c : Thread nD τ).loc main_arg12))) (erow0 (m ((c : Thread nD τ).loc main_arg2))) (erow1 (m ((c : Thread nD τ).loc main_arg2))) (m ((c : Thread nD τ).loc main_arg13)))) (m ((c : Thread nD τ).loc main_arg14)) := by
  refine (W9_arr m ρ c 2).trans ?_
  rw [ProjValue.final2 (V8 m ρ) c]
  show proj2 (F := Ideal) (W8 m ρ c (Proc.devRef .tc main_v54)) (W8 m ρ c (Proc.devRef .tc main_arg14)) = _
  rw [W8_main_v54, W8_main_arg14, W4_h, W4_main_v6, W4_main_v8, W4_main_arg13]

/-- The three results at the last boundary. -/
theorem result_x (c : Dev nD) : W12 m ρ c (Proc.devRef .tc main_v4_1) = xHat m c :=
  (W12_main_v4_1 m ρ c).trans (W2_x m ρ c)

theorem result_z (c : Dev nD) : W12 m ρ c (Proc.devRef .tc main_v112) = zAll m c := by
  rw [W12_main_v112, W9_main_v4_0, W2_z, W9_h, W9_main_v6, W9_main_v8, W9_main_arg15, W9_main_arg3]
  rfl

theorem result_logits (c : Dev nD) : W12 m ρ c (Proc.devRef .tc main_v116) = logitsAll m c := by
  rw [W12_main_v116, W9_main_v4_0, W2_z, W9_h, W9_main_v6, W9_main_v8, W9_main_arg15, W9_main_arg3, W9_main_arg16, W9_main_arg17]
  rfl

end Cert.KernelIdeal.Results

end
-- ==== Proof.RefRun.lean ====
/-
  The reference program's run, stated over the model's pieces by name.

  The reference is one straight line of 179 host operations. Every weakly fair execution of it terminates, and what a
  buffer holds at the end is the fold of the operations from the launch memory; read at the three result buffers that
  fold is the reconstruction, the logits and the concatenated embedding as `Cert.RefTerms` composes them from the
  argument arrays (each operation's result is its function of its operands' contents, any other buffer keeps what it
  held; a concatenation is read as a function of its two operands), and every argument array is as launched.
-/
import proofs.«170223_j25598005084994_2_alg».proof.Proof.RefOpsP
import proofs.«170223_j25598005084994_2_alg».proof.Proof.RefResults
import proofs.«170223_j25598005084994_2_alg».proof.Proof.LibConcatPair

set_option maxRecDepth 16384

noncomputable section

namespace Cert.ReferenceIdeal.RefRun

open Cert.ReferenceIdeal Cert.ReferenceIdeal.Gen Cert.ReferenceIdeal.ValueP Idealize.ShloMosaic Idealize.ShloMosaic.TcCoe
open Idealize.SL.Sem Idealize.ShloMosaic.StableHlo Cert.RefTerms Cert.LibConcatPair

variable {F : FTy → Type} [FloatOps F]

/-- Reads a buffer after the operations: each operation's result at its own buffer is its function of its operands'
    contents, and any other buffer keeps what it held. -/
macro "ref_walk" : tactic => `(tactic| (
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat_pair]))

set_option maxHeartbeats 64000000 in
/-- On every device, from any memory with zero counters: every weakly fair execution of the reference terminates with
    the three results at the model's pieces of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = xHatOf (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v136) = logitsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_v132) = zAllOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v24).trans (by ref_walk <;> rfl),
      (h c main_v136).trans (by ref_walk <;> rfl),
      (h c main_v132).trans (by ref_walk <;> rfl),
      (h c main_arg0).trans (by ref_walk <;> rfl),
      (h c main_arg1).trans (by ref_walk <;> rfl),
      (h c main_arg2).trans (by ref_walk <;> rfl),
      (h c main_arg3).trans (by ref_walk <;> rfl),
      (h c main_arg4).trans (by ref_walk <;> rfl),
      (h c main_arg5).trans (by ref_walk <;> rfl),
      (h c main_arg6).trans (by ref_walk <;> rfl),
      (h c main_arg7).trans (by ref_walk <;> rfl),
      (h c main_arg8).trans (by ref_walk <;> rfl),
      (h c main_arg9).trans (by ref_walk <;> rfl),
      (h c main_arg10).trans (by ref_walk <;> rfl),
      (h c main_arg11).trans (by ref_walk <;> rfl),
      (h c main_arg12).trans (by ref_walk <;> rfl),
      (h c main_arg13).trans (by ref_walk <;> rfl),
      (h c main_arg14).trans (by ref_walk <;> rfl),
      (h c main_arg15).trans (by ref_walk <;> rfl),
      (h c main_arg16).trans (by ref_walk <;> rfl),
      (h c main_arg17).trans (by ref_walk <;> rfl)⟩)
    (run_seq scopedRefs_eq scopedSems_eq defs main (fun _ => ops) main_eq (fun _ => ops_sub) m ρ)

end Cert.ReferenceIdeal.RefRun

end
-- ==== Proof.lean ====
/-
  The certificate of the combined model: a dense autoencoder on text features, two graph-convolution layers on node
  features, a mean pool over the graphs and a linear classifier, computed by a program of three pipelined kernels
  (the fused autoencoder and the two dense projections of the graph layers) among host operations, against the
  reference that spells everything as host operations.

  On the extended reals the two programs compute the same three arrays. Each kernel's output array is, block by block,
  the reference's own expression of the arrays the kernel reads: a block row of a matrix product into a zero
  accumulator is the same sum over the contracted axis as the row of the whole product, a change of float format is
  the identity, a bias row spread over the block's rows is the bias spread over all rows, and the kernel's logistic
  is 1 / (1 + exp (-x)). Everything else (message passing by gathers and scatter-adds, the mean pool, the
  concatenation, the classifier) is the same host operations in both programs, carried as the same named pieces.
  No law that needs finiteness is used: the precondition is never opened.

  The three frames are the programs' runs with the results forgotten; the idealization rewrote nothing.
-/
import proofs.«170223_j25598005084994_2_alg».proof.Defs
import proofs.«170223_j25598005084994_2_alg».proof.Proof.Gen.Kernel
import proofs.«170223_j25598005084994_2_alg».proof.Proof.Gen.Kernel.Frame
import proofs.«170223_j25598005084994_2_alg».proof.Proof.Gen.KernelIdeal
import proofs.«170223_j25598005084994_2_alg».proof.Proof.Gen.KernelIdeal.Frame
import proofs.«170223_j25598005084994_2_alg».proof.Proof.Gen.ReferenceIdeal
import proofs.«170223_j25598005084994_2_alg».proof.Proof.Gen.Pre_finite_inputs
import proofs.«170223_j25598005084994_2_alg».proof.Proof.KRun
import proofs.«170223_j25598005084994_2_alg».proof.Proof.KValue
import proofs.«170223_j25598005084994_2_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the three results dropped. -/
theorem frame_reference : Cert.frame_ReferenceIdeal := fun m ρ _ =>
  (θ_run Cert.ReferenceIdeal.defs _ _).mono (fun _ h c => (h c).2.2.2)
    (Cert.ReferenceIdeal.RefRun.run (F := Ideal) m ρ)

/-- The idealization rewrote no operation. -/
theorem preserves : Cert.preserves_Kernel_KernelIdeal := trivial

/-- Both programs end with the reconstruction, the logits and the concatenated embedding at the same functions of the
    arguments: the kernel program by its regions' output arrays read through its host stretches, the reference by its
    one straight line; the arguments agree. -/
theorem algebraic : Cert.algebraic_KernelIdeal_ReferenceIdeal := by
  intro m ρ m' ρ' _ hagree
  refine ⟨fun c => Cert.KernelIdeal.Results.xHat m c, fun c => Cert.KernelIdeal.Results.logitsAll m c,
    fun c => Cert.KernelIdeal.Results.zAll m c, ?_, ?_⟩
  · exact (θ_run Cert.KernelIdeal.defs _ _).mono (fun r h c =>
      ⟨(h c).1.trans (Cert.KernelIdeal.Results.result_x m ρ c),
       (h c).2.1.trans (Cert.KernelIdeal.Results.result_logits m ρ c),
       (h c).2.2.1.trans (Cert.KernelIdeal.Results.result_z m ρ c), (h c).2.2.2⟩)
      (Cert.KernelIdeal.Named.run (F := Ideal) m ρ)
  · refine (θ_run Cert.ReferenceIdeal.defs _ _).mono (fun r h c => ?_)
      (Cert.ReferenceIdeal.RefRun.run (F := Ideal) m' ρ')
    obtain ⟨e0, e1, e2, e3, e4, e5, e6, e7, e8, e9, e10, e11, e12, e13, e14, e15, e16, e17⟩ := hagree c
    refine ⟨(h c).1.trans ?_, (h c).2.1.trans ?_, (h c).2.2.1.trans ?_, (h c).2.2.2⟩
    · rw [e0, e4, e5, e6, e7, e8, e9, e10, e11]; rfl
    · rw [e0, e1, e2, e3, e4, e5, e6, e7, e12, e13, e14, e15, e16, e17]; rfl
    · rw [e0, e1, e2, e3, e4, e5, e6, e7, e12, e13, e14, e15]; rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
